-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1600000x16 : Shape := ⟨2, ![1600000, 16]⟩
abbrev S128x64 : Shape := ⟨2, ![128, 64]⟩
abbrev S64 : Shape := ⟨1, ![64]⟩
abbrev S64x64 : Shape := ⟨2, ![64, 64]⟩
abbrev S144x64 : Shape := ⟨2, ![144, 64]⟩
abbrev S64x1 : Shape := ⟨2, ![64, 1]⟩
abbrev S1 : Shape := ⟨1, ![1]⟩
abbrev S2x1600000 : Shape := ⟨2, ![2, 1600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S144x64 : S_.BroadcastsInDim S144x64 (![] : Fin 0 → Fin S144x64.rank)
  reducesTo_S144x64_S_d0_1 : S144x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S64x64 .f32) (main_arg8 : FVec F S144x64 .f32) (main_arg9 : FVec F S64 .f32) (main_arg10 : FVec F S64x1 .f32) (main_arg11 : FVec F S1 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S144x64 .f32 := Host.absf main_arg8
  let main_cst_14 : FVec F S_ .f32 := constant S_ .f32 0x7F800000#32
  let main_v40 : FVec F S144x64 .f32 := broadcastInDim S144x64 ![] bcast_S_S144x64 main_cst_14
  let main_v41 : IVec S144x64 1 := cmpf .olt main_v39 main_v40
  let main_c_15 : IVec S_ 1 := constantI S_ 1 1#1
  let main_v42 : IVec S_ 1 := (fun x v => Host.reduce IntOp.andi x v reducesTo_S144x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x1 .f32 := Host.absf main_arg10
  let main_cst_18 : FVec F S_ .f32 := constant S_ .f32 0x7F800000#32
  let main_v50 : FVec F S64x1 .f32 := broadcastInDim S64x1 ![] bcast_S_S64x1 main_cst_18
  fn_part3 (F := F) main_arg11 main_v48 main_v49 main_v50

def fn_part1 {F : FTy → Type} [FloatOps F] (main_arg4 : FVec F S128x64 .f32) (main_arg5 : FVec F S64x64 .f32) (main_arg6 : FVec F S64 .f32) (main_arg7 : FVec F S64x64 .f32) (main_arg8 : FVec F S144x64 .f32) (main_arg9 : FVec F S64 .f32) (main_arg10 : FVec F S64x1 .f32) (main_arg11 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S50000x128 .f32) (main_arg1 : FVec F S1600000x16 .f32) (main_arg2 : FVec F S128x64 .f32) (main_arg3 : FVec F S64 .f32) (main_arg4 : FVec F S128x64 .f32) (main_arg5 : FVec F S64x64 .f32) (main_arg6 : FVec F S64 .f32) (main_arg7 : FVec F S64x64 .f32) (main_arg8 : FVec F S144x64 .f32) (main_arg9 : FVec F S64 .f32) (main_arg10 : FVec F S64x1 .f32) (main_arg11 : FVec F S1 .f32) (main_arg12 : IVec S2x1600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000x16 .f32 := Host.absf main_arg1
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_v13 main_v16
-- ==== Kernel.lean ====
abbrev S50000x128 : Shape := ⟨2, ![50000, 128]⟩
abbrev S1600000x16 : Shape := ⟨2, ![1600000, 16]⟩
abbrev S128x64 : Shape := ⟨2, ![128, 64]⟩
abbrev S64 : Shape := ⟨1, ![64]⟩
abbrev S64x64 : Shape := ⟨2, ![64, 64]⟩
abbrev S144x64 : Shape := ⟨2, ![144, 64]⟩
abbrev S64x1 : Shape := ⟨2, ![64, 1]⟩
abbrev S1 : Shape := ⟨1, ![1]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x128 : Shape := ⟨2, ![1600000, 128]⟩
abbrev S50000x64 : Shape := ⟨2, ![50000, 64]⟩
abbrev S5000x128 : Shape := ⟨2, ![5000, 128]⟩
abbrev S5000x1 : Shape := ⟨2, ![5000, 1]⟩
abbrev S5000x64 : Shape := ⟨2, ![5000, 64]⟩
abbrev S1x64 : Shape := ⟨2, ![1, 64]⟩
abbrev S1600000x64 : Shape := ⟨2, ![1600000, 64]⟩
abbrev S16x64 : Shape := ⟨2, ![16, 64]⟩
abbrev S2000x64 : Shape := ⟨2, ![2000, 64]⟩
abbrev S1607680x64 : Shape := ⟨2, ![1607680, 64]⟩
abbrev S1607680x16 : Shape := ⟨2, ![1607680, 16]⟩
abbrev S12560x128 : Shape := ⟨2, ![12560, 128]⟩
abbrev S10240x64 : Shape := ⟨2, ![10240, 64]⟩
abbrev S10240x16 : Shape := ⟨2, ![10240, 16]⟩
abbrev S80x128 : Shape := ⟨2, ![80, 128]⟩
abbrev S10240x1 : Shape := ⟨2, ![10240, 1]⟩
abbrev S1x1 : Shape := ⟨2, ![1, 1]⟩
abbrev S1607680 : Shape := ⟨1, ![1607680]⟩

abbrev nBuf : Space → Nat
  | .hbm => 94
  | .vmem => 42
  | .smem => 0
  | _ => 0

abbrev bufTy : (tb : Table) → Fin (tcTables nBuf tb) → BufTy
  | .hbm, ⟨0, _⟩ => ⟨S50000x128, .f32⟩
  | .hbm, ⟨1, _⟩ => ⟨S1600000x16, .f32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S144x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S2x1600000, .i32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S50000, .f32⟩
  | .hbm, ⟨21, _⟩ => ⟨S1600000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S50000x128, .f32⟩
  | .hbm, ⟨41, _⟩ => ⟨S1600000x1, .i32⟩
  | .hbm, ⟨42, _⟩ => ⟨S50000x128, .f32⟩
  | .hbm, ⟨43, _⟩ => ⟨S50000x64, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S_, .f32⟩
  | .hbm, ⟨54, _⟩ => ⟨S50000x64, .f32⟩
  | .hbm, ⟨55, _⟩ => ⟨S1600000x1, .i32⟩
  | .hbm, ⟨56, _⟩ => ⟨S50000x64, .f32⟩
  | .hbm, ⟨57, _⟩ => ⟨S50000x64, .f32⟩
  | .hbm, ⟨58, _⟩ => ⟨S64x64, .f32⟩
  | .hbm, ⟨59, _⟩ => ⟨S64x64, .f32⟩
  | .hbm, ⟨60, _⟩ => ⟨S16x64, .f32⟩
  | .hbm, ⟨61, _⟩ => ⟨S50000x64, .bf16⟩
  | .hbm, ⟨62, _⟩ => ⟨S50000x64, .bf16⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x64, .bf16⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000x64, .bf16⟩
  | .hbm, ⟨81, _⟩ => ⟨S1600000x16, .bf16⟩
  | .hbm, ⟨82, _⟩ => ⟨S_, .i32⟩
  | .hbm, ⟨83, _⟩ => ⟨S_, .bf16⟩
  | .hbm, ⟨84, _⟩ => ⟨S1607680x64, .bf16⟩
  | .hbm, ⟨85, _⟩ => ⟨S_, .i32⟩
  | .hbm, ⟨86, _⟩ => ⟨S_, .bf16⟩
  | .hbm, ⟨87, _⟩ => ⟨S1607680x64, .bf16⟩
  | .hbm, ⟨88, _⟩ => ⟨S_, .i32⟩
  | .hbm, ⟨89, _⟩ => ⟨S_, .bf16⟩
  | .hbm, ⟨90, _⟩ => ⟨S1607680x16, .bf16⟩
  | .hbm, ⟨91, _⟩ => ⟨S12560x128, .f32⟩
  | .hbm, ⟨92, _⟩ => ⟨S1607680, .f32⟩
  | .hbm, ⟨93, _⟩ => ⟨S1600000, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x64, .f32⟩
  | .local _ .vmem, ⟨7, _⟩ => ⟨S64, .f32⟩
  | .local _ .vmem, ⟨8, _⟩ => ⟨S128x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S5000x64, .f32⟩
  | .local _ .vmem, ⟨16, _⟩ => ⟨S5000x64, .f32⟩
  | .local _ .vmem, ⟨17, _⟩ => ⟨S64x64, .f32⟩
  | .local _ .vmem, ⟨18, _⟩ => ⟨S64, .f32⟩
  | .local _ .vmem, ⟨19, _⟩ => ⟨S64x64, .f32⟩
  | .local _ .vmem, ⟨20, _⟩ => ⟨S5000x64, .f32⟩
  | .local _ .vmem, ⟨21, _⟩ => ⟨S5000x64, .f32⟩
  | .local _ .vmem, ⟨22, _⟩ => ⟨S2000x64, .f32⟩
  | .local _ .vmem, ⟨23, _⟩ => ⟨S2000x64, .f32⟩
  | .local _ .vmem, ⟨24, _⟩ => ⟨S64x64, .f32⟩
  | .local _ .vmem, ⟨25, _⟩ => ⟨S64x64, .f32⟩
  | .local _ .vmem, ⟨26, _⟩ => ⟨S2000x64, .bf16⟩
  | .local _ .vmem, ⟨27, _⟩ => ⟨S2000x64, .bf16⟩
  | .local _ .vmem, ⟨28, _⟩ => ⟨S2000x64, .bf16⟩
  | .local _ .vmem, ⟨29, _⟩ => ⟨S2000x64, .bf16⟩
  | .local _ .vmem, ⟨30, _⟩ => ⟨S10240x64, .bf16⟩
  | .local _ .vmem, ⟨31, _⟩ => ⟨S10240x64, .bf16⟩
  | .local _ .vmem, ⟨32, _⟩ => ⟨S10240x64, .bf16⟩
  | .local _ .vmem, ⟨33, _⟩ => ⟨S10240x64, .bf16⟩
  | .local _ .vmem, ⟨34, _⟩ => ⟨S10240x16, .bf16⟩
  | .local _ .vmem, ⟨35, _⟩ => ⟨S10240x16, .bf16⟩
  | .local _ .vmem, ⟨36, _⟩ => ⟨S16x64, .f32⟩
  | .local _ .vmem, ⟨37, _⟩ => ⟨S64, .f32⟩
  | .local _ .vmem, ⟨38, _⟩ => ⟨S64x1, .f32⟩
  | .local _ .vmem, ⟨39, _⟩ => ⟨S1, .f32⟩
  | .local _ .vmem, ⟨40, _⟩ => ⟨S80x128, .f32⟩
  | .local _ .vmem, ⟨41, _⟩ => ⟨S80x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38_0 : Ref sig .tc := ⟨.hbm, 61, rfl⟩
abbrev main_v38_1 : Ref sig .tc := ⟨.hbm, 62, rfl⟩
abbrev main_c_8 : Ref sig .tc := ⟨.hbm, 63, rfl⟩
abbrev main_v39 : Ref sig .tc := ⟨.hbm, 64, rfl⟩
abbrev main_v40 : Ref sig .tc := ⟨.hbm, 65, rfl⟩
abbrev main_c_9 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_10 : Ref sig .tc := ⟨.hbm, 72, rfl⟩
abbrev main_v46 : Ref sig .tc := ⟨.hbm, 73, rfl⟩
abbrev main_v47 : Ref sig .tc := ⟨.hbm, 74, rfl⟩
abbrev main_c_11 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_c_12 : Ref sig .tc := ⟨.hbm, 82, rfl⟩
abbrev main_call0_v0 : Ref sig .tc := ⟨.hbm, 83, rfl⟩
abbrev main_v54 : Ref sig .tc := ⟨.hbm, 84, rfl⟩
abbrev main_c_13 : Ref sig .tc := ⟨.hbm, 85, rfl⟩
abbrev main_call1_v0 : Ref sig .tc := ⟨.hbm, 86, rfl⟩
abbrev main_v55 : Ref sig .tc := ⟨.hbm, 87, rfl⟩
abbrev main_c_14 : Ref sig .tc := ⟨.hbm, 88, rfl⟩
abbrev main_call2_v0 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc3_stg7_0 : Ref sig .tc := ⟨.vmem, 40, rfl⟩
abbrev cc3_stg7_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem3_1 : DmaSem sig := 27
abbrev cc2_sem4_0 : DmaSem sig := 28
abbrev cc2_sem4_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem5_0 : DmaSem sig := 38
abbrev cc3_sem6_0 : DmaSem sig := 39
abbrev cc3_sem7_0 : DmaSem sig := 40
abbrev cc3_sem7_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x64 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![157], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10240x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10240x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10240x16 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S16x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S80x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  shapeCasts_S50000_S50000x1 : S50000.ShapeCasts S50000x1
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S5000x64_S5000x64 : S5000x64.ShapeCasts S5000x64
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  slices_S144x64_S64x64_0_0 : S144x64.Slices ![0, 0] S64x64
  slices_S144x64_S64x64_64_0 : S144x64.Slices ![64, 0] S64x64
  slices_S144x64_S16x64_128_0 : S144x64.Slices ![128, 0] S16x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  shapeCasts_S64x64_S64x64 : S64x64.ShapeCasts S64x64
  packedbf16_S2000x64_S2000x64_0_0 : (Rect.unit (s := S2000x64) ![0, 0] S2000x64.size inb_S2000x64_S2000x64_0_0).PackedRows (EltTy.packing .bf16)
  pads_S1600000x64_S1607680x64_076800_000 : S1600000x64.Pads (![0, 0] : Fin 2 → Nat) ![7680, 0] ![0, 0] S1607680x64
  h_S_ : 0 < S_.numel
  pads_S1600000x16_S1607680x16_076800_000 : S1600000x16.Pads (![0, 0] : Fin 2 → Nat) ![7680, 0] ![0, 0] S1607680x16
  inb_S10240x64_S10240x64_0_0 : ∀ a, (![0, 0] : Fin 2 → Nat) a + S10240x64.size a ≤ S10240x64.size a
  h_S10240x64 : 0 < S10240x64.numel
  shapeCasts_S10240x64_S10240x64 : S10240x64.ShapeCasts S10240x64
  inb_S10240x16_S10240x16_0_0 : ∀ a, (![0, 0] : Fin 2 → Nat) a + S10240x16.size a ≤ S10240x16.size a
  h_S10240x16 : 0 < S10240x16.numel
  shapeCasts_S10240x16_S10240x16 : S10240x16.ShapeCasts S10240x16
  inb_S16x64_S16x64_0_0 : ∀ a, (![0, 0] : Fin 2 → Nat) a + S16x64.size a ≤ S16x64.size a
  h_S16x64 : 0 < S16x64.numel
  shapeCasts_S16x64_S16x64 : S16x64.ShapeCasts S16x64
  broadcasts_S1x64_S10240x64 : S1x64.Broadcasts S10240x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S10240x1 : S1x1.Broadcasts S10240x1
  shapeCasts_S10240x1_S80x128 : S10240x1.ShapeCasts S80x128
  inb_S80x128_S80x128_0_0 : ∀ a, (![0, 0] : Fin 2 → Nat) a + S80x128.size a ≤ S80x128.size a
  h_S80x128 : 0 < S80x128.numel
  shapeCasts_S12560x128_S1607680 : S12560x128.ShapeCasts S1607680
  slices_S1607680_S1600000_0 : S1607680.Slices ![0] S1600000
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x64_S5000x64_1_0_0_1_n_n_wf : DotDims.WF S5000x128 S128x64 S5000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S5000x64_S64x64_S5000x64_1_0_0_1_n_n_wf : DotDims.WF S5000x64 S64x64 S5000x64 [1] [0] [0] [1] [] []
  dot_S2000x64_S64x64_S2000x64_1_0_0_1_n_n_wf : DotDims.WF S2000x64 S64x64 S2000x64 [1] [0] [0] [1] [] []
  dot_S10240x16_S16x64_S10240x64_1_0_0_1_n_n_wf : DotDims.WF S10240x16 S16x64 S10240x64 [1] [0] [0] [1] [] []
  dot_S10240x64_S64x1_S10240x1_1_0_0_1_n_n_wf : DotDims.WF S10240x64 S64x1 S10240x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .f32 = 32 ∨ (Rect.block (s := S50000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S50000x64.size a
  hwx2_3 : ∀ i : grid2.Coords, EltTy.bits .bf16 = 32 ∨ (Rect.block (s := S50000x64) S2000x64.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x64.size a ≤ S50000x64.size a
  hwx2_4 : ∀ i : grid2.Coords, EltTy.bits .bf16 = 32 ∨ (Rect.block (s := S50000x64) S2000x64.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10240x64.size a ≤ S1607680x64.size a
  hwx3_0 : ∀ i : grid3.Coords, EltTy.bits .bf16 = 32 ∨ (Rect.block (s := S1607680x64) S10240x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10240x64.size a ≤ S1607680x64.size a
  hwx3_1 : ∀ i : grid3.Coords, EltTy.bits .bf16 = 32 ∨ (Rect.block (s := S1607680x64) S10240x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10240x16.size a ≤ S1607680x16.size a
  hwx3_2 : ∀ i : grid3.Coords, EltTy.bits .bf16 = 32 ∨ (Rect.block (s := S1607680x16) S10240x16.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S16x64.size a ≤ S16x64.size a
  hwx3_3 : ∀ i : grid3.Coords, EltTy.bits .f32 = 32 ∨ (Rect.block (s := S16x64) S16x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x1.size a ≤ S64x1.size a
  hwx3_5 : ∀ i : grid3.Coords, EltTy.bits .f32 = 32 ∨ (Rect.block (s := S64x1) S64x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1.size a ≤ S1.size a
  hwx3_6 : ∀ i : grid3.Coords, EltTy.bits .f32 = 32 ∨ (Rect.block (s := S1) S1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S80x128.size a ≤ S12560x128.size a
  hwx3_7 : ∀ i : grid3.Coords, EltTy.bits .f32 = 32 ∨ (Rect.block (s := S12560x128) S80x128.size (cc3_transform_7 i) (hinb3_7 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S10240x16_S16x64_S10240x64_1_0_0_1_n_n : DotDims S10240x16 S16x64 S10240x64 where
  lhsContracting := [1]
  rhsContracting := [0]
  lhsNonContracting := [0]
  rhsNonContracting := [1]
  lhsBatch := []
  rhsBatch := []
  wf := dot_S10240x16_S16x64_S10240x64_1_0_0_1_n_n_wf
def dot_S10240x64_S64x1_S10240x1_1_0_0_1_n_n : DotDims S10240x64 S64x1 S10240x1 where
  lhsContracting := [1]
  rhsContracting := [0]
  lhsNonContracting := [0]
  rhsNonContracting := [1]
  lhsBatch := []
  rhsBatch := []
  wf := dot_S10240x64_S64x1_S10240x1_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v33) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v34) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v36) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38_0) S2000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v38_1) S2000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v54) S10240x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S10240x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v56) S10240x16.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v37) S16x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg9) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg10) S64x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg11) S1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v57) S80x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S50000x128 : Shape := ⟨2, ![50000, 128]⟩
abbrev S1600000x16 : Shape := ⟨2, ![1600000, 16]⟩
abbrev S128x64 : Shape := ⟨2, ![128, 64]⟩
abbrev S64 : Shape := ⟨1, ![64]⟩
abbrev S64x64 : Shape := ⟨2, ![64, 64]⟩
abbrev S144x64 : Shape := ⟨2, ![144, 64]⟩
abbrev S64x1 : Shape := ⟨2, ![64, 1]⟩
abbrev S1 : Shape := ⟨1, ![1]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S50000 : Shape := ⟨1, ![50000]⟩
abbrev S50000x1 : Shape := ⟨2, ![50000, 1]⟩
abbrev S50000x64 : Shape := ⟨2, ![50000, 64]⟩
abbrev S1x64 : Shape := ⟨2, ![1, 64]⟩
abbrev S1600000x64 : Shape := ⟨2, ![1600000, 64]⟩
abbrev S1600000x144 : Shape := ⟨2, ![1600000, 144]⟩
abbrev S1x1 : Shape := ⟨2, ![1, 1]⟩

abbrev nBuf : Space → Nat
  | .hbm => 124
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1600000x16, .f32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S144x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S2x1600000, .i32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S_, .f32⟩
  | .hbm, ⟨27, _⟩ => ⟨S50000x128, .f32⟩
  | .hbm, ⟨28, _⟩ => ⟨S1600000x1, .i32⟩
  | .hbm, ⟨29, _⟩ => ⟨S50000x128, .f32⟩
  | .hbm, ⟨30, _⟩ => ⟨S_, .f32⟩
  | .hbm, ⟨31, _⟩ => ⟨S1600000, .f32⟩
  | .hbm, ⟨32, _⟩ => ⟨S_, .f32⟩
  | .hbm, ⟨33, _⟩ => ⟨S50000, .f32⟩
  | .hbm, ⟨34, _⟩ => ⟨S1600000x1, .i32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S50000x64, .f32⟩
  | .hbm, ⟨43, _⟩ => ⟨S1x64, .f32⟩
  | .hbm, ⟨44, _⟩ => ⟨S50000x64, .f32⟩
  | .hbm, ⟨45, _⟩ => ⟨S50000x64, .f32⟩
  | .hbm, ⟨46, _⟩ => ⟨S50000x64, .f32⟩
  | .hbm, ⟨47, _⟩ => ⟨S50000x64, .f32⟩
  | .hbm, ⟨48, _⟩ => ⟨S_, .f32⟩
  | .hbm, ⟨49, _⟩ => ⟨S50000x64, .f32⟩
  | .hbm, ⟨50, _⟩ => ⟨S50000x64, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x64, .f32⟩
  | .hbm, ⟨60, _⟩ => ⟨S_, .f32⟩
  | .hbm, ⟨61, _⟩ => ⟨S50000x64, .f32⟩
  | .hbm, ⟨62, _⟩ => ⟨S1600000x1, .i32⟩
  | .hbm, ⟨63, _⟩ => ⟨S50000x64, .f32⟩
  | .hbm, ⟨64, _⟩ => ⟨S_, .f32⟩
  | .hbm, ⟨65, _⟩ => ⟨S1600000, .f32⟩
  | .hbm, ⟨66, _⟩ => ⟨S_, .f32⟩
  | .hbm, ⟨67, _⟩ => ⟨S50000, .f32⟩
  | .hbm, ⟨68, _⟩ => ⟨S1600000x1, .i32⟩
  | .hbm, ⟨69, _⟩ => ⟨S50000, .f32⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x64, .f32⟩
  | .hbm, ⟨75, _⟩ => ⟨S50000x64, .f32⟩
  | .hbm, ⟨76, _⟩ => ⟨S50000x64, .f32⟩
  | .hbm, ⟨77, _⟩ => ⟨S1x64, .f32⟩
  | .hbm, ⟨78, _⟩ => ⟨S50000x64, .f32⟩
  | .hbm, ⟨79, _⟩ => ⟨S50000x64, .f32⟩
  | .hbm, ⟨80, _⟩ => ⟨S50000x64, .f32⟩
  | .hbm, ⟨81, _⟩ => ⟨S50000x64, .f32⟩
  | .hbm, ⟨82, _⟩ => ⟨S_, .f32⟩
  | .hbm, ⟨83, _⟩ => ⟨S50000x64, .f32⟩
  | .hbm, ⟨84, _⟩ => ⟨S50000x64, .f32⟩
  | .hbm, ⟨85, _⟩ => ⟨S_, .i32⟩
  | .hbm, ⟨86, _⟩ => ⟨S1600000, .i32⟩
  | .hbm, ⟨87, _⟩ => ⟨S1600000, .i1⟩
  | .hbm, ⟨88, _⟩ => ⟨S_, .i32⟩
  | .hbm, ⟨89, _⟩ => ⟨S1600000, .i32⟩
  | .hbm, ⟨90, _⟩ => ⟨S1600000, .i32⟩
  | .hbm, ⟨91, _⟩ => ⟨S1600000, .i32⟩
  | .hbm, ⟨92, _⟩ => ⟨S1600000x1, .i32⟩
  | .hbm, ⟨93, _⟩ => ⟨S1600000x64, .f32⟩
  | .hbm, ⟨94, _⟩ => ⟨S_, .i32⟩
  | .hbm, ⟨95, _⟩ => ⟨S1600000, .i32⟩
  | .hbm, ⟨96, _⟩ => ⟨S1600000, .i1⟩
  | .hbm, ⟨97, _⟩ => ⟨S_, .i32⟩
  | .hbm, ⟨98, _⟩ => ⟨S1600000, .i32⟩
  | .hbm, ⟨99, _⟩ => ⟨S1600000, .i32⟩
  | .hbm, ⟨100, _⟩ => ⟨S1600000, .i32⟩
  | .hbm, ⟨101, _⟩ => ⟨S1600000x1, .i32⟩
  | .hbm, ⟨102, _⟩ => ⟨S1600000x64, .f32⟩
  | .hbm, ⟨103, _⟩ => ⟨S1600000x144, .f32⟩
  | .hbm, ⟨104, _⟩ => ⟨S1600000x64, .f32⟩
  | .hbm, ⟨105, _⟩ => ⟨S1x64, .f32⟩
  | .hbm, ⟨106, _⟩ => ⟨S1600000x64, .f32⟩
  | .hbm, ⟨107, _⟩ => ⟨S1600000x64, .f32⟩
  | .hbm, ⟨108, _⟩ => ⟨S_, .f32⟩
  | .hbm, ⟨109, _⟩ => ⟨S1600000x64, .f32⟩
  | .hbm, ⟨110, _⟩ => ⟨S1600000x64, .f32⟩
  | .hbm, ⟨111, _⟩ => ⟨S1600000x1, .f32⟩
  | .hbm, ⟨112, _⟩ => ⟨S1x1, .f32⟩
  | .hbm, ⟨113, _⟩ => ⟨S1600000x1, .f32⟩
  | .hbm, ⟨114, _⟩ => ⟨S1600000x1, .f32⟩
  | .hbm, ⟨115, _⟩ => ⟨S1600000x1, .f32⟩
  | .hbm, ⟨116, _⟩ => ⟨S1600000x1, .f32⟩
  | .hbm, ⟨117, _⟩ => ⟨S_, .f32⟩
  | .hbm, ⟨118, _⟩ => ⟨S1600000x1, .f32⟩
  | .hbm, ⟨119, _⟩ => ⟨S1600000x1, .f32⟩
  | .hbm, ⟨120, _⟩ => ⟨S_, .f32⟩
  | .hbm, ⟨121, _⟩ => ⟨S1600000x1, .f32⟩
  | .hbm, ⟨122, _⟩ => ⟨S1600000x1, .f32⟩
  | .hbm, ⟨123, _⟩ => ⟨S1600000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_cst : Ref sig .tc := ⟨.hbm, 48, rfl⟩
abbrev main_call0_v0 : Ref sig .tc := ⟨.hbm, 49, rfl⟩
abbrev main_v29 : Ref sig .tc := ⟨.hbm, 50, rfl⟩
abbrev main_c_4 : Ref sig .tc := ⟨.hbm, 51, rfl⟩
abbrev main_v30 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_9 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_call1_cst : Ref sig .tc := ⟨.hbm, 82, rfl⟩
abbrev main_call1_v0 : Ref sig .tc := ⟨.hbm, 83, rfl⟩
abbrev main_v55 : Ref sig .tc := ⟨.hbm, 84, rfl⟩
abbrev main_c_10 : Ref sig .tc := ⟨.hbm, 85, rfl⟩
abbrev main_v56 : Ref sig .tc := ⟨.hbm, 86, rfl⟩
abbrev main_v57 : Ref sig .tc := ⟨.hbm, 87, rfl⟩
abbrev main_c_11 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_c_12 : Ref sig .tc := ⟨.hbm, 94, rfl⟩
abbrev main_v63 : Ref sig .tc := ⟨.hbm, 95, rfl⟩
abbrev main_v64 : Ref sig .tc := ⟨.hbm, 96, rfl⟩
abbrev main_c_13 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_call2_cst : Ref sig .tc := ⟨.hbm, 108, rfl⟩
abbrev main_call2_v0 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_14 : Ref sig .tc := ⟨.hbm, 117, rfl⟩
abbrev main_v82 : Ref sig .tc := ⟨.hbm, 118, rfl⟩
abbrev main_v83 : Ref sig .tc := ⟨.hbm, 119, rfl⟩
abbrev main_cst_15 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  concatenates_S1600000x64_S1600000x64_S1600000x16_S1600000x144_d1 : Shape.Concatenates [S1600000x64, S1600000x64, S1600000x16] S1600000x144 1
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S_S1600000x1 : S_.BroadcastsInDim S1600000x1 (![] : Fin 0 → Fin S1600000x1.rank)
  shapeCasts_S1600000x1_S1600000 : S1600000x1.ShapeCasts S1600000
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  dot_S50000x128_S128x64_S50000x64_1_0_0_1_n_n_wf : DotDims.WF S50000x128 S128x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S50000x64_S64x64_S50000x64_1_0_0_1_n_n_wf : DotDims.WF S50000x64 S64x64 S50000x64 [1] [0] [0] [1] [] []
  dot_S1600000x144_S144x64_S1600000x64_1_0_0_1_n_n_wf : DotDims.WF S1600000x144 S144x64 S1600000x64 [1] [0] [0] [1] [] []
  dot_S1600000x64_S64x1_S1600000x1_1_0_0_1_n_n_wf : DotDims.WF S1600000x64 S64x1 S1600000x1 [1] [0] [0] [1] [] []

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S1600000x144_S144x64_S1600000x64_1_0_0_1_n_n : DotDims S1600000x144 S144x64 S1600000x64 where
  lhsContracting := [1]
  rhsContracting := [0]
  lhsNonContracting := [0]
  rhsNonContracting := [1]
  lhsBatch := []
  rhsBatch := []
  wf := dot_S1600000x144_S144x64_S1600000x64_1_0_0_1_n_n_wf
def dot_S1600000x64_S64x1_S1600000x1_1_0_0_1_n_n : DotDims S1600000x64 S64x1 S1600000x1 where
  lhsContracting := [1]
  rhsContracting := [0]
  lhsNonContracting := [0]
  rhsNonContracting := [1]
  lhsBatch := []
  rhsBatch := []
  wf := dot_S1600000x64_S64x1_S1600000x1_1_0_0_1_n_n_wf

class Facts : Prop extends Facts₀ where

variable [Facts]
-- ==== Proof.KernelRun.lean ====
/-
  The kernel program's run with every buffer named: from any launch memory with zero counters, every weakly fair
  execution of the program terminates, nothing faulting, and every unscoped buffer of every core ends at the contents
  the program's stretches of host operations and its four kernel regions leave, one after the other: the fold of the
  host operations over the launch memory, each region's arrays at what its write-backs leave.
-/
import proofs.«124681_j52029233824512_2_alg».proof.Proof.Gen.KernelIdeal.Frame

set_option maxRecDepth 16384

noncomputable section

namespace Cert.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c b hb => h c b hb)

end Cert.Bridge

end
-- ==== Proof.KernelHost.lean ====
/-
  The kernel program's stretches of host operations, each read as whole-array functions of what the buffers held when
  the stretch began: the edge list's two rows as index vectors, an index vector as a column (with negative indices
  wrapped by the node count, or as it is), the clamped in-degree (ones summed at the destinations, at least one),
  its reciprocal as a column, the neighbour sum (rows taken at the sources, summed at the destinations), the three
  blocks of the stacked edge weights, the gathered node-level products padded with zero rows, and the final scores
  (the tile array flattened and cut back to the edge count).
-/
import proofs.«124681_j52029233824512_2_alg».proof.Proof.Gen.KernelIdeal.Frame
import Idealize.ShloMosaic.Lib.StableHlo.Run
import Idealize.ShloMosaic.PureOps.Ideal

set_option maxRecDepth 16384

noncomputable section

namespace Cert.Bridge

open Cert.KernelIdeal Cert.KernelIdeal.Gen
open Idealize.ShloMosaic Idealize.ShloMosaic.TcCoe Idealize.SL.Sem Idealize.ShloMosaic.StableHlo

/-- A buffer that no operation of a stretch writes holds after the stretch what it held before. -/
macro "host_keep " ops:ident : tactic => `(tactic|
  exact StableHlo.after_of_forall_not_mem _ _ (List.forall_iff_forall_mem.mp (by
    simp only [$ops:ident, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## The whole-array functions -/

/-- Row 0 of the edge list as a vector: the sources. -/
def srcV (a12 : (⟨S2x1600000, .i32⟩ : BufTy).Contents (Elt Ideal)) : (⟨S1600000, .i32⟩ : BufTy).Contents (Elt Ideal) :=
  shapeCast _ (extractStridedSlice S1x1600000 ![0, 0] a12 slices_S2x1600000_S1x1600000_0_0) shapeCasts_S1x1600000_S1600000

/-- Row 1 of the edge list as a vector: the destinations. -/
def dstV (a12 : (⟨S2x1600000, .i32⟩ : BufTy).Contents (Elt Ideal)) : (⟨S1600000, .i32⟩ : BufTy).Contents (Elt Ideal) :=
  shapeCast _ (extractStridedSlice S1x1600000 ![1, 0] a12 slices_S2x1600000_S1x1600000_1_0) shapeCasts_S1x1600000_S1600000

/-- An index vector as a column, a negative index wrapped by the node count. -/
def normCol (v : (⟨S1600000, .i32⟩ : BufTy).Contents (Elt Ideal)) : (⟨S1600000x1, .i32⟩ : BufTy).Contents (Elt Ideal) :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 50000#32))) v)

/-- An index vector as a column, as it is. -/
def rawCol (v : (⟨S1600000, .i32⟩ : BufTy).Contents (Elt Ideal)) : (⟨S1600000x1, .i32⟩ : BufTy).Contents (Elt Ideal) :=
  broadcastInDim S1600000x1 ![0] bcast_S1600000_S1600000x1_0 v

/-- The in-degree (ones summed at the destinations) clamped below by one. -/
def dmaxT (a12 : (⟨S2x1600000, .i32⟩ : BufTy).Contents (Elt Ideal)) : (⟨S50000, .f32⟩ : BufTy).Contents (Elt Ideal) :=
  maximumf
    (Host.scatterAdd scatter_S50000_S1600000x1_S1600000_n_0_0_1
      (broadcastInDim S50000 ![] bcast_S_S50000 (constant (F := Ideal) S_ .f32 0x00000000#32))
      (rawCol (dstV a12))
      (broadcastInDim S1600000 ![] bcast_S_S1600000 (constant (F := Ideal) S_ .f32 0x3F800000#32)))
    (broadcastInDim S50000 ![] bcast_S_S50000 (constant (F := Ideal) S_ .f32 0x3F800000#32))

/-- The reciprocal of the clamped in-degree, as a column. -/
def invT (a12 : (⟨S2x1600000, .i32⟩ : BufTy).Contents (Elt Ideal)) : (⟨S50000x1, .f32⟩ : BufTy).Contents (Elt Ideal) :=
  shapeCast _ (Host.divf (broadcastInDim S50000 ![] bcast_S_S50000 (constant (F := Ideal) S_ .f32 0x3F800000#32)) (dmaxT a12))
    shapeCasts_S50000_S50000x1

/-- The neighbour sum of 128 features: rows taken at the sources, summed at the destinations. -/
def agg128 (x : (⟨S50000x128, .f32⟩ : BufTy).Contents (Elt Ideal)) (sv dv : (⟨S1600000, .i32⟩ : BufTy).Contents (Elt Ideal)) :
    (⟨S50000x128, .f32⟩ : BufTy).Contents (Elt Ideal) :=
  Host.scatterAdd scatter_S50000x128_S1600000x1_S1600000x128_1_0_0_1
    (broadcastInDim S50000x128 ![] bcast_S_S50000x128 (constant (F := Ideal) S_ .f32 0x00000000#32))
    (rawCol dv)
    (Host.gather gather_S50000x128_S1600000x1_S1600000x128_1_0_n_n_0_1_1128 x (normCol sv))

/-- The neighbour sum of 64 features. -/
def agg64 (h : (⟨S50000x64, .f32⟩ : BufTy).Contents (Elt Ideal)) (sv dv : (⟨S1600000, .i32⟩ : BufTy).Contents (Elt Ideal)) :
    (⟨S50000x64, .f32⟩ : BufTy).Contents (Elt Ideal) :=
  Host.scatterAdd scatter_S50000x64_S1600000x1_S1600000x64_1_0_0_1
    (broadcastInDim S50000x64 ![] bcast_S_S50000x64 (constant (F := Ideal) S_ .f32 0x00000000#32))
    (rawCol dv)
    (Host.gather gather_S50000x64_S1600000x1_S1600000x64_1_0_n_n_0_1_164 h (normCol sv))

variable (Wv : Valuation τ sig (Elt Ideal))

/-! ## The first stretch -/

set_option maxHeartbeats 4000000 in
theorem e0_v1 : StableHlo.after (hostOps0 (F := Ideal)) Wv (Proc.devRef .tc main_v1) = srcV (Wv (Proc.devRef .tc main_arg12)) := by
  after_results_simp; rfl
set_option maxHeartbeats 4000000 in
theorem e0_v3 : StableHlo.after (hostOps0 (F := Ideal)) Wv (Proc.devRef .tc main_v3) = dstV (Wv (Proc.devRef .tc main_arg12)) := by
  after_results_simp; rfl
set_option maxHeartbeats 4000000 in
theorem e0_v12 : StableHlo.after (hostOps0 (F := Ideal)) Wv (Proc.devRef .tc main_v12) = invT (Wv (Proc.devRef .tc main_arg12)) := by
  after_results_simp; rfl
set_option maxHeartbeats 4000000 in
theorem e0_v22 : StableHlo.after (hostOps0 (F := Ideal)) Wv (Proc.devRef .tc main_v22)
    = agg128 (Wv (Proc.devRef .tc main_arg0)) (srcV (Wv (Proc.devRef .tc main_arg12))) (dstV (Wv (Proc.devRef .tc main_arg12))) := by
  after_results_simp; rfl

/-! ## The second and third stretches -/

set_option maxHeartbeats 4000000 in
theorem e1_v33 : StableHlo.after (hostOps1 (F := Ideal)) Wv (Proc.devRef .tc main_v33)
    = agg64 (Wv (Proc.devRef .tc main_v23)) (Wv (Proc.devRef .tc main_v1)) (Wv (Proc.devRef .tc main_v3)) := by
  after_results_simp; rfl

theorem e2_v35 : StableHlo.after (hostOps2 (F := Ideal)) Wv (Proc.devRef .tc main_v35)
    = extractStridedSlice S64x64 ![0, 0] (Wv (Proc.devRef .tc main_arg8)) slices_S144x64_S64x64_0_0 := by
  after_results_simp
theorem e2_v36 : StableHlo.after (hostOps2 (F := Ideal)) Wv (Proc.devRef .tc main_v36)
    = extractStridedSlice S64x64 ![64, 0] (Wv (Proc.devRef .tc main_arg8)) slices_S144x64_S64x64_64_0 := by
  after_results_simp
theorem e2_v37 : StableHlo.after (hostOps2 (F := Ideal)) Wv (Proc.devRef .tc main_v37)
    = extractStridedSlice S16x64 ![128, 0] (Wv (Proc.devRef .tc main_arg8)) slices_S144x64_S16x64_128_0 := by
  after_results_simp

/-! ## The stretches before the last region, as one -/

/-- The six stretches between the third and the fourth region, in order. -/
abbrev after3 (Wv : Valuation τ sig (Elt Ideal)) : Valuation τ sig (Elt Ideal) :=
  StableHlo.after (hostOps3_5 (F := Ideal)) (StableHlo.after (hostOps3_4 (F := Ideal)) (StableHlo.after (hostOps3_3 (F := Ideal))
    (StableHlo.after (hostOps3_2 (F := Ideal)) (StableHlo.after (hostOps3_1 (F := Ideal)) (StableHlo.after (hostOps3 (F := Ideal)) Wv)))))

set_option maxHeartbeats 4000000 in
theorem e3_v54 : after3 Wv (Proc.devRef .tc main_v54)
    = pad S1607680x64 ![0, 0] ![7680, 0] ![0, 0]
        (Host.gather gather_S50000x64_S1600000x1_S1600000x64_1_0_n_n_0_1_164 (Wv (Proc.devRef .tc main_v38_0)) (normCol (Wv (Proc.devRef .tc main_v1))))
        (sitofp (F := Ideal) .bf16 (constantI S_ 32 0#32)) pads_S1600000x64_S1607680x64_076800_000 h_S_ := by
  after_results_simp; rfl
set_option maxHeartbeats 4000000 in
theorem e3_v55 : after3 Wv (Proc.devRef .tc main_v55)
    = pad S1607680x64 ![0, 0] ![7680, 0] ![0, 0]
        (Host.gather gather_S50000x64_S1600000x1_S1600000x64_1_0_n_n_0_1_164 (Wv (Proc.devRef .tc main_v38_1)) (normCol (Wv (Proc.devRef .tc main_v3))))
        (sitofp (F := Ideal) .bf16 (constantI S_ 32 0#32)) pads_S1600000x64_S1607680x64_076800_000 h_S_ := by
  after_results_simp; rfl
set_option maxHeartbeats 4000000 in
theorem e3_v56 : after3 Wv (Proc.devRef .tc main_v56)
    = pad S1607680x16 ![0, 0] ![7680, 0] ![0, 0]
        (truncf .bf16 (Wv (Proc.devRef .tc main_arg1)) bitsLt_bf16_f32)
        (sitofp (F := Ideal) .bf16 (constantI S_ 32 0#32)) pads_S1600000x16_S1607680x16_076800_000 h_S_ := by
  after_results_simp; rfl

/-! ## The last stretch -/

theorem e4_v59 : StableHlo.after (hostOps4 (F := Ideal)) Wv (Proc.devRef .tc main_v59)
    = extractStridedSlice S1600000 ![0] (shapeCast _ (Wv (Proc.devRef .tc main_v57)) shapeCasts_S12560x128_S1607680) slices_S1607680_S1600000_0 := by
  after_results_simp; rfl

end Cert.Bridge

end
-- ==== Proof.Spec.lean ====
/-
  The mathematics both programs compute, entry by entry, on the extended reals (every float operation exact, a change
  of float format the identity).

  One graph-convolution layer at node n and feature j: the mean of the incoming messages (the summed messages times
  the reciprocal of the clamped in-degree, or divided by the clamped in-degree — the same number, because the clamped
  degree is at least one and so is not zero), through one weight matrix, plus the bias, plus the node's own features
  through a second weight matrix, then the maximum with zero.

  The edge score of edge e: the hidden row max(⟨concat(h[src], h[dst], attr), W⟩ + b, 0) through the head weights, plus
  the head bias, through the logistic function. A product with a stack of three weight blocks is the sum of the three
  partial products, and a row taken from a product h·W is the product of the taken row of h with W: so the hidden
  row may be formed from node-level products taken at the edge's two end points.
-/
import Idealize.ShloMosaic.PureOps.Ideal
import Idealize.ShloMosaic.Lib.ValueIdx

noncomputable section

open scoped BigOperators

namespace Cert.Bridge

open Idealize.ShloMosaic Idealize.ShloMosaic.ValueIdx

/-- Feature j of max((mean·Wl + b) + x·Wr, 0) for one node, from the node's mean row and its own feature row. -/
def layer {K M : Nat} (mean xr : Fin K → EReal) (Wl Wr : (⟨2, ![K, M]⟩ : Shape).Idx → EReal)
    (b : (⟨1, ![M]⟩ : Shape).Idx → EReal) (j : Fin M) : EReal :=
  max (((∑ k : Fin K, mean k * Wl (ix2 k j)) + b (ix1 j)) + ∑ k : Fin K, xr k * Wr (ix2 k j)) 0

/-- The layer whose mean is the summed messages TIMES a per-node scale held in a column. -/
def layerMul {N K M : Nat} (agg x : (⟨2, ![N, K]⟩ : Shape).Idx → EReal) (inv : (⟨2, ![N, 1]⟩ : Shape).Idx → EReal)
    (Wl Wr : (⟨2, ![K, M]⟩ : Shape).Idx → EReal) (b : (⟨1, ![M]⟩ : Shape).Idx → EReal) :
    (⟨2, ![N, M]⟩ : Shape).Idx → EReal :=
  fun i => layer (fun k => agg (ix2 (i 0) k) * inv (ix2 (i 0) (0 : Fin 1))) (fun k => x (ix2 (i 0) k)) Wl Wr b (i 1)

/-- The layer whose mean is the summed messages DIVIDED by a per-node divisor held in a vector. -/
def layerDiv {N K M : Nat} (agg x : (⟨2, ![N, K]⟩ : Shape).Idx → EReal) (d : (⟨1, ![N]⟩ : Shape).Idx → EReal)
    (Wl Wr : (⟨2, ![K, M]⟩ : Shape).Idx → EReal) (b : (⟨1, ![M]⟩ : Shape).Idx → EReal) :
    (⟨2, ![N, M]⟩ : Shape).Idx → EReal :=
  fun i => layer (fun k => Ideal.div (agg (ix2 (i 0) k)) (d (ix1 (i 0)))) (fun k => x (ix2 (i 0) k)) Wl Wr b (i 1)

/-- Scaling by the reciprocal of a divisor that is at least one is dividing by it. -/
theorem mul_div_one (s d : EReal) (hd : (1 : EReal) ≤ d) : s * Ideal.div 1 d = Ideal.div s d := by
  have hne : d ≠ 0 := fun h => by rw [h] at hd; exact absurd hd (by norm_num)
  unfold Ideal.div
  rw [if_neg hne, if_neg hne, one_mul]

/-- The two layers agree when the scale column holds the reciprocals of the divisors, each divisor at least one. -/
theorem layerMul_eq_layerDiv {N K M : Nat} (agg x : (⟨2, ![N, K]⟩ : Shape).Idx → EReal)
    (inv : (⟨2, ![N, 1]⟩ : Shape).Idx → EReal) (d : (⟨1, ![N]⟩ : Shape).Idx → EReal)
    (Wl Wr : (⟨2, ![K, M]⟩ : Shape).Idx → EReal) (b : (⟨1, ![M]⟩ : Shape).Idx → EReal)
    (hinv : ∀ n : Fin N, inv (ix2 n (0 : Fin 1)) = Ideal.div 1 (d (ix1 n))) (hd : ∀ n : Fin N, (1 : EReal) ≤ d (ix1 n)) :
    layerMul agg x inv Wl Wr b = layerDiv agg x d Wl Wr b := by
  funext i
  obtain ⟨n, j, rfl⟩ : ∃ (n : Fin N) (j : Fin M), i = ix2 n j := ⟨i 0, i 1, eq_ix2 i⟩
  show layer (fun k => agg (ix2 n k) * inv (ix2 n (0 : Fin 1))) (fun k => x (ix2 n k)) Wl Wr b j
    = layer (fun k => Ideal.div (agg (ix2 n k)) (d (ix1 n))) (fun k => x (ix2 n k)) Wl Wr b j
  refine congrArg (fun f => layer f (fun k => x (ix2 n k)) Wl Wr b j) ?_
  funext k
  rw [hinv, mul_div_one _ _ (hd _)]

/-- A node-level product h·W read at (n, j). -/
def proj {N K M : Nat} (h : (⟨2, ![N, K]⟩ : Shape).Idx → EReal) (W : (⟨2, ![K, M]⟩ : Shape).Idx → EReal) :
    (⟨2, ![N, M]⟩ : Shape).Idx → EReal :=
  fun i => ∑ k : Fin K, h (ix2 (i 0) k) * W (ix2 k (i 1))

/-- The score of one edge from its hidden row before the activation: the logistic function of
    ⟨max(pre, 0), head⟩ + head bias. -/
def score {H : Nat} (pre : Fin H → EReal) (W2 : (⟨2, ![H, 1]⟩ : Shape).Idx → EReal) (b2 : (⟨1, ![1]⟩ : Shape).Idx → EReal) : EReal :=
  Ideal.logistic ((∑ j : Fin H, max (pre j) 0 * W2 (ix2 j (0 : Fin 1))) + b2 (ix1 (0 : Fin 1)))

/-- The hidden row before the activation, from the two gathered node-level products and the edge attributes:
    ((p + q) + attr·Wc) + b. -/
def preSplit {E A H : Nat} (ps qd : (⟨2, ![E, H]⟩ : Shape).Idx → EReal) (ea : (⟨2, ![E, A]⟩ : Shape).Idx → EReal)
    (Wc : (⟨2, ![A, H]⟩ : Shape).Idx → EReal) (b1 : (⟨1, ![H]⟩ : Shape).Idx → EReal) (e : Fin E) (j : Fin H) : EReal :=
  ((ps (ix2 e j) + qd (ix2 e j)) + ∑ k : Fin A, ea (ix2 e k) * Wc (ix2 k j)) + b1 (ix1 j)

/-- The edge stage laid out 128 scores to a row: entry (a, l) is the score of edge 128·a + l. -/
def edgeOut (ps qd : (⟨2, ![1607680, 64]⟩ : Shape).Idx → EReal) (ea : (⟨2, ![1607680, 16]⟩ : Shape).Idx → EReal)
    (Wc : (⟨2, ![16, 64]⟩ : Shape).Idx → EReal) (b1 : (⟨1, ![64]⟩ : Shape).Idx → EReal)
    (W2 : (⟨2, ![64, 1]⟩ : Shape).Idx → EReal) (b2 : (⟨1, ![1]⟩ : Shape).Idx → EReal) :
    (⟨2, ![12560, 128]⟩ : Shape).Idx → EReal :=
  fun i => score (preSplit ps qd ea Wc b1
    (⟨(i 0).val * 128 + (i 1).val, by have h0 : (i 0).val < 12560 := (i 0).isLt; have h1 : (i 1).val < 128 := (i 1).isLt; omega⟩ : Fin 1607680)) W2 b2

/-- The hidden row before the activation, from the joined feature row (both end points' features, then the edge
    attributes) through the stacked weights: ⟨ef, W⟩ + b. -/
def preJoined {E C H : Nat} (ef : (⟨2, ![E, C]⟩ : Shape).Idx → EReal) (W : (⟨2, ![C, H]⟩ : Shape).Idx → EReal)
    (b1 : (⟨1, ![H]⟩ : Shape).Idx → EReal) (e : Fin E) (j : Fin H) : EReal :=
  (∑ k : Fin C, ef (ix2 e k) * W (ix2 k j)) + b1 (ix1 j)

/-- A sum over 144 terms as its first 64, next 64 and last 16. -/
theorem sum_144_split {M : Type*} [AddCommMonoid M] (f : Fin 144 → M) :
    ∑ k : Fin 144, f k = ((∑ k : Fin 64, f ⟨k.val, by omega⟩) + ∑ k : Fin 64, f ⟨64 + k.val, by omega⟩)
      + ∑ k : Fin 16, f ⟨128 + k.val, by omega⟩ := by
  have h1 := Fin.sum_univ_add (a := 128) (b := 16) f
  have h2 := Fin.sum_univ_add (a := 64) (b := 64) (fun k : Fin 128 => f (Fin.castAdd 16 k))
  rw [h1, h2]
  rfl

end Cert.Bridge

end
-- ==== Proof.KernelSpec.lean ====
/-
  The kernel program's result as one function of the argument arrays: the first layer's features (the neighbour sums
  of the inputs scaled by the reciprocal clamped in-degree, through the layer), the second layer's from the first's,
  the two node-level products of the second layer's features with the first two blocks of the stacked edge weights,
  their rows taken at every edge's end points and padded with zero rows, the padded edge attributes, and the edge
  scores tile by tile, flattened and cut back to the edge count.
-/
import proofs.«124681_j52029233824512_2_alg».proof.Proof.KernelHost
import proofs.«124681_j52029233824512_2_alg».proof.Proof.Spec

noncomputable section

namespace Cert.Bridge

open Cert.KernelIdeal Cert.KernelIdeal.Gen
open Idealize.ShloMosaic Idealize.ShloMosaic.TcCoe Idealize.SL.Sem Idealize.ShloMosaic.StableHlo

/-- The first layer's features. -/
def kH1 (a0 : (⟨S50000x128, .f32⟩ : BufTy).Contents (Elt Ideal)) (a2 : (⟨S128x64, .f32⟩ : BufTy).Contents (Elt Ideal))
    (a3 : (⟨S64, .f32⟩ : BufTy).Contents (Elt Ideal)) (a4 : (⟨S128x64, .f32⟩ : BufTy).Contents (Elt Ideal))
    (a12 : (⟨S2x1600000, .i32⟩ : BufTy).Contents (Elt Ideal)) : (⟨S50000x64, .f32⟩ : BufTy).Contents (Elt Ideal) :=
  layerMul (N := 50000) (K := 128) (M := 64) (agg128 a0 (srcV a12) (dstV a12)) a0 (invT a12) a2 a4 a3

/-- The second layer's features from the first's. -/
def kH2 (h1 : (⟨S50000x64, .f32⟩ : BufTy).Contents (Elt Ideal)) (a5 : (⟨S64x64, .f32⟩ : BufTy).Contents (Elt Ideal))
    (a6 : (⟨S64, .f32⟩ : BufTy).Contents (Elt Ideal)) (a7 : (⟨S64x64, .f32⟩ : BufTy).Contents (Elt Ideal))
    (a12 : (⟨S2x1600000, .i32⟩ : BufTy).Contents (Elt Ideal)) : (⟨S50000x64, .f32⟩ : BufTy).Contents (Elt Ideal) :=
  layerMul (N := 50000) (K := 64) (M := 64) (agg64 h1 (srcV a12) (dstV a12)) h1 (invT a12) a5 a7 a6

/-- The node-level product with the first block of the stacked edge weights, its rows taken at the sources, padded. -/
def kPs (h2 : (⟨S50000x64, .f32⟩ : BufTy).Contents (Elt Ideal)) (a8 : (⟨S144x64, .f32⟩ : BufTy).Contents (Elt Ideal))
    (a12 : (⟨S2x1600000, .i32⟩ : BufTy).Contents (Elt Ideal)) : (⟨S1607680x64, .bf16⟩ : BufTy).Contents (Elt Ideal) :=
  pad S1607680x64 ![0, 0] ![7680, 0] ![0, 0]
    (Host.gather gather_S50000x64_S1600000x1_S1600000x64_1_0_n_n_0_1_164
      (proj (N := 50000) (K := 64) (M := 64) h2 (extractStridedSlice S64x64 ![0, 0] a8 slices_S144x64_S64x64_0_0))
      (normCol (srcV a12)))
    (sitofp (F := Ideal) .bf16 (constantI S_ 32 0#32)) pads_S1600000x64_S1607680x64_076800_000 h_S_

/-- The node-level product with the second block, its rows taken at the destinations, padded. -/
def kQd (h2 : (⟨S50000x64, .f32⟩ : BufTy).Contents (Elt Ideal)) (a8 : (⟨S144x64, .f32⟩ : BufTy).Contents (Elt Ideal))
    (a12 : (⟨S2x1600000, .i32⟩ : BufTy).Contents (Elt Ideal)) : (⟨S1607680x64, .bf16⟩ : BufTy).Contents (Elt Ideal) :=
  pad S1607680x64 ![0, 0] ![7680, 0] ![0, 0]
    (Host.gather gather_S50000x64_S1600000x1_S1600000x64_1_0_n_n_0_1_164
      (proj (N := 50000) (K := 64) (M := 64) h2 (extractStridedSlice S64x64 ![64, 0] a8 slices_S144x64_S64x64_64_0))
      (normCol (dstV a12)))
    (sitofp (F := Ideal) .bf16 (constantI S_ 32 0#32)) pads_S1600000x64_S1607680x64_076800_000 h_S_

/-- The edge attributes, padded. -/
def kEa (a1 : (⟨S1600000x16, .f32⟩ : BufTy).Contents (Elt Ideal)) : (⟨S1607680x16, .bf16⟩ : BufTy).Contents (Elt Ideal) :=
  pad (s := S1600000x16) S1607680x16 ![0, 0] ![7680, 0] ![0, 0] (truncf .bf16 a1 bitsLt_bf16_f32 : FVec Ideal S1600000x16 .bf16)
    (sitofp (F := Ideal) .bf16 (constantI S_ 32 0#32)) pads_S1600000x16_S1607680x16_076800_000 h_S_

/-- The scores: the tile array of the edge stage flattened and cut back to the edge count. -/
def kOut (h2 : (⟨S50000x64, .f32⟩ : BufTy).Contents (Elt Ideal)) (a1 : (⟨S1600000x16, .f32⟩ : BufTy).Contents (Elt Ideal))
    (a8 : (⟨S144x64, .f32⟩ : BufTy).Contents (Elt Ideal)) (a9 : (⟨S64, .f32⟩ : BufTy).Contents (Elt Ideal))
    (a10 : (⟨S64x1, .f32⟩ : BufTy).Contents (Elt Ideal)) (a11 : (⟨S1, .f32⟩ : BufTy).Contents (Elt Ideal))
    (a12 : (⟨S2x1600000, .i32⟩ : BufTy).Contents (Elt Ideal)) : (⟨S1600000, .f32⟩ : BufTy).Contents (Elt Ideal) :=
  extractStridedSlice S1600000 ![0]
    (shapeCast _ (edgeOut (kPs h2 a8 a12) (kQd h2 a8 a12) (kEa a1)
      (extractStridedSlice S16x64 ![128, 0] a8 slices_S144x64_S16x64_128_0) a9 a10 a11) shapeCasts_S12560x128_S1607680)
    slices_S1607680_S1600000_0

end Cert.Bridge

end
-- ==== Proof.LibSageLayer.lean ====
/-
  One dense graph-convolution layer read at one entry, at the ideal values (extended reals, every operation exact; a
  change of float format is the identity).

  `dense A X Wl Wr b p j` is entry (p, j) of `A Wl + X Wr + b`: the two sums over the contracted coordinate of the
  products, added, plus the bias entry. `kernel_layer_apply`: the two products, each of format-narrowed operands and
  accumulated into a zero splat, added, plus a [1, N] bias row laid along every row, is `dense`. `host_layer_apply`: the
  first product plus the bias vector (laid as one row, then along every row), plus the second product, is `dense` too —
  addition of extended reals is commutative and associative, so the bias may be added before or after the second
  product. `relu_host_apply`, `relu_kernel_apply`: the maximum with a zero (a scalar constant broadcast, or a splat of
  the zero word), read at an entry, is `max · 0`. `rowcast_apply`: a vector cast to a one-row matrix reads, at (0, j),
  the vector at j.
-/
import Idealize.ShloMosaic.Lib.ValueLayout
import Idealize.ShloMosaic.Lib.StackMember
import Idealize.ShloMosaic.Lib.KernelVsHost
import Idealize.ShloMosaic.PureOps.Ideal.Laws
import Idealize.ShloMosaic.Lib.Pipeline.Value

noncomputable section

open scoped BigOperators

namespace Cert.Sage

open Idealize.ShloMosaic Idealize.ShloMosaic.ValueIdx Idealize.ShloMosaic.StackMember

/-- Entry (p, j) of `A Wl + X Wr + b`. -/
def dense {R K N : Nat} (A X : (⟨2, ![R, K]⟩ : Shape).Idx → EReal) (Wl Wr : (⟨2, ![K, N]⟩ : Shape).Idx → EReal) (b : Fin N → EReal) (p : Fin R) (j : Fin N) : EReal :=
  (∑ k : Fin K, A (ix2 p k) * Wl (ix2 k j) + ∑ k : Fin K, X (ix2 p k) * Wr (ix2 k j)) + b j

/-- A plain [R, K] by [K, N] product into a zero accumulator, read at (p, j), whatever the operands' formats: the sum
    over the contracted coordinate of the products. -/
theorem matmul0_apply {R K N : Nat} {φ₁ φ₂ : FTy} (prec : Option ContractPrecision)
    (h : FVec Ideal ⟨2, ![R, K]⟩ φ₁) (w : FVec Ideal ⟨2, ![K, N]⟩ φ₂) (p : Fin R) (j : Fin N) :
    matmul (DotDims.plain R K N) prec h w (constant ⟨2, ![R, N]⟩ .f32 0x00000000#32) (ix2 p j)
      = ∑ k : Fin K, h (ix2 p k) * w (ix2 k j) :=
  (congrFun (matmul_zero_eq_dotGeneral _ prec h w) _).trans (dotGeneral_plain_apply prec h w p j)

/-- A vector laid as one row (axis 1 of a [1, N] matrix), read at (0, j), is the vector at j. -/
theorem broadcastInDim_vecRow_apply {α : Type} {N : Nat} (h1 : (⟨1, ![N]⟩ : Shape).BroadcastsInDim ⟨2, ![1, N]⟩ ![1])
    (bl : (⟨1, ![N]⟩ : Shape).Idx → α) (j : Fin N) :
    broadcastInDim ⟨2, ![1, N]⟩ ![1] h1 bl (ix2 (0 : Fin 1) j) = bl (ix1 j) := by
  refine broadcastInDim_apply ![1] h1 bl (ix2 (0 : Fin 1) j) (ix1 j) ?_
  intro a
  match a with
  | ⟨0, _⟩ =>
    show j.val = if N = 1 then 0 else j.val
    split
    · have := j.isLt; omega
    · rfl

/-- The kernel's layer: the two products of format-narrowed operands into zero accumulators, added, plus the bias row
    laid along every row. The dimension numbers are any record equal to the plain ones. -/
theorem kernel_layer_apply {R K N : Nat} (D : DotDims ⟨2, ![R, K]⟩ ⟨2, ![K, N]⟩ ⟨2, ![R, N]⟩) (hD : D = DotDims.plain R K N)
    (a x : FVec Ideal ⟨2, ![R, K]⟩ .f32) (wl wr : FVec Ideal ⟨2, ![K, N]⟩ .f32) (b : FVec Ideal ⟨2, ![1, N]⟩ .f32)
    (ht : FTy.bits .bf16 < FTy.bits .f32) (hb : (⟨2, ![1, N]⟩ : Shape).Broadcasts ⟨2, ![R, N]⟩) (p : Fin R) (j : Fin N) :
    addf (addf (matmul D none (truncf .bf16 a ht) (truncf .bf16 wl ht) (constant ⟨2, ![R, N]⟩ .f32 0x00000000#32))
               (matmul D none (truncf .bf16 x ht) (truncf .bf16 wr ht) (constant ⟨2, ![R, N]⟩ .f32 0x00000000#32)))
         (broadcastTo ⟨2, ![R, N]⟩ b hb) (ix2 p j)
      = dense a x wl wr (fun j => b (ix2 (0 : Fin 1) j)) p j := by
  subst hD
  rw [addf_apply, addf_apply, broadcastTo_1b_ab_apply, matmul0_apply, matmul0_apply]
  rfl

/-- The host's layer: the first product plus the bias (a vector laid as one row, the row laid along every row), plus
    the second product. The bias is added before the second product here and after it in `dense`; the two sums agree. -/
theorem host_layer_apply {R K N : Nat} (D : DotDims ⟨2, ![R, K]⟩ ⟨2, ![K, N]⟩ ⟨2, ![R, N]⟩) (hD : D = DotDims.plain R K N)
    (A X : FVec Ideal ⟨2, ![R, K]⟩ .f32) (Wl Wr : FVec Ideal ⟨2, ![K, N]⟩ .f32) (bl : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (j : Fin N) :
    addf (addf (Host.dotGeneral D none A Wl) (broadcastInDim ⟨2, ![R, N]⟩ ![0, 1] h2 (broadcastInDim ⟨2, ![1, N]⟩ ![1] h1 bl)))
         (Host.dotGeneral D none X Wr) (ix2 p j)
      = dense A X Wl Wr (fun j => bl (ix1 j)) p j := by
  subst hD
  rw [addf_apply, addf_apply, broadcastInDim_oneRow_apply, broadcastInDim_vecRow_apply, dotGeneral_plain_apply,
    dotGeneral_plain_apply]
  unfold dense
  exact add_right_comm _ _ _

/-- The maximum with a scalar zero constant broadcast to the shape, read at an entry. -/
theorem relu_host_apply {s : Shape} (v : FVec Ideal s .f32) (h : (⟨0, ![]⟩ : Shape).BroadcastsInDim s ![]) (i : s.Idx) :
    maximumf v (broadcastInDim s ![] h (constant (F := Ideal) ⟨0, ![]⟩ .f32 0x00000000#32)) i = max (v i) 0 := by
  rw [maximumf_apply]
  refine congrArg (max (v i)) ?_
  refine (broadcastInDim_apply ![] h (constant (F := Ideal) ⟨0, ![]⟩ .f32 0x00000000#32) i (fun a => a.elim0)
    (fun a => a.elim0)).trans ?_
  rw [constant_apply, Ideal.ofBits_zero_f32]

/-- The maximum with a splat of the zero word, read at an entry. -/
theorem relu_kernel_apply {s : Shape} (v : FVec Ideal s .f32) (i : s.Idx) :
    maximumf v (broadcast s (Scalar.ofBits (F := Ideal) .f32 0x00000000#32)) i = max (v i) 0 := by
  rw [maximumf_apply, broadcast_apply]
  show max (v i) (Ideal.ofBits .f32 0x00000000#32) = _
  rw [Ideal.ofBits_zero_f32]

/-- A vector cast to a one-row matrix reads, at (0, j), the vector at j. -/
theorem rowcast_apply {α : Type} {N : Nat} (bl : (⟨1, ![N]⟩ : Shape).Idx → α) (h : (⟨1, ![N]⟩ : Shape).ShapeCasts ⟨2, ![1, N]⟩) (j : Fin N) :
    shapeCast ⟨2, ![1, N]⟩ bl h (ix2 (0 : Fin 1) j) = bl (ix1 j) :=
  shapeCast_apply bl h (ix2 (0 : Fin 1) j) (ix1 j) (by
    rw [Shape.rowMajor_val_two, Shape.rowMajor_val_one]; show j.val = 0 * N + j.val; omega)

end Cert.Sage

end
-- ==== Proof.LibColumnLayout.lean ====
/-
  Column forms of the layout operations, read at an index by coordinates: a vector [a] cast to the column [a, 1]
  and back, and a column [a, 1] broadcast along its unit axis to [a, b].  Each reads the operand at the same
  row; the unit axis carries coordinate 0.
-/
import Idealize.ShloMosaic.Lib.ValueLayout
import Idealize.ShloMosaic.Lib.Pipeline.Value

namespace PhysLoss

open Idealize.ShloMosaic Idealize.ShloMosaic.ValueIdx

variable {α : Type}

/-- A vector `[a]` cast to the column `[a, 1]` reads, at `(i, 0)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end PhysLoss
-- ==== Proof.Region0.lean ====
/-
  The first launch of the graph-convolution layer, from staged blocks to the whole array.

  The layer computes, for node n and feature j, max((mean·Wl + b) + x·Wr, 0) with mean = agg * inv, inv a column
  holding one scale per node. The launch walks a grid of 10 points; point t stages rows 5000·t … 5000·t + 4999 of the
  summed messages, of the scale column and of the node features, and the whole of the two weight matrices and of the
  bias, and writes back rows 5000·t … 5000·t + 4999 of the result.

  Three steps. (1) The body's result on one staged block, read at row r and feature j, is the layer of row r of the
  staged blocks: each of the two matrix products into a zero accumulator is the sum over the contracted coordinate,
  the scale column laid along every feature reads the row's scale, the bias laid along every row reads the bias at j,
  a change of float format is the identity on the extended reals, and the maximum with a zero splat is max · 0.
  (2) Row r of the block staged at point t is row 5000·t + r of its array (a block's coordinate is the block index
  times the block size plus the coordinate inside the block; the block indices are decided once over the 10 points),
  and the weights and the bias are staged whole; so what point t writes back is block t of ONE function of the arrays
  found at entry, the layer read at every (n, j). (3) Row n lies in the block of point n / 5000, so the blocks cover
  the array, and the array ends holding that function.
-/
import proofs.«124681_j52029233824512_2_alg».proof.Proof.Gen.KernelIdeal.Frame
import proofs.«124681_j52029233824512_2_alg».proof.Proof.Spec
import proofs.«124681_j52029233824512_2_alg».proof.Proof.LibSageLayer
import proofs.«124681_j52029233824512_2_alg».proof.Proof.LibColumnLayout

noncomputable section

open scoped BigOperators

namespace Cert.Bridge.SageFirst

open Cert.KernelIdeal Cert.KernelIdeal.Gen Idealize.ShloMosaic Idealize.ShloMosaic.ValueIdx Idealize.ShloMosaic.TcCoe Idealize.SL.Sem
open Idealize.ShloMosaic.Pipeline (Dat Cfg Window)
open Cert.Bridge

/-- The layer's tree of operations on one staged block, read at row r and feature j. -/
theorem tree_apply {R K M : Nat} (D : DotDims ⟨2, ![R, K]⟩ ⟨2, ![K, M]⟩ ⟨2, ![R, M]⟩) (hD : D = DotDims.plain R K M)
    (a x : FVec Ideal ⟨2, ![R, K]⟩ .f32) (inv : FVec Ideal ⟨2, ![R, 1]⟩ .f32)
    (wl wr : FVec Ideal ⟨2, ![K, M]⟩ .f32) (b : FVec Ideal ⟨1, ![M]⟩ .f32)
    (hbc : (⟨2, ![R, 1]⟩ : Shape).Broadcasts ⟨2, ![R, K]⟩) (ht : FTy.bits .bf16 < FTy.bits .f32)
    (hsc : (⟨1, ![M]⟩ : Shape).ShapeCasts ⟨2, ![1, M]⟩) (hbr : (⟨2, ![1, M]⟩ : Shape).Broadcasts ⟨2, ![R, M]⟩)
    (r : Fin R) (j : Fin M) :
    maximumf
        (addf
          (addf
            (matmul D none (truncf .bf16 (mulf a (broadcastTo ⟨2, ![R, K]⟩ inv hbc)) ht) (truncf .bf16 wl ht)
              (constant ⟨2, ![R, M]⟩ .f32 0x00000000#32))
            (broadcastTo ⟨2, ![R, M]⟩ (shapeCast ⟨2, ![1, M]⟩ b hsc) hbr))
          (matmul D none (truncf .bf16 x ht) (truncf .bf16 wr ht) (constant ⟨2, ![R, M]⟩ .f32 0x00000000#32)))
        (broadcast ⟨2, ![R, M]⟩ (Scalar.ofBits (F := Ideal) .f32 0x00000000#32)) (ix2 r j)
      = layer (fun k => a (ix2 r k) * inv (ix2 r (0 : Fin 1))) (fun k => x (ix2 r k)) wl wr b j := by
  subst hD
  rw [Cert.Sage.relu_kernel_apply, addf_apply, addf_apply, Cert.Sage.matmul0_apply, Cert.Sage.matmul0_apply,
    broadcastTo_1b_ab_apply, Cert.Sage.rowcast_apply]
  unfold layer
  refine congrArg (fun s => max ((s + b (ix1 j)) + ∑ k : Fin K, x (ix2 r k) * wr (ix2 k j)) 0) ?_
  refine Finset.sum_congr rfl fun k _ => ?_
  rw [truncf_apply, truncf_apply, mulf_apply, PhysLoss.broadcastTo_a1_ab_apply]

/-- The first launch's payload is that tree at 5000 rows, 128 contracted coordinates and 64 features (its two
    same-shape casts are the identity). -/
theorem k0_pay1_apply (v0 : Vec Ideal S5000x128 .f32) (v2 : Vec Ideal S5000x1 .f32) (v7 : Vec Ideal S5000x128 .f32)
    (v9 v11 : Vec Ideal S128x64 .f32) (v14 : Vec Ideal S64 .f32) (r : Fin 5000) (j : Fin 64) :
    k0_pay1 (F := Ideal) v0 v2 v7 v9 v11 v14 (ix2 r j)
      = layer (fun k => v0 (ix2 r k) * v2 (ix2 r (0 : Fin 1))) (fun k => v7 (ix2 r k)) v9 v11 v14 j := by
  refine (tree_apply (R := 5000) (K := 128) (M := 64) dot_S5000x128_S128x64_S5000x64_1_0_0_1_n_n rfl
    (shapeCast S5000x128 v0 shapeCasts_S5000x128_S5000x128) v7 (shapeCast S5000x1 v2 shapeCasts_S5000x1_S5000x1)
    v9 v11 v14 broadcasts_S5000x1_S5000x128 bitsLt_bf16_f32 shapeCasts_S64_S1x64 broadcasts_S1x64_S5000x64 r j).trans ?_
  rw [shapeCast_self, shapeCast_self]

variable (V : (c : Dev nD) → (b : Ref sig .tc) → Buf (Elt Ideal) ((c : Thread nD τ).loc b))

/-- The zero offsets of a rank-2 rectangle, however spelt. -/
theorem hz2 : (![0, 0] : Fin 2 → Nat) = fun _ => 0 := funext fun a => by fin_cases a <;> rfl
/-- The zero offsets of a rank-1 rectangle, however spelt. -/
theorem hz1 : (![0] : Fin 1 → Nat) = fun _ => 0 := funext fun a => by fin_cases a <;> rfl

/-! ## The block indices, and each staged block read off its array -/

/-- The index maps over the 10 points: the row blocks move with the point, the weights and the bias stay at block 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row r of the summed-messages block at point t is row 5000·t + r of the array. -/
theorem blk0_0 (c : Dev nD) (t : Fin cfg0.N) (r : Fin 5000) (k : Fin 128) (n : Fin 50000) (hn : n.val = t.val * 5000 + r.val) :
    iblk0 V c 0 t (ix2 r k) = V c (Pipeline.arrRef spec0 0) (ix2 n k) := by
  obtain ⟨e0, e1, -⟩ := idx_facts0 t
  show V c (Pipeline.arrRef spec0 0) (((cfg0.win 0).blk t).view.emb (ix2 r k)) = V c (Pipeline.arrRef spec0 0) (ix2 n k)
  refine congrArg (V c (Pipeline.arrRef spec0 0)) ?_
  funext a; apply Fin.ext
  match a with
  | ⟨0, _⟩ => show win0_0.index t (0 : Fin 2) * 5000 + 1 * r.val = n.val; omega
  | ⟨1, _⟩ => show win0_0.index t (1 : Fin 2) * 128 + 1 * k.val = k.val; omega

/-- Row r of the scale-column block at point t is row 5000·t + r of the column. -/
theorem blk0_1 (c : Dev nD) (t : Fin cfg0.N) (r : Fin 5000) (n : Fin 50000) (hn : n.val = t.val * 5000 + r.val) :
    iblk0 V c 1 t (ix2 r (0 : Fin 1)) = V c (Pipeline.arrRef spec0 1) (ix2 n (0 : Fin 1)) := by
  obtain ⟨-, -, e0, e1, -⟩ := idx_facts0 t
  show V c (Pipeline.arrRef spec0 1) (((cfg0.win 1).blk t).view.emb (ix2 r (0 : Fin 1))) = V c (Pipeline.arrRef spec0 1) (ix2 n (0 : Fin 1))
  refine congrArg (V c (Pipeline.arrRef spec0 1)) ?_
  funext a; apply Fin.ext
  match a with
  | ⟨0, _⟩ => show win0_1.index t (0 : Fin 2) * 5000 + 1 * r.val = n.val; omega
  | ⟨1, _⟩ => show win0_1.index t (1 : Fin 2) * 1 + 1 * 0 = 0; omega

/-- Row r of the node-features block at point t is row 5000·t + r of the array. -/
theorem blk0_2 (c : Dev nD) (t : Fin cfg0.N) (r : Fin 5000) (k : Fin 128) (n : Fin 50000) (hn : n.val = t.val * 5000 + r.val) :
    iblk0 V c 2 t (ix2 r k) = V c (Pipeline.arrRef spec0 2) (ix2 n k) := by
  obtain ⟨-, -, -, -, e0, e1, -⟩ := idx_facts0 t
  show V c (Pipeline.arrRef spec0 2) (((cfg0.win 2).blk t).view.emb (ix2 r k)) = V c (Pipeline.arrRef spec0 2) (ix2 n k)
  refine congrArg (V c (Pipeline.arrRef spec0 2)) ?_
  funext a; apply Fin.ext
  match a with
  | ⟨0, _⟩ => show win0_2.index t (0 : Fin 2) * 5000 + 1 * r.val = n.val; omega
  | ⟨1, _⟩ => show win0_2.index t (1 : Fin 2) * 128 + 1 * k.val = k.val; omega

/-- The first weight matrix is staged whole. -/
theorem blk0_3 (c : Dev nD) (t : Fin cfg0.N) (k : Fin 128) (j : Fin 64) :
    iblk0 V c 3 t (ix2 k j) = V c (Pipeline.arrRef spec0 3) (ix2 k j) := by
  obtain ⟨-, -, -, -, -, -, e0, e1, -⟩ := idx_facts0 t
  show V c (Pipeline.arrRef spec0 3) (((cfg0.win 3).blk t).view.emb (ix2 k j)) = V c (Pipeline.arrRef spec0 3) (ix2 k j)
  refine congrArg (V c (Pipeline.arrRef spec0 3)) ?_
  funext a; apply Fin.ext
  match a with
  | ⟨0, _⟩ => show win0_3.index t (0 : Fin 2) * 128 + 1 * k.val = k.val; omega
  | ⟨1, _⟩ => show win0_3.index t (1 : Fin 2) * 64 + 1 * j.val = j.val; omega

/-- The bias is staged whole. -/
theorem blk0_4 (c : Dev nD) (t : Fin cfg0.N) (j : Fin 64) :
    iblk0 V c 4 t (ix1 j) = V c (Pipeline.arrRef spec0 4) (ix1 j) := by
  obtain ⟨-, -, -, -, -, -, -, -, e0, -⟩ := idx_facts0 t
  show V c (Pipeline.arrRef spec0 4) (((cfg0.win 4).blk t).view.emb (ix1 j)) = V c (Pipeline.arrRef spec0 4) (ix1 j)
  refine congrArg (V c (Pipeline.arrRef spec0 4)) ?_
  funext a; apply Fin.ext
  match a with
  | ⟨0, _⟩ => show win0_4.index t (0 : Fin 1) * 64 + 1 * j.val = j.val; omega

/-- The second weight matrix is staged whole. -/
theorem blk0_5 (c : Dev nD) (t : Fin cfg0.N) (k : Fin 128) (j : Fin 64) :
    iblk0 V c 5 t (ix2 k j) = V c (Pipeline.arrRef spec0 5) (ix2 k j) := by
  obtain ⟨-, -, -, -, -, -, -, -, -, e0, e1, -⟩ := idx_facts0 t
  show V c (Pipeline.arrRef spec0 5) (((cfg0.win 5).blk t).view.emb (ix2 k j)) = V c (Pipeline.arrRef spec0 5) (ix2 k j)
  refine congrArg (V c (Pipeline.arrRef spec0 5)) ?_
  funext a; apply Fin.ext
  match a with
  | ⟨0, _⟩ => show win0_5.index t (0 : Fin 2) * 128 + 1 * k.val = k.val; omega
  | ⟨1, _⟩ => show win0_5.index t (1 : Fin 2) * 64 + 1 * j.val = j.val; omega

/-- One entry of the staged block's result is the layer at the array's row the block's row sits at. -/
theorem point0 (A X : S50000x128.Idx → EReal) (I : S50000x1.Idx → EReal) (Wl Wr : S128x64.Idx → EReal) (B : S64.Idx → EReal)
    (x0 x2 : Vec Ideal S5000x128 .f32) (x1 : Vec Ideal S5000x1 .f32) (x3 x5 : Vec Ideal S128x64 .f32) (x4 : Vec Ideal S64 .f32)
    (n : Fin 50000) (r : Fin 5000) (j : Fin 64)
    (h0 : ∀ k : Fin 128, x0 (ix2 r k) = A (ix2 n k)) (h1 : x1 (ix2 r (0 : Fin 1)) = I (ix2 n (0 : Fin 1)))
    (h2 : ∀ k : Fin 128, x2 (ix2 r k) = X (ix2 n k)) (h3 : ∀ k : Fin 128, x3 (ix2 k j) = Wl (ix2 k j))
    (h5 : ∀ k : Fin 128, x5 (ix2 k j) = Wr (ix2 k j)) (h4 : x4 (ix1 j) = B (ix1 j)) :
    k0_pay1 (F := Ideal) x0 x1 x2 x3 x5 x4 (ix2 r j) = layerMul (N := 50000) (K := 128) (M := 64) A X I Wl Wr B (ix2 n j) := by
  rw [k0_pay1_apply]
  show layer (fun k => x0 (ix2 r k) * x1 (ix2 r (0 : Fin 1))) (fun k => x2 (ix2 r k)) x3 x5 x4 j
    = layer (fun k => A (ix2 n k) * I (ix2 n (0 : Fin 1))) (fun k => X (ix2 n k)) Wl Wr B j
  unfold layer
  rw [h1, h4]
  refine congrArg₂ (fun s s' => max ((s + B (ix1 j)) + s') 0) ?_ ?_
  · exact Finset.sum_congr rfl fun k _ => by
      show x0 (ix2 r k) * I (ix2 n (0 : Fin 1)) * x3 (ix2 k j) = A (ix2 n k) * I (ix2 n (0 : Fin 1)) * Wl (ix2 k j)
      rw [h0, h3]
  · exact Finset.sum_congr rfl fun k _ => by
      show x2 (ix2 r k) * x5 (ix2 k j) = X (ix2 n k) * Wr (ix2 k j)
      rw [h2, h5]

/-! ## What a point writes back, the cover, the array -/

/-- What point t writes back is block t of the layer of the arrays found at entry. -/
theorem flushed0_eq (c : Dev nD) (t : Fin cfg0.N) :
    (dat0 (F := Ideal) V c).flushed 6 t
      = ((cfg0.win 6).blk t).view.read (Elt Ideal)
          (layerMul (N := 50000) (K := 128) (M := 64) (V c (Pipeline.arrRef spec0 0)) (V c (Pipeline.arrRef spec0 2))
            (V c (Pipeline.arrRef spec0 1)) (V c (Pipeline.arrRef spec0 3)) (V c (Pipeline.arrRef spec0 5)) (V c (Pipeline.arrRef spec0 4))) := by
  show (cfg0.win 6).cut (grid0.coords t) ((dat0 V c).after 6 t) = _
  rw [after0_6]
  unfold out0_6
  rw [View.canon_unit_zero hz2]
  simp only [View.ld_unit_zero (S := S5000x128) hz2, View.ld_unit_zero (S := S5000x1) hz2,
    View.ld_unit_zero (S := S128x64) hz2, View.ld_unit_zero (S := S64) hz1]
  funext y
  obtain ⟨r, j, rfl⟩ : ∃ (r : Fin 5000) (j : Fin 64), y = ix2 r j := ⟨y 0, y 1, eq_ix2 y⟩
  have ht : t.val < 10 := lt_of_lt_of_eq t.isLt N_0
  have hr : r.val < 5000 := r.isLt
  obtain ⟨-, -, -, -, -, -, -, -, -, -, -, e0, e1⟩ := idx_facts0 t
  have he : ((cfg0.win 6).blk t).view.emb (ix2 r j) = ix2 (⟨t.val * 5000 + r.val, by omega⟩ : Fin 50000) j := by
    funext a; apply Fin.ext
    match a with
    | ⟨0, _⟩ => show win0_6.index t (0 : Fin 2) * 5000 + 1 * r.val = t.val * 5000 + r.val; omega
    | ⟨1, _⟩ => show win0_6.index t (1 : Fin 2) * 64 + 1 * j.val = j.val; omega
  refine (point0 (V c (Pipeline.arrRef spec0 0)) (V c (Pipeline.arrRef spec0 2)) (V c (Pipeline.arrRef spec0 1))
    (V c (Pipeline.arrRef spec0 3)) (V c (Pipeline.arrRef spec0 5)) (V c (Pipeline.arrRef spec0 4))
    (iblk0 V c 0 t) (iblk0 V c 2 t) (iblk0 V c 1 t) (iblk0 V c 3 t) (iblk0 V c 5 t) (iblk0 V c 4 t)
    (⟨t.val * 5000 + r.val, by omega⟩ : Fin 50000) r j
    (fun k => blk0_0 V c t r k _ rfl) (blk0_1 V c t r _ rfl) (fun k => blk0_2 V c t r k _ rfl)
    (fun k => blk0_3 V c t k j) (fun k => blk0_5 V c t k j) (blk0_4 V c t j)).trans ?_
  exact (congrArg (layerMul (N := 50000) (K := 128) (M := 64) (V c (Pipeline.arrRef spec0 0)) (V c (Pipeline.arrRef spec0 2))
            (V c (Pipeline.arrRef spec0 1)) (V c (Pipeline.arrRef spec0 3)) (V c (Pipeline.arrRef spec0 5)) (V c (Pipeline.arrRef spec0 4))) he).symm

/-- An index of the result array is in point t's block iff each coordinate is in the block's range on its axis. -/
theorem mem_blk0 (t : Fin cfg0.N) (i : S50000x64.Idx) :
    i ∈ ((cfg0.win 6).blk t).view.set ↔ ∀ a : Fin 2, win0_6.index t a * S5000x64.size a ≤ (i a).val
      ∧ (i a).val < win0_6.index t a * S5000x64.size a + S5000x64.size a := by
  show i ∈ ((View.whole main_v23).slice (win0_6.rect t)).set ↔ _
  rw [View.set_slice_whole, Rect.mem_set_unit]
  exact Iff.rfl

/-- Row n lies in the block of point n / 5000: the blocks cover the result array. -/
theorem cover0 (i : S50000x64.Idx) : ∃ t : Fin cfg0.N, (cfg0.win 6).flush t = true ∧ i ∈ ((cfg0.win 6).blk t).view.set := by
  have hi0 : (i 0).val < 50000 := (i 0).isLt
  have hi1 : (i 1).val < 64 := (i 1).isLt
  have hq : (i 0).val / 5000 < grid0.N := by rw [N_0]; omega
  refine ⟨⟨(i 0).val / 5000, hq⟩, flush0_6 _, ?_⟩
  rw [mem_blk0]
  obtain ⟨-, -, -, -, -, -, -, -, -, -, -, e0, e1⟩ := idx_facts0 ⟨(i 0).val / 5000, hq⟩
  intro a
  match a with
  | ⟨0, _⟩ =>
    show win0_6.index ⟨(i 0).val / 5000, hq⟩ (0 : Fin 2) * 5000 ≤ (i 0).val
      ∧ (i 0).val < win0_6.index ⟨(i 0).val / 5000, hq⟩ (0 : Fin 2) * 5000 + 5000
    rw [e0]
    show (i 0).val / 5000 * 5000 ≤ (i 0).val ∧ (i 0).val < (i 0).val / 5000 * 5000 + 5000
    omega
  | ⟨1, _⟩ =>
    show win0_6.index ⟨(i 0).val / 5000, hq⟩ (1 : Fin 2) * 64 ≤ (i 1).val
      ∧ (i 1).val < win0_6.index ⟨(i 0).val / 5000, hq⟩ (1 : Fin 2) * 64 + 64
    rw [e1]
    omega

end Cert.Bridge.SageFirst

namespace Cert.Bridge

open Cert.KernelIdeal Cert.KernelIdeal.Gen Idealize.ShloMosaic Idealize.ShloMosaic.ValueIdx Idealize.ShloMosaic.TcCoe Idealize.SL.Sem
open Idealize.ShloMosaic.Pipeline (Dat Cfg Window)

/-- After the first launch the result array holds the layer of the arrays found at entry, entry by entry. -/
theorem final0 (V : (c : Dev nD) → (b : Ref sig .tc) → Buf (Elt Ideal) ((c : Thread nD τ).loc b)) (c : Dev nD) :
    (dat0 (F := Ideal) V c).arrAt 6 cfg0.N
      = layerMul (N := 50000) (K := 128) (M := 64) (V c (Pipeline.arrRef spec0 0)) (V c (Pipeline.arrRef spec0 2))
          (V c (Pipeline.arrRef spec0 1)) (V c (Pipeline.arrRef spec0 3)) (V c (Pipeline.arrRef spec0 5)) (V c (Pipeline.arrRef spec0 4)) :=
  (dat0 (F := Ideal) V c).arrAt_eq_of_cover 6 _ (fun t _ => SageFirst.flushed0_eq V c t) SageFirst.cover0

end Cert.Bridge
end
-- ==== Proof.Region1.lean ====
/-
  The second launch of the graph-convolution layer, from staged blocks to the whole array.

  The layer computes, for node n and feature j, max((mean·Wl + b) + x·Wr, 0) with mean = agg * inv, inv a column
  holding one scale per node. This launch has 64 input features per node; it walks a grid of 10 points; point t stages rows 5000·t … 5000·t + 4999 of the
  summed messages, of the scale column and of the node features, and the whole of the two weight matrices and of the
  bias, and writes back rows 5000·t … 5000·t + 4999 of the result.

  Three steps. (1) The body's result on one staged block, read at row r and feature j, is the layer of row r of the
  staged blocks: each of the two matrix products into a zero accumulator is the sum over the contracted coordinate,
  the scale column laid along every feature reads the row's scale, the bias laid along every row reads the bias at j,
  a change of float format is the identity on the extended reals, and the maximum with a zero splat is max · 0.
  (2) Row r of the block staged at point t is row 5000·t + r of its array (a block's coordinate is the block index
  times the block size plus the coordinate inside the block; the block indices are decided once over the 10 points),
  and the weights and the bias are staged whole; so what point t writes back is block t of ONE function of the arrays
  found at entry, the layer read at every (n, j). (3) Row n lies in the block of point n / 5000, so the blocks cover
  the array, and the array ends holding that function.
-/
import proofs.«124681_j52029233824512_2_alg».proof.Proof.Gen.KernelIdeal.Frame
import proofs.«124681_j52029233824512_2_alg».proof.Proof.Spec
import proofs.«124681_j52029233824512_2_alg».proof.Proof.LibSageLayer
import proofs.«124681_j52029233824512_2_alg».proof.Proof.LibColumnLayout

noncomputable section

open scoped BigOperators

namespace Cert.Bridge.SageSecond

open Cert.KernelIdeal Cert.KernelIdeal.Gen Idealize.ShloMosaic Idealize.ShloMosaic.ValueIdx Idealize.ShloMosaic.TcCoe Idealize.SL.Sem
open Idealize.ShloMosaic.Pipeline (Dat Cfg Window)
open Cert.Bridge

/-- The layer's tree of operations on one staged block, read at row r and feature j. -/
theorem tree_apply {R K M : Nat} (D : DotDims ⟨2, ![R, K]⟩ ⟨2, ![K, M]⟩ ⟨2, ![R, M]⟩) (hD : D = DotDims.plain R K M)
    (a x : FVec Ideal ⟨2, ![R, K]⟩ .f32) (inv : FVec Ideal ⟨2, ![R, 1]⟩ .f32)
    (wl wr : FVec Ideal ⟨2, ![K, M]⟩ .f32) (b : FVec Ideal ⟨1, ![M]⟩ .f32)
    (hbc : (⟨2, ![R, 1]⟩ : Shape).Broadcasts ⟨2, ![R, K]⟩) (ht : FTy.bits .bf16 < FTy.bits .f32)
    (hsc : (⟨1, ![M]⟩ : Shape).ShapeCasts ⟨2, ![1, M]⟩) (hbr : (⟨2, ![1, M]⟩ : Shape).Broadcasts ⟨2, ![R, M]⟩)
    (r : Fin R) (j : Fin M) :
    maximumf
        (addf
          (addf
            (matmul D none (truncf .bf16 (mulf a (broadcastTo ⟨2, ![R, K]⟩ inv hbc)) ht) (truncf .bf16 wl ht)
              (constant ⟨2, ![R, M]⟩ .f32 0x00000000#32))
            (broadcastTo ⟨2, ![R, M]⟩ (shapeCast ⟨2, ![1, M]⟩ b hsc) hbr))
          (matmul D none (truncf .bf16 x ht) (truncf .bf16 wr ht) (constant ⟨2, ![R, M]⟩ .f32 0x00000000#32)))
        (broadcast ⟨2, ![R, M]⟩ (Scalar.ofBits (F := Ideal) .f32 0x00000000#32)) (ix2 r j)
      = layer (fun k => a (ix2 r k) * inv (ix2 r (0 : Fin 1))) (fun k => x (ix2 r k)) wl wr b j := by
  subst hD
  rw [Cert.Sage.relu_kernel_apply, addf_apply, addf_apply, Cert.Sage.matmul0_apply, Cert.Sage.matmul0_apply,
    broadcastTo_1b_ab_apply, Cert.Sage.rowcast_apply]
  unfold layer
  refine congrArg (fun s => max ((s + b (ix1 j)) + ∑ k : Fin K, x (ix2 r k) * wr (ix2 k j)) 0) ?_
  refine Finset.sum_congr rfl fun k _ => ?_
  rw [truncf_apply, truncf_apply, mulf_apply, PhysLoss.broadcastTo_a1_ab_apply]

/-- The second launch's payload is that tree at 5000 rows, 64 contracted coordinates and 64 features (its three
    same-shape casts are the identity). -/
theorem k1_pay1_apply (v0 : Vec Ideal S5000x64 .f32) (v2 : Vec Ideal S5000x1 .f32) (v7 : Vec Ideal S5000x64 .f32)
    (v10 v12 : Vec Ideal S64x64 .f32) (v15 : Vec Ideal S64 .f32) (r : Fin 5000) (j : Fin 64) :
    k1_pay1 (F := Ideal) v0 v2 v7 v10 v12 v15 (ix2 r j)
      = layer (fun k => v0 (ix2 r k) * v2 (ix2 r (0 : Fin 1))) (fun k => v7 (ix2 r k)) v10 v12 v15 j := by
  refine (tree_apply (R := 5000) (K := 64) (M := 64) dot_S5000x64_S64x64_S5000x64_1_0_0_1_n_n rfl
    (shapeCast S5000x64 v0 shapeCasts_S5000x64_S5000x64) (shapeCast S5000x64 v7 shapeCasts_S5000x64_S5000x64)
    (shapeCast S5000x1 v2 shapeCasts_S5000x1_S5000x1)
    v10 v12 v15 broadcasts_S5000x1_S5000x64 bitsLt_bf16_f32 shapeCasts_S64_S1x64 broadcasts_S1x64_S5000x64 r j).trans ?_
  rw [shapeCast_self, shapeCast_self, shapeCast_self]

variable (V : (c : Dev nD) → (b : Ref sig .tc) → Buf (Elt Ideal) ((c : Thread nD τ).loc b))

/-- The zero offsets of a rank-2 rectangle, however spelt. -/
theorem hz2 : (![0, 0] : Fin 2 → Nat) = fun _ => 0 := funext fun a => by fin_cases a <;> rfl
/-- The zero offsets of a rank-1 rectangle, however spelt. -/
theorem hz1 : (![0] : Fin 1 → Nat) = fun _ => 0 := funext fun a => by fin_cases a <;> rfl

/-! ## The block indices, and each staged block read off its array -/

/-- The index maps over the 10 points: the row blocks move with the point, the weights and the bias stay at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row r of the summed-messages block at point t is row 5000·t + r of the array. -/
theorem blk1_0 (c : Dev nD) (t : Fin cfg1.N) (r : Fin 5000) (k : Fin 64) (n : Fin 50000) (hn : n.val = t.val * 5000 + r.val) :
    iblk1 V c 0 t (ix2 r k) = V c (Pipeline.arrRef spec1 0) (ix2 n k) := by
  obtain ⟨e0, e1, -⟩ := idx_facts1 t
  show V c (Pipeline.arrRef spec1 0) (((cfg1.win 0).blk t).view.emb (ix2 r k)) = V c (Pipeline.arrRef spec1 0) (ix2 n k)
  refine congrArg (V c (Pipeline.arrRef spec1 0)) ?_
  funext a; apply Fin.ext
  match a with
  | ⟨0, _⟩ => show win1_0.index t (0 : Fin 2) * 5000 + 1 * r.val = n.val; omega
  | ⟨1, _⟩ => show win1_0.index t (1 : Fin 2) * 64 + 1 * k.val = k.val; omega

/-- Row r of the scale-column block at point t is row 5000·t + r of the column. -/
theorem blk1_1 (c : Dev nD) (t : Fin cfg1.N) (r : Fin 5000) (n : Fin 50000) (hn : n.val = t.val * 5000 + r.val) :
    iblk1 V c 1 t (ix2 r (0 : Fin 1)) = V c (Pipeline.arrRef spec1 1) (ix2 n (0 : Fin 1)) := by
  obtain ⟨-, -, e0, e1, -⟩ := idx_facts1 t
  show V c (Pipeline.arrRef spec1 1) (((cfg1.win 1).blk t).view.emb (ix2 r (0 : Fin 1))) = V c (Pipeline.arrRef spec1 1) (ix2 n (0 : Fin 1))
  refine congrArg (V c (Pipeline.arrRef spec1 1)) ?_
  funext a; apply Fin.ext
  match a with
  | ⟨0, _⟩ => show win1_1.index t (0 : Fin 2) * 5000 + 1 * r.val = n.val; omega
  | ⟨1, _⟩ => show win1_1.index t (1 : Fin 2) * 1 + 1 * 0 = 0; omega

/-- Row r of the node-features block at point t is row 5000·t + r of the array. -/
theorem blk1_2 (c : Dev nD) (t : Fin cfg1.N) (r : Fin 5000) (k : Fin 64) (n : Fin 50000) (hn : n.val = t.val * 5000 + r.val) :
    iblk1 V c 2 t (ix2 r k) = V c (Pipeline.arrRef spec1 2) (ix2 n k) := by
  obtain ⟨-, -, -, -, e0, e1, -⟩ := idx_facts1 t
  show V c (Pipeline.arrRef spec1 2) (((cfg1.win 2).blk t).view.emb (ix2 r k)) = V c (Pipeline.arrRef spec1 2) (ix2 n k)
  refine congrArg (V c (Pipeline.arrRef spec1 2)) ?_
  funext a; apply Fin.ext
  match a with
  | ⟨0, _⟩ => show win1_2.index t (0 : Fin 2) * 5000 + 1 * r.val = n.val; omega
  | ⟨1, _⟩ => show win1_2.index t (1 : Fin 2) * 64 + 1 * k.val = k.val; omega

/-- The first weight matrix is staged whole. -/
theorem blk1_3 (c : Dev nD) (t : Fin cfg1.N) (k : Fin 64) (j : Fin 64) :
    iblk1 V c 3 t (ix2 k j) = V c (Pipeline.arrRef spec1 3) (ix2 k j) := by
  obtain ⟨-, -, -, -, -, -, e0, e1, -⟩ := idx_facts1 t
  show V c (Pipeline.arrRef spec1 3) (((cfg1.win 3).blk t).view.emb (ix2 k j)) = V c (Pipeline.arrRef spec1 3) (ix2 k j)
  refine congrArg (V c (Pipeline.arrRef spec1 3)) ?_
  funext a; apply Fin.ext
  match a with
  | ⟨0, _⟩ => show win1_3.index t (0 : Fin 2) * 64 + 1 * k.val = k.val; omega
  | ⟨1, _⟩ => show win1_3.index t (1 : Fin 2) * 64 + 1 * j.val = j.val; omega

/-- The bias is staged whole. -/
theorem blk1_4 (c : Dev nD) (t : Fin cfg1.N) (j : Fin 64) :
    iblk1 V c 4 t (ix1 j) = V c (Pipeline.arrRef spec1 4) (ix1 j) := by
  obtain ⟨-, -, -, -, -, -, -, -, e0, -⟩ := idx_facts1 t
  show V c (Pipeline.arrRef spec1 4) (((cfg1.win 4).blk t).view.emb (ix1 j)) = V c (Pipeline.arrRef spec1 4) (ix1 j)
  refine congrArg (V c (Pipeline.arrRef spec1 4)) ?_
  funext a; apply Fin.ext
  match a with
  | ⟨0, _⟩ => show win1_4.index t (0 : Fin 1) * 64 + 1 * j.val = j.val; omega

/-- The second weight matrix is staged whole. -/
theorem blk1_5 (c : Dev nD) (t : Fin cfg1.N) (k : Fin 64) (j : Fin 64) :
    iblk1 V c 5 t (ix2 k j) = V c (Pipeline.arrRef spec1 5) (ix2 k j) := by
  obtain ⟨-, -, -, -, -, -, -, -, -, e0, e1, -⟩ := idx_facts1 t
  show V c (Pipeline.arrRef spec1 5) (((cfg1.win 5).blk t).view.emb (ix2 k j)) = V c (Pipeline.arrRef spec1 5) (ix2 k j)
  refine congrArg (V c (Pipeline.arrRef spec1 5)) ?_
  funext a; apply Fin.ext
  match a with
  | ⟨0, _⟩ => show win1_5.index t (0 : Fin 2) * 64 + 1 * k.val = k.val; omega
  | ⟨1, _⟩ => show win1_5.index t (1 : Fin 2) * 64 + 1 * j.val = j.val; omega

/-- One entry of the staged block's result is the layer at the array's row the block's row sits at. -/
theorem point1 (A X : S50000x64.Idx → EReal) (I : S50000x1.Idx → EReal) (Wl Wr : S64x64.Idx → EReal) (B : S64.Idx → EReal)
    (x0 x2 : Vec Ideal S5000x64 .f32) (x1 : Vec Ideal S5000x1 .f32) (x3 x5 : Vec Ideal S64x64 .f32) (x4 : Vec Ideal S64 .f32)
    (n : Fin 50000) (r : Fin 5000) (j : Fin 64)
    (h0 : ∀ k : Fin 64, x0 (ix2 r k) = A (ix2 n k)) (h1 : x1 (ix2 r (0 : Fin 1)) = I (ix2 n (0 : Fin 1)))
    (h2 : ∀ k : Fin 64, x2 (ix2 r k) = X (ix2 n k)) (h3 : ∀ k : Fin 64, x3 (ix2 k j) = Wl (ix2 k j))
    (h5 : ∀ k : Fin 64, x5 (ix2 k j) = Wr (ix2 k j)) (h4 : x4 (ix1 j) = B (ix1 j)) :
    k1_pay1 (F := Ideal) x0 x1 x2 x3 x5 x4 (ix2 r j) = layerMul (N := 50000) (K := 64) (M := 64) A X I Wl Wr B (ix2 n j) := by
  rw [k1_pay1_apply]
  show layer (fun k => x0 (ix2 r k) * x1 (ix2 r (0 : Fin 1))) (fun k => x2 (ix2 r k)) x3 x5 x4 j
    = layer (fun k => A (ix2 n k) * I (ix2 n (0 : Fin 1))) (fun k => X (ix2 n k)) Wl Wr B j
  unfold layer
  rw [h1, h4]
  refine congrArg₂ (fun s s' => max ((s + B (ix1 j)) + s') 0) ?_ ?_
  · exact Finset.sum_congr rfl fun k _ => by
      show x0 (ix2 r k) * I (ix2 n (0 : Fin 1)) * x3 (ix2 k j) = A (ix2 n k) * I (ix2 n (0 : Fin 1)) * Wl (ix2 k j)
      rw [h0, h3]
  · exact Finset.sum_congr rfl fun k _ => by
      show x2 (ix2 r k) * x5 (ix2 k j) = X (ix2 n k) * Wr (ix2 k j)
      rw [h2, h5]

/-! ## What a point writes back, the cover, the array -/

/-- What point t writes back is block t of the layer of the arrays found at entry. -/
theorem flushed1_eq (c : Dev nD) (t : Fin cfg1.N) :
    (dat1 (F := Ideal) V c).flushed 6 t
      = ((cfg1.win 6).blk t).view.read (Elt Ideal)
          (layerMul (N := 50000) (K := 64) (M := 64) (V c (Pipeline.arrRef spec1 0)) (V c (Pipeline.arrRef spec1 2))
            (V c (Pipeline.arrRef spec1 1)) (V c (Pipeline.arrRef spec1 3)) (V c (Pipeline.arrRef spec1 5)) (V c (Pipeline.arrRef spec1 4))) := by
  show (cfg1.win 6).cut (grid1.coords t) ((dat1 V c).after 6 t) = _
  rw [after1_6]
  unfold out1_6
  rw [View.canon_unit_zero hz2]
  simp only [View.ld_unit_zero (S := S5000x64) hz2, View.ld_unit_zero (S := S5000x1) hz2,
    View.ld_unit_zero (S := S64x64) hz2, View.ld_unit_zero (S := S64) hz1]
  funext y
  obtain ⟨r, j, rfl⟩ : ∃ (r : Fin 5000) (j : Fin 64), y = ix2 r j := ⟨y 0, y 1, eq_ix2 y⟩
  have ht : t.val < 10 := lt_of_lt_of_eq t.isLt N_1
  have hr : r.val < 5000 := r.isLt
  obtain ⟨-, -, -, -, -, -, -, -, -, -, -, e0, e1⟩ := idx_facts1 t
  have he : ((cfg1.win 6).blk t).view.emb (ix2 r j) = ix2 (⟨t.val * 5000 + r.val, by omega⟩ : Fin 50000) j := by
    funext a; apply Fin.ext
    match a with
    | ⟨0, _⟩ => show win1_6.index t (0 : Fin 2) * 5000 + 1 * r.val = t.val * 5000 + r.val; omega
    | ⟨1, _⟩ => show win1_6.index t (1 : Fin 2) * 64 + 1 * j.val = j.val; omega
  refine (point1 (V c (Pipeline.arrRef spec1 0)) (V c (Pipeline.arrRef spec1 2)) (V c (Pipeline.arrRef spec1 1))
    (V c (Pipeline.arrRef spec1 3)) (V c (Pipeline.arrRef spec1 5)) (V c (Pipeline.arrRef spec1 4))
    (iblk1 V c 0 t) (iblk1 V c 2 t) (iblk1 V c 1 t) (iblk1 V c 3 t) (iblk1 V c 5 t) (iblk1 V c 4 t)
    (⟨t.val * 5000 + r.val, by omega⟩ : Fin 50000) r j
    (fun k => blk1_0 V c t r k _ rfl) (blk1_1 V c t r _ rfl) (fun k => blk1_2 V c t r k _ rfl)
    (fun k => blk1_3 V c t k j) (fun k => blk1_5 V c t k j) (blk1_4 V c t j)).trans ?_
  exact (congrArg (layerMul (N := 50000) (K := 64) (M := 64) (V c (Pipeline.arrRef spec1 0)) (V c (Pipeline.arrRef spec1 2))
            (V c (Pipeline.arrRef spec1 1)) (V c (Pipeline.arrRef spec1 3)) (V c (Pipeline.arrRef spec1 5)) (V c (Pipeline.arrRef spec1 4))) he).symm

/-- An index of the result array is in point t's block iff each coordinate is in the block's range on its axis. -/
theorem mem_blk1 (t : Fin cfg1.N) (i : S50000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v34).slice (win1_6.rect t)).set ↔ _
  rw [View.set_slice_whole, Rect.mem_set_unit]
  exact Iff.rfl

/-- Row n lies in the block of point n / 5000: the blocks cover the result array. -/
theorem cover1 (i : S50000x64.Idx) : ∃ t : Fin cfg1.N, (cfg1.win 6).flush t = true ∧ i ∈ ((cfg1.win 6).blk t).view.set := by
  have hi0 : (i 0).val < 50000 := (i 0).isLt
  have hi1 : (i 1).val < 64 := (i 1).isLt
  have hq : (i 0).val / 5000 < grid1.N := by rw [N_1]; omega
  refine ⟨⟨(i 0).val / 5000, hq⟩, flush1_6 _, ?_⟩
  rw [mem_blk1]
  obtain ⟨-, -, -, -, -, -, -, -, -, -, -, e0, e1⟩ := idx_facts1 ⟨(i 0).val / 5000, hq⟩
  intro a
  match a with
  | ⟨0, _⟩ =>
    show win1_6.index ⟨(i 0).val / 5000, hq⟩ (0 : Fin 2) * 5000 ≤ (i 0).val
      ∧ (i 0).val < win1_6.index ⟨(i 0).val / 5000, hq⟩ (0 : Fin 2) * 5000 + 5000
    rw [e0]
    show (i 0).val / 5000 * 5000 ≤ (i 0).val ∧ (i 0).val < (i 0).val / 5000 * 5000 + 5000
    omega
  | ⟨1, _⟩ =>
    show win1_6.index ⟨(i 0).val / 5000, hq⟩ (1 : Fin 2) * 64 ≤ (i 1).val
      ∧ (i 1).val < win1_6.index ⟨(i 0).val / 5000, hq⟩ (1 : Fin 2) * 64 + 64
    rw [e1]
    omega

end Cert.Bridge.SageSecond

namespace Cert.Bridge

open Cert.KernelIdeal Cert.KernelIdeal.Gen Idealize.ShloMosaic Idealize.ShloMosaic.ValueIdx Idealize.ShloMosaic.TcCoe Idealize.SL.Sem
open Idealize.ShloMosaic.Pipeline (Dat Cfg Window)

/-- After the second launch the result array holds the layer of the arrays found at entry, entry by entry. -/
theorem final1 (V : (c : Dev nD) → (b : Ref sig .tc) → Buf (Elt Ideal) ((c : Thread nD τ).loc b)) (c : Dev nD) :
    (dat1 (F := Ideal) V c).arrAt 6 cfg1.N
      = layerMul (N := 50000) (K := 64) (M := 64) (V c (Pipeline.arrRef spec1 0)) (V c (Pipeline.arrRef spec1 2))
          (V c (Pipeline.arrRef spec1 1)) (V c (Pipeline.arrRef spec1 3)) (V c (Pipeline.arrRef spec1 5)) (V c (Pipeline.arrRef spec1 4)) :=
  (dat1 (F := Ideal) V c).arrAt_eq_of_cover 6 _ (fun t _ => SageSecond.flushed1_eq V c t) SageSecond.cover1

end Cert.Bridge
end
-- ==== Proof.Region2.lean ====
/-
  The node-projection stage of the kernel program, read whole: its two output arrays are the node features times
  the two weight matrices, P = h·Wa and Q = h·Wb, entry (n, j) being Σ_k h[n,k] · W[k,j].

  The stage walks 25 grid points. At point t it reads rows t·2000 … t·2000 + 1999 of the node features h (a
  [50000, 64] array, as the stage finds it) and the two whole [64, 64] weight matrices, and writes rows
  t·2000 … t·2000 + 1999 of each output. What it writes is, for each output, the plain matrix product of the row block
  with the weight matrix, accumulated into zeros; the narrowings of the float format before and after the product are
  the identity on extended reals, and a cast of a shape to itself is the identity. So the payload at row r, column j of
  the block is Σ_k block[r,k] · W[k,j].

  A block's coordinate in the whole array is its block index times the block size plus the coordinate inside the
  block: block row r of point t is array row t·2000 + r, and the weight windows' one block sits at offset 0. Hence what
  point t writes back is block t of the one whole-array function (n, j) ↦ Σ_k h[n,k] · W[k,j]. Every row n lies in the
  block of point n / 2000 (25 · 2000 = 50000: the blocks tile the array), so after the last write-back each output
  array is that function everywhere. This holds for whatever contents the stage is entered with.
-/
import proofs.«124681_j52029233824512_2_alg».proof.Proof.Gen.KernelIdeal.Frame
import proofs.«124681_j52029233824512_2_alg».proof.Proof.Spec
import proofs.«124681_j52029233824512_2_alg».proof.Proof.LibSageLayer
import Idealize.ShloMosaic.Lib.Pipeline.Value

noncomputable section

open scoped BigOperators

namespace Cert.Bridge.NodeProj

open Cert.KernelIdeal Cert.KernelIdeal.Gen Idealize.ShloMosaic Idealize.ShloMosaic.ValueIdx Idealize.ShloMosaic.TcCoe Idealize.SL.Sem
open Idealize.ShloMosaic.Pipeline (Dat Cfg Window)
open Cert.Bridge

/-- The zero offsets, spelt as a function. -/
theorem hz : (![0, 0] : Fin 2 → Nat) = fun _ => 0 := funext fun a => by fin_cases a <;> rfl

/-- The first output's payload at row r, column j of the block: the row of the feature block against the column of the
    first weight matrix. -/
theorem pay2_apply (v0 : Vec Ideal S2000x64 .f32) (v3 : Vec Ideal S64x64 .f32) (r : Fin 2000) (j : Fin 64) :
    k2_pay2 (F := Ideal) v0 v3 (ix2 r j) = ∑ k : Fin 64, v0 (ix2 r k) * v3 (ix2 k j) := by
  unfold k2_pay2 k2_pay1
  show matmul (F := Ideal) dot_S2000x64_S64x64_S2000x64_1_0_0_1_n_n none
      (truncf (F := Ideal) .bf16 (shapeCast S2000x64 (v0 : FVec Ideal S2000x64 .f32) shapeCasts_S2000x64_S2000x64) bitsLt_bf16_f32)
      (truncf (F := Ideal) .bf16 (shapeCast S64x64 (v3 : FVec Ideal S64x64 .f32) shapeCasts_S64x64_S64x64) bitsLt_bf16_f32)
      (constant (F := Ideal) S2000x64 .f32 0x00000000#32) (ix2 r j) = _
  rw [shapeCast_self, shapeCast_self]
  exact Cert.Sage.matmul0_apply none (truncf .bf16 v0 bitsLt_bf16_f32) (truncf .bf16 v3 bitsLt_bf16_f32) r j

/-- The second output's payload at row r, column j of the block: the same with the second weight matrix. -/
theorem pay3_apply (v0 : Vec Ideal S2000x64 .f32) (v6 : Vec Ideal S64x64 .f32) (r : Fin 2000) (j : Fin 64) :
    k2_pay3 (F := Ideal) v0 v6 (ix2 r j) = ∑ k : Fin 64, v0 (ix2 r k) * v6 (ix2 k j) := by
  unfold k2_pay3 k2_pay1
  show matmul (F := Ideal) dot_S2000x64_S64x64_S2000x64_1_0_0_1_n_n none
      (truncf (F := Ideal) .bf16 (shapeCast S2000x64 (v0 : FVec Ideal S2000x64 .f32) shapeCasts_S2000x64_S2000x64) bitsLt_bf16_f32)
      (truncf (F := Ideal) .bf16 (shapeCast S64x64 (v6 : FVec Ideal S64x64 .f32) shapeCasts_S64x64_S64x64) bitsLt_bf16_f32)
      (constant (F := Ideal) S2000x64 .f32 0x00000000#32) (ix2 r j) = _
  rw [shapeCast_self, shapeCast_self]
  exact Cert.Sage.matmul0_apply none (truncf .bf16 v0 bitsLt_bf16_f32) (truncf .bf16 v6 bitsLt_bf16_f32) r j

/-- A node-level product read at (n, j). -/
theorem proj_apply {N K M : Nat} (h : (⟨2, ![N, K]⟩ : Shape).Idx → EReal) (W : (⟨2, ![K, M]⟩ : Shape).Idx → EReal) (n : Fin N) (j : Fin M) :
    proj h W (ix2 n j) = ∑ k : Fin K, h (ix2 n k) * W (ix2 k j) := rfl

/-- The index maps over the 25 grid points: the feature window and both output windows are at block row t, block
    column 0; the weight windows stay at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

variable (V : (c : Dev nD) → (b : Ref sig .tc) → Buf (Elt Ideal) ((c : Thread nD τ).loc b))

/-- The node-feature window's block at point t is rows t·2000 … t·2000 + 1999 of the node features. -/
theorem iblk2_0_apply (c : Dev nD) (t : Fin cfg2.N) (r : Fin 2000) (k : Fin 64) (n : Fin 50000) (hn : n.val = t.val * 2000 + r.val) :
    (iblk2 V c 0 t : Vec Ideal S2000x64 .f32) (ix2 r k) = (V c (Pipeline.arrRef spec2 0) : S50000x64.Idx → EReal) (ix2 n k) := by
  obtain ⟨e00, e01, e10, e11, e20, e21, e30, e31, e40, e41⟩ := idx_facts t
  show V c (Pipeline.arrRef spec2 0) (((cfg2.win 0).blk t).view.emb (ix2 r k)) = _
  refine congrArg (V c (Pipeline.arrRef spec2 0)) (funext fun a => Fin.ext ?_)
  match a with
  | ⟨0, _⟩ => show win2_0.index t (0 : Fin 2) * 2000 + 1 * r.val = n.val; rw [e00, hn]; omega
  | ⟨1, _⟩ => show win2_0.index t (1 : Fin 2) * 64 + 1 * k.val = k.val; rw [e01]; omega

/-- Output window 3's block at point t, as an index of the whole array: row t·2000 + r, column j. -/
theorem emb2_3 (t : Fin cfg2.N) (r : Fin 2000) (j : Fin 64) (n : Fin 50000) (hn : n.val = t.val * 2000 + r.val) :
    ((cfg2.win 3).blk t).view.emb (ix2 r j) = (ix2 n j : S50000x64.Idx) := by
  obtain ⟨e00, e01, e10, e11, e20, e21, e30, e31, e40, e41⟩ := idx_facts t
  funext a; apply Fin.ext
  match a with
  | ⟨0, _⟩ => show win2_3.index t (0 : Fin 2) * 2000 + 1 * r.val = n.val; rw [e30, hn]; omega
  | ⟨1, _⟩ => show win2_3.index t (1 : Fin 2) * 64 + 1 * j.val = j.val; rw [e31]; omega

/-- Weight window 1's one block is the whole weight matrix. -/
theorem iblk2_1_apply (c : Dev nD) (t : Fin cfg2.N) (k : Fin 64) (j : Fin 64) :
    (iblk2 V c 1 t : Vec Ideal S64x64 .f32) (ix2 k j) = (V c (Pipeline.arrRef spec2 1) : S64x64.Idx → EReal) (ix2 k j) := by
  obtain ⟨e00, e01, e10, e11, e20, e21, e30, e31, e40, e41⟩ := idx_facts t
  show V c (Pipeline.arrRef spec2 1) (((cfg2.win 1).blk t).view.emb (ix2 k j)) = _
  refine congrArg (V c (Pipeline.arrRef spec2 1)) (funext fun a => Fin.ext ?_)
  match a with
  | ⟨0, _⟩ => show win2_1.index t (0 : Fin 2) * 64 + 1 * k.val = k.val; rw [e10]; omega
  | ⟨1, _⟩ => show win2_1.index t (1 : Fin 2) * 64 + 1 * j.val = j.val; rw [e11]; omega

/-- What point t writes back to output window 3 is block t of the product of the node features with weight matrix 1. -/
theorem flushed2_3_eq (c : Dev nD) (t : Fin cfg2.N) :
    (dat2 (F := Ideal) V c).flushed 3 t = ((cfg2.win 3).blk t).view.read (Elt Ideal)
      (proj (N := 50000) (K := 64) (M := 64) (V c (Pipeline.arrRef spec2 0)) (V c (Pipeline.arrRef spec2 1))) := by
  show (cfg2.win 3).cut (grid2.coords t) ((dat2 V c).after 3 t) = _
  rw [after2_3]
  unfold out2_3
  rw [View.canon_unit_zero hz]
  simp only [View.ld_unit_zero (S := S2000x64) hz, View.ld_unit_zero (S := S64x64) hz]
  funext y
  obtain ⟨r, j, rfl⟩ : ∃ (r : Fin 2000) (j : Fin 64), y = ix2 r j := ⟨y 0, y 1, eq_ix2 y⟩
  have ht : t.val < 25 := Nat.lt_of_lt_of_eq t.isLt N_2
  have hr : r.val < 2000 := r.isLt
  let n : Fin 50000 := ⟨t.val * 2000 + r.val, by omega⟩
  show k2_pay2 (F := Ideal) (iblk2 V c 0 t) (iblk2 V c 1 t) (ix2 r j)
    = proj (N := 50000) (K := 64) (M := 64) (V c (Pipeline.arrRef spec2 0)) (V c (Pipeline.arrRef spec2 1))
        (((cfg2.win 3).blk t).view.emb (ix2 r j))
  refine (((pay2_apply (iblk2 V c 0 t) (iblk2 V c 1 t) r j).trans ?_).trans
    (proj_apply (V c (Pipeline.arrRef spec2 0)) (V c (Pipeline.arrRef spec2 1)) n j).symm).trans
    (congrArg (proj (N := 50000) (K := 64) (M := 64) (V c (Pipeline.arrRef spec2 0)) (V c (Pipeline.arrRef spec2 1)))
      (emb2_3 t r j n rfl).symm)
  refine Finset.sum_congr rfl fun k _ => ?_
  rw [iblk2_0_apply V c t r k n rfl, iblk2_1_apply V c t k j]

/-- An index of the array is in point t's block of output window 3 iff each coordinate is in the block's range. -/
theorem mem_blk2_3 (t : Fin cfg2.N) (i : S50000x64.Idx) :
    i ∈ ((cfg2.win 3).blk t).view.set ↔ ∀ a : Fin 2, win2_3.index t a * S2000x64.size a ≤ (i a).val
      ∧ (i a).val < win2_3.index t a * S2000x64.size a + S2000x64.size a := by
  show i ∈ ((View.whole main_v38_0).slice (win2_3.rect t)).set ↔ _
  rw [View.set_slice_whole, Rect.mem_set_unit]
  exact Iff.rfl

/-- Every row of the array is in some point's block of output window 3: row n is in the block of point n / 2000. -/
theorem cover2_3_rows (i : S50000x64.Idx) :
    ∃ t : Fin cfg2.N, (cfg2.win 3).flush t = true ∧ i ∈ ((cfg2.win 3).blk t).view.set := by
  have hi0 : (i 0).val < 50000 := idx2_lt0 i
  have hi1 : (i 1).val < 64 := idx2_lt1 i
  have hlt : (i 0).val / 2000 < cfg2.N := Nat.lt_of_lt_of_eq (by omega : (i 0).val / 2000 < 25) N_2.symm
  refine ⟨⟨(i 0).val / 2000, hlt⟩, flush2_3 _, ?_⟩
  obtain ⟨e00, e01, e10, e11, e20, e21, e30, e31, e40, e41⟩ := idx_facts ⟨(i 0).val / 2000, hlt⟩
  rw [mem_blk2_3]
  intro a
  match a with
  | ⟨0, _⟩ =>
    show win2_3.index ⟨(i 0).val / 2000, hlt⟩ (0 : Fin 2) * 2000 ≤ (i 0).val
      ∧ (i 0).val < win2_3.index ⟨(i 0).val / 2000, hlt⟩ (0 : Fin 2) * 2000 + 2000
    rw [e30]
    show (i 0).val / 2000 * 2000 ≤ (i 0).val ∧ (i 0).val < (i 0).val / 2000 * 2000 + 2000
    omega
  | ⟨1, _⟩ =>
    show win2_3.index ⟨(i 0).val / 2000, hlt⟩ (1 : Fin 2) * 64 ≤ (i 1).val
      ∧ (i 1).val < win2_3.index ⟨(i 0).val / 2000, hlt⟩ (1 : Fin 2) * 64 + 64
    rw [e31]
    omega

/-- Output window 4's block at point t, as an index of the whole array: row t·2000 + r, column j. -/
theorem emb2_4 (t : Fin cfg2.N) (r : Fin 2000) (j : Fin 64) (n : Fin 50000) (hn : n.val = t.val * 2000 + r.val) :
    ((cfg2.win 4).blk t).view.emb (ix2 r j) = (ix2 n j : S50000x64.Idx) := by
  obtain ⟨e00, e01, e10, e11, e20, e21, e30, e31, e40, e41⟩ := idx_facts t
  funext a; apply Fin.ext
  match a with
  | ⟨0, _⟩ => show win2_4.index t (0 : Fin 2) * 2000 + 1 * r.val = n.val; rw [e40, hn]; omega
  | ⟨1, _⟩ => show win2_4.index t (1 : Fin 2) * 64 + 1 * j.val = j.val; rw [e41]; omega

/-- Weight window 2's one block is the whole weight matrix. -/
theorem iblk2_2_apply (c : Dev nD) (t : Fin cfg2.N) (k : Fin 64) (j : Fin 64) :
    (iblk2 V c 2 t : Vec Ideal S64x64 .f32) (ix2 k j) = (V c (Pipeline.arrRef spec2 2) : S64x64.Idx → EReal) (ix2 k j) := by
  obtain ⟨e00, e01, e10, e11, e20, e21, e30, e31, e40, e41⟩ := idx_facts t
  show V c (Pipeline.arrRef spec2 2) (((cfg2.win 2).blk t).view.emb (ix2 k j)) = _
  refine congrArg (V c (Pipeline.arrRef spec2 2)) (funext fun a => Fin.ext ?_)
  match a with
  | ⟨0, _⟩ => show win2_2.index t (0 : Fin 2) * 64 + 1 * k.val = k.val; rw [e20]; omega
  | ⟨1, _⟩ => show win2_2.index t (1 : Fin 2) * 64 + 1 * j.val = j.val; rw [e21]; omega

/-- What point t writes back to output window 4 is block t of the product of the node features with weight matrix 2. -/
theorem flushed2_4_eq (c : Dev nD) (t : Fin cfg2.N) :
    (dat2 (F := Ideal) V c).flushed 4 t = ((cfg2.win 4).blk t).view.read (Elt Ideal)
      (proj (N := 50000) (K := 64) (M := 64) (V c (Pipeline.arrRef spec2 0)) (V c (Pipeline.arrRef spec2 2))) := by
  show (cfg2.win 4).cut (grid2.coords t) ((dat2 V c).after 4 t) = _
  rw [after2_4]
  unfold out2_4
  rw [View.canon_unit_zero hz]
  simp only [View.ld_unit_zero (S := S2000x64) hz, View.ld_unit_zero (S := S64x64) hz]
  funext y
  obtain ⟨r, j, rfl⟩ : ∃ (r : Fin 2000) (j : Fin 64), y = ix2 r j := ⟨y 0, y 1, eq_ix2 y⟩
  have ht : t.val < 25 := Nat.lt_of_lt_of_eq t.isLt N_2
  have hr : r.val < 2000 := r.isLt
  let n : Fin 50000 := ⟨t.val * 2000 + r.val, by omega⟩
  show k2_pay3 (F := Ideal) (iblk2 V c 0 t) (iblk2 V c 2 t) (ix2 r j)
    = proj (N := 50000) (K := 64) (M := 64) (V c (Pipeline.arrRef spec2 0)) (V c (Pipeline.arrRef spec2 2))
        (((cfg2.win 4).blk t).view.emb (ix2 r j))
  refine (((pay3_apply (iblk2 V c 0 t) (iblk2 V c 2 t) r j).trans ?_).trans
    (proj_apply (V c (Pipeline.arrRef spec2 0)) (V c (Pipeline.arrRef spec2 2)) n j).symm).trans
    (congrArg (proj (N := 50000) (K := 64) (M := 64) (V c (Pipeline.arrRef spec2 0)) (V c (Pipeline.arrRef spec2 2)))
      (emb2_4 t r j n rfl).symm)
  refine Finset.sum_congr rfl fun k _ => ?_
  rw [iblk2_0_apply V c t r k n rfl, iblk2_2_apply V c t k j]

/-- An index of the array is in point t's block of output window 4 iff each coordinate is in the block's range. -/
theorem mem_blk2_4 (t : Fin cfg2.N) (i : S50000x64.Idx) :
    i ∈ ((cfg2.win 4).blk t).view.set ↔ ∀ a : Fin 2, win2_4.index t a * S2000x64.size a ≤ (i a).val
      ∧ (i a).val < win2_4.index t a * S2000x64.size a + S2000x64.size a := by
  show i ∈ ((View.whole main_v38_1).slice (win2_4.rect t)).set ↔ _
  rw [View.set_slice_whole, Rect.mem_set_unit]
  exact Iff.rfl

/-- Every row of the array is in some point's block of output window 4: row n is in the block of point n / 2000. -/
theorem cover2_4_rows (i : S50000x64.Idx) :
    ∃ t : Fin cfg2.N, (cfg2.win 4).flush t = true ∧ i ∈ ((cfg2.win 4).blk t).view.set := by
  have hi0 : (i 0).val < 50000 := idx2_lt0 i
  have hi1 : (i 1).val < 64 := idx2_lt1 i
  have hlt : (i 0).val / 2000 < cfg2.N := Nat.lt_of_lt_of_eq (by omega : (i 0).val / 2000 < 25) N_2.symm
  refine ⟨⟨(i 0).val / 2000, hlt⟩, flush2_4 _, ?_⟩
  obtain ⟨e00, e01, e10, e11, e20, e21, e30, e31, e40, e41⟩ := idx_facts ⟨(i 0).val / 2000, hlt⟩
  rw [mem_blk2_4]
  intro a
  match a with
  | ⟨0, _⟩ =>
    show win2_4.index ⟨(i 0).val / 2000, hlt⟩ (0 : Fin 2) * 2000 ≤ (i 0).val
      ∧ (i 0).val < win2_4.index ⟨(i 0).val / 2000, hlt⟩ (0 : Fin 2) * 2000 + 2000
    rw [e40]
    show (i 0).val / 2000 * 2000 ≤ (i 0).val ∧ (i 0).val < (i 0).val / 2000 * 2000 + 2000
    omega
  | ⟨1, _⟩ =>
    show win2_4.index ⟨(i 0).val / 2000, hlt⟩ (1 : Fin 2) * 64 ≤ (i 1).val
      ∧ (i 1).val < win2_4.index ⟨(i 0).val / 2000, hlt⟩ (1 : Fin 2) * 64 + 64
    rw [e41]
    omega

end Cert.Bridge.NodeProj

namespace Cert.Bridge

open Cert.KernelIdeal Cert.KernelIdeal.Gen Idealize.ShloMosaic Idealize.ShloMosaic.ValueIdx Idealize.ShloMosaic.TcCoe Idealize.SL.Sem
open Idealize.ShloMosaic.Pipeline (Dat Cfg Window)

/-- After the stage the first output array is the node features times the first weight matrix, for any contents the
    stage is entered with. -/
theorem final2_3 (V : (c : Dev nD) → (b : Ref sig .tc) → Buf (Elt Ideal) ((c : Thread nD τ).loc b)) (c : Dev nD) :
    (dat2 (F := Ideal) V c).arrAt 3 cfg2.N
      = proj (N := 50000) (K := 64) (M := 64) (V c (Pipeline.arrRef spec2 0)) (V c (Pipeline.arrRef spec2 1)) :=
  (dat2 (F := Ideal) V c).arrAt_eq_of_cover 3
    (proj (N := 50000) (K := 64) (M := 64) (V c (Pipeline.arrRef spec2 0)) (V c (Pipeline.arrRef spec2 1)))
    (fun t _ => NodeProj.flushed2_3_eq V c t) NodeProj.cover2_3_rows

/-- After the stage the second output array is the node features times the second weight matrix. -/
theorem final2_4 (V : (c : Dev nD) → (b : Ref sig .tc) → Buf (Elt Ideal) ((c : Thread nD τ).loc b)) (c : Dev nD) :
    (dat2 (F := Ideal) V c).arrAt 4 cfg2.N
      = proj (N := 50000) (K := 64) (M := 64) (V c (Pipeline.arrRef spec2 0)) (V c (Pipeline.arrRef spec2 2)) :=
  (dat2 (F := Ideal) V c).arrAt_eq_of_cover 4
    (proj (N := 50000) (K := 64) (M := 64) (V c (Pipeline.arrRef spec2 0)) (V c (Pipeline.arrRef spec2 2)))
    (fun t _ => NodeProj.flushed2_4_eq V c t) NodeProj.cover2_4_rows

end Cert.Bridge

end
-- ==== Proof.LibRowGather.lean ====
/-
  Taking rows of a matrix by an index column, read at an entry.

  `x[idx]` for an [N, C] matrix `x` and R start indices (an [R, 1] column) is the gather whose offset axis is the
  columns, whose collapsed axis is the rows, whose start index map names the rows, and whose slices are one row wide:
  entry (r, k) of the result is `x` at row `clampRow idx r` — the r-th start index read as a signed integer and
  clamped into [0, N − 1] — and column k. Generic in N, C, R, the index width and the element type.
-/
import Idealize.ShloMosaic.PureOps.ShapeOps
import Idealize.ShloMosaic.Lib.ValueIdx

noncomputable section

namespace Cert.Lib.RowGather

open Idealize.ShloMosaic Idealize.ShloMosaic.ValueIdx

variable {α : Type}

/-- The dimension numbers of "take rows": operand [N, C], start indices [R, 1], result [R, C]. -/
abbrev rowsDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row that result row `r` reads: its start index, read signed, clamped into [0, N − 1]. -/
def clampRow (N : Nat) {R w : Nat} (idx : IVec ⟨2, ![R, 1]⟩ w) (r : Fin R) : Nat :=
  min (idx (ix2 r (0 : Fin 1))).toInt.toNat (N - 1)

theorem clampRow_lt {N R w : Nat} (hN : 0 < N) (idx : IVec ⟨2, ![R, 1]⟩ w) (r : Fin R) : clampRow N idx r < N := by
  unfold clampRow; omega

/-- THE ROW GATHER READ AT (r, k): the operand at the clamped start row and column k. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowsDims N C R wf) x idx (ix2 r k) = x (ix2 ⟨clampRow N idx r, clampRow_lt hN idx r⟩ k) := by
  unfold Host.gather
  congr 1
  funext a
  refine Fin.ext ?_
  match a with
  | ⟨0, _⟩ =>
    show (rowsDims N C R wf).start (ix2 r k) idx 0 + (rowsDims N C R wf).batchCoord (ix2 r k) 0
      + (rowsDims N C R wf).offCoord (ix2 r k) 0 = clampRow N idx r
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx (ix2 r k) ⟨List.idxOf (0 : Fin 2) (rowsDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowsDims N C R wf).start (ix2 r k) idx 1 + (rowsDims N C R wf).batchCoord (ix2 r k) 1
      + (rowsDims N C R wf).offCoord (ix2 r k) 1 = k.val
    rw [GatherDims.batchCoord_eq_zero _ _ _ List.not_mem_nil]
    unfold GatherDims.start
    rw [dif_neg (show (1 : Fin 2) ∉ (rowsDims N C R wf).startIndexMap from
      fun h => Nat.one_ne_zero (congrArg Fin.val (List.mem_singleton.mp h)))]
    simp only [Nat.add_zero, Nat.zero_add]
    unfold GatherDims.offCoord
    rw [dif_pos (show (1 : Fin 2) ∈ (rowsDims N C R wf).sKept from
      (GatherDims.mem_sKept _ _).mpr ⟨fun h => Nat.one_ne_zero (congrArg Fin.val (List.mem_singleton.mp h)), List.not_mem_nil⟩)]
    rfl

end Cert.Lib.RowGather

end
-- ==== Proof.Region3.lean ====
/-
  The edge stage of the kernel program, from blocks to the whole array, at the ideal values (extended reals, every
  operation exact, a change of float format the identity).

  Per grid point t (157 of them) the body reads rows 10240·t … 10240·t + 10239 of the two gathered node-level products
  p, q ([1607680, 64]) and of the edge attributes ([1607680, 16]), and the whole of the weights Wc, b1, W2, b2. For the
  edge row r of the block it forms the hidden row max(((p + q) + attr·Wc) + b1, 0), the score
  logistic(⟨hidden, W2⟩ + b2), and lays the [10240, 1] column of scores as an [80, 128] tile: entry (a, l) of the tile is
  the score of block row 128·a + l. The tile is block t (80 rows) of the [12560, 128] output, so output entry (80·t + a, l)
  is the score of edge (80·t + a)·128 + l = 10240·t + (128·a + l): the output's row-major position IS the edge number.
  The 157 blocks of 80 rows tile the 12560 rows (row R is in block R / 80), so the array ends holding, at every entry
  (A, l), the score of edge 128·A + l.
-/
import proofs.«124681_j52029233824512_2_alg».proof.Proof.Gen.KernelIdeal.Frame
import proofs.«124681_j52029233824512_2_alg».proof.Proof.Spec
import proofs.«124681_j52029233824512_2_alg».proof.Proof.LibSageLayer
import proofs.«124681_j52029233824512_2_alg».proof.Proof.LibRowGather
import Idealize.ShloMosaic.Lib.Pipeline.Value
import Idealize.ShloMosaic.Lib.ValueLayout
import Idealize.ShloMosaic.Lib.ValueIdx
import Idealize.ShloMosaic.PureOps.Ideal

set_option maxRecDepth 16384

noncomputable section

open scoped BigOperators

namespace Cert.Bridge.EdgeTile

open Cert.KernelIdeal Cert.KernelIdeal.Gen Idealize.ShloMosaic Idealize.ShloMosaic.ValueIdx Idealize.ShloMosaic.TcCoe
open Idealize.SL.Sem
open Idealize.ShloMosaic.Pipeline (Dat Cfg Window)
open Cert.Bridge

/-! ## The payload at an index -/

/-- Entry (a, l) of a [10240, 1] column re-laid as an [80, 128] tile is row 128·a + l of the column. -/
theorem tile_apply {α : Type} (x : (⟨2, ![10240, 1]⟩ : Shape).Idx → α)
    (h : (⟨2, ![10240, 1]⟩ : Shape).ShapeCasts ⟨2, ![80, 128]⟩) (a : Fin 80) (l : Fin 128) (r : Fin 10240)
    (hr : r.val = a.val * 128 + l.val) :
    shapeCast ⟨2, ![80, 128]⟩ x h (ix2 a l) = x (ix2 r (0 : Fin 1)) :=
  shapeCast_apply x h (ix2 a l) (ix2 r (0 : Fin 1)) (by
    rw [Shape.rowMajor_val_two, Shape.rowMajor_val_two]
    show r.val * 1 + 0 = a.val * 128 + l.val
    omega)

/-- The hidden row of edge r at feature j: max(((p + q) + attr·Wc) + b1, 0). -/
theorem hidden_apply (D : DotDims ⟨2, ![10240, 16]⟩ ⟨2, ![16, 64]⟩ ⟨2, ![10240, 64]⟩) (hD : D = DotDims.plain 10240 16 64)
    (v0 v3 : FVec Ideal ⟨2, ![10240, 64]⟩ .bf16) (v6 : FVec Ideal ⟨2, ![10240, 16]⟩ .bf16)
    (v8 : FVec Ideal ⟨2, ![16, 64]⟩ .f32) (v14 : FVec Ideal ⟨1, ![64]⟩ .f32)
    (c1 : (⟨2, ![10240, 64]⟩ : Shape).ShapeCasts ⟨2, ![10240, 64]⟩)
    (c2 : (⟨2, ![10240, 16]⟩ : Shape).ShapeCasts ⟨2, ![10240, 16]⟩)
    (c3 : (⟨2, ![16, 64]⟩ : Shape).ShapeCasts ⟨2, ![16, 64]⟩)
    (c4 : (⟨1, ![64]⟩ : Shape).ShapeCasts ⟨2, ![1, 64]⟩)
    (hb : (⟨2, ![1, 64]⟩ : Shape).Broadcasts ⟨2, ![10240, 64]⟩)
    (ht : FTy.bits .bf16 < FTy.bits .f32) (r : Fin 10240) (j : Fin 64) :
    maximumf
      (addf (addf (addf (extf .f32 (shapeCast ⟨2, ![10240, 64]⟩ v0 c1) ht) (extf .f32 (shapeCast ⟨2, ![10240, 64]⟩ v3 c1) ht))
                (matmul D none (shapeCast ⟨2, ![10240, 16]⟩ v6 c2) (truncf .bf16 (shapeCast ⟨2, ![16, 64]⟩ v8 c3) ht)
                  (constant ⟨2, ![10240, 64]⟩ .f32 0x00000000#32)))
            (broadcastTo ⟨2, ![10240, 64]⟩ (shapeCast ⟨2, ![1, 64]⟩ v14 c4) hb))
      (broadcast ⟨2, ![10240, 64]⟩ (Scalar.ofBits (F := Ideal) .f32 0x00000000#32)) (ix2 r j)
      = max (((v0 (ix2 r j) + v3 (ix2 r j)) + ∑ k : Fin 16, v6 (ix2 r k) * v8 (ix2 k j)) + v14 (ix1 j)) 0 := by
  subst hD
  rw [Cert.Sage.relu_kernel_apply, addf_apply, addf_apply, addf_apply, broadcastTo_1b_ab_apply, Cert.Sage.rowcast_apply,
    Cert.Sage.matmul0_apply, shapeCast_self, shapeCast_self, shapeCast_self, shapeCast_self]
  rfl

/-- The score of edge r from its hidden row: the logistic function of ⟨hidden, head⟩ + head bias. -/
theorem head_apply (D : DotDims ⟨2, ![10240, 64]⟩ ⟨2, ![64, 1]⟩ ⟨2, ![10240, 1]⟩) (hD : D = DotDims.plain 10240 64 1)
    (hid : FVec Ideal ⟨2, ![10240, 64]⟩ .f32) (v21 : FVec Ideal ⟨2, ![64, 1]⟩ .f32) (v24 : FVec Ideal ⟨1, ![1]⟩ .f32)
    (c5 : (⟨1, ![1]⟩ : Shape).ShapeCasts ⟨2, ![1, 1]⟩)
    (hb : (⟨2, ![1, 1]⟩ : Shape).Broadcasts ⟨2, ![10240, 1]⟩)
    (ht : FTy.bits .bf16 < FTy.bits .f32) (r : Fin 10240) :
    logistic (addf (matmul D none (truncf .bf16 hid ht) (truncf .bf16 v21 ht) (constant ⟨2, ![10240, 1]⟩ .f32 0x00000000#32))
                   (broadcastTo ⟨2, ![10240, 1]⟩ (shapeCast ⟨2, ![1, 1]⟩ v24 c5) hb)) (ix2 r (0 : Fin 1))
      = Ideal.logistic ((∑ j : Fin 64, hid (ix2 r j) * v21 (ix2 j (0 : Fin 1))) + v24 (ix1 (0 : Fin 1))) := by
  subst hD
  refine congrArg Ideal.logistic ?_
  rw [addf_apply, broadcastTo_1b_ab_apply, Cert.Sage.rowcast_apply, Cert.Sage.matmul0_apply]
  rfl

/-- The body's payload at tile entry (a, l): the score of block row r = 128·a + l, from the rows r of the three blocks
    and the weights. -/
theorem pay3_apply (v0 v3 : Vec Ideal S10240x64 .bf16) (v6 : Vec Ideal S10240x16 .bf16) (v8 : Vec Ideal S16x64 .f32)
    (v14 : Vec Ideal S64 .f32) (v21 : Vec Ideal S64x1 .f32) (v24 : Vec Ideal S1 .f32) (a : Fin 80) (l : Fin 128)
    (r : Fin 10240) (hr : r.val = a.val * 128 + l.val) :
    k3_pay1 (F := Ideal) v0 v3 v6 v8 v14 v21 v24 (ix2 a l)
      = score (fun j => ((v0 (ix2 r j) + v3 (ix2 r j)) + ∑ k : Fin 16, v6 (ix2 r k) * v8 (ix2 k j)) + v14 (ix1 j)) v21 v24 := by
  unfold k3_pay1
  refine (tile_apply _ _ a l r hr).trans ?_
  refine (head_apply _ rfl _ v21 v24 _ _ _ r).trans ?_
  unfold score
  refine congrArg Ideal.logistic ?_
  refine congrArg (· + v24 (ix1 (0 : Fin 1))) ?_
  refine Finset.sum_congr rfl fun j _ => ?_
  refine congrArg (· * v21 (ix2 j (0 : Fin 1))) ?_
  exact hidden_apply _ rfl v0 v3 v6 v8 v14 _ _ _ _ _ _ r j

/-! ## One grid point -/

/-- At one grid point T: if the three row blocks are rows 10240·T … of the arrays and the weight blocks are the weight
    arrays, the payload's tile entry y is the specification's entry i = (80·T + y₀, y₁). The edge of that entry is
    (80·T + y₀)·128 + y₁ = 10240·T + (128·y₀ + y₁): row 128·y₀ + y₁ of the blocks. -/
theorem point3 (x0 x1 : Vec Ideal S10240x64 .bf16) (x2 : Vec Ideal S10240x16 .bf16) (x3 : Vec Ideal S16x64 .f32)
    (x4 : Vec Ideal S64 .f32) (x5 : Vec Ideal S64x1 .f32) (x6 : Vec Ideal S1 .f32)
    (ps qd : (⟨2, ![1607680, 64]⟩ : Shape).Idx → EReal) (ea : (⟨2, ![1607680, 16]⟩ : Shape).Idx → EReal)
    (Wc : (⟨2, ![16, 64]⟩ : Shape).Idx → EReal) (b1 : (⟨1, ![64]⟩ : Shape).Idx → EReal)
    (W2 : (⟨2, ![64, 1]⟩ : Shape).Idx → EReal) (b2 : (⟨1, ![1]⟩ : Shape).Idx → EReal)
    (T : Nat) (hT : T < 157)
    (h0 : ∀ (r : Fin 10240) (j : Fin 64) (e : Fin 1607680), e.val = T * 10240 + r.val → x0 (ix2 r j) = ps (ix2 e j))
    (h1 : ∀ (r : Fin 10240) (j : Fin 64) (e : Fin 1607680), e.val = T * 10240 + r.val → x1 (ix2 r j) = qd (ix2 e j))
    (h2 : ∀ (r : Fin 10240) (k : Fin 16) (e : Fin 1607680), e.val = T * 10240 + r.val → x2 (ix2 r k) = ea (ix2 e k))
    (h3 : x3 = Wc) (h4 : x4 = b1) (h5 : x5 = W2) (h6 : x6 = b2)
    (y : S80x128.Idx) (i : S12560x128.Idx) (hi0 : (i 0).val = T * 80 + (y 0).val) (hi1 : (i 1).val = (y 1).val) :
    k3_pay1 (F := Ideal) x0 x1 x2 x3 x4 x5 x6 y = edgeOut ps qd ea Wc b1 W2 b2 i := by
  subst h3 h4 h5 h6
  obtain ⟨a, l, rfl⟩ : ∃ (a : Fin 80) (l : Fin 128), y = ix2 a l := ⟨y 0, y 1, eq_ix2 y⟩
  obtain ⟨A, L, rfl⟩ : ∃ (A : Fin 12560) (L : Fin 128), i = ix2 A L := ⟨i 0, i 1, eq_ix2 i⟩
  have hA : A.val = T * 80 + a.val := hi0
  have hL : L.val = l.val := hi1
  have ha : a.val < 80 := a.isLt
  have hl : l.val < 128 := l.isLt
  have hlt : A.val * 128 + L.val < 1607680 := by have := A.isLt; have := L.isLt; omega
  rw [pay3_apply x0 x1 x2 x3 x4 x5 x6 a l ⟨a.val * 128 + l.val, by omega⟩ rfl]
  show score _ x5 x6 = score (preSplit ps qd ea x3 x4 (⟨A.val * 128 + L.val, hlt⟩ : Fin 1607680)) x5 x6
  refine congrArg (fun f => score f x5 x6) (funext fun j => ?_)
  have he : (⟨A.val * 128 + L.val, hlt⟩ : Fin 1607680).val = T * 10240 + (⟨a.val * 128 + l.val, by omega⟩ : Fin 10240).val := by
    show A.val * 128 + L.val = T * 10240 + (a.val * 128 + l.val)
    omega
  unfold preSplit
  rw [h0 _ j _ he, h1 _ j _ he]
  refine congrArg (fun s => (ps (ix2 _ j) + qd (ix2 _ j) + s) + x4 (ix1 j)) ?_
  exact Finset.sum_congr rfl fun k _ => by rw [h2 _ k _ he]

/-! ## The index maps -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps, decided over the 157 grid points: the three row windows and the output window sit at
    block t along the rows and block 0 along the columns; the weight windows at block 0. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 1) = 0
    ∧ win3_5.index t (0 : Fin 2) = 0 ∧ win3_5.index t (1 : Fin 2) = 0
    ∧ win3_6.index t (0 : Fin 1) = 0
    ∧ win3_7.index t (0 : Fin 2) = t.val ∧ win3_7.index t (1 : Fin 2) = 0 :=
  (by decide +kernel : ∀ t : Fin grid3.N, _)

/-! ## Each input block is the part of its array the output block's place names

A block's coordinate in its array is block index × block size + 1 × the coordinate inside the block. -/

/-- Row r of point t's block of window 0 is row 10240·t + r of its array. -/
theorem rows3_0 (c : Dev nD) (t : Fin cfg3.N) (r : Fin 10240) (j : Fin 64) (e : Fin 1607680) (he : e.val = t.val * 10240 + r.val) :
    iblk3 V c 0 t (ix2 r j) = V c (Pipeline.arrRef spec3 0) (ix2 e j) := by
  obtain ⟨e00, e01, -⟩ := idx_facts3 t
  show V c (Pipeline.arrRef spec3 0) (((cfg3.win 0).blk t).view.emb (ix2 r j)) = V c (Pipeline.arrRef spec3 0) (ix2 e j)
  refine congrArg _ (funext fun a => Fin.ext ?_)
  match a with
  | ⟨0, _⟩ => show win3_0.index t (0 : Fin 2) * 10240 + 1 * r.val = e.val; omega
  | ⟨1, _⟩ => show win3_0.index t (1 : Fin 2) * 64 + 1 * j.val = j.val; omega

/-- Row r of point t's block of window 1 is row 10240·t + r of its array. -/
theorem rows3_1 (c : Dev nD) (t : Fin cfg3.N) (r : Fin 10240) (j : Fin 64) (e : Fin 1607680) (he : e.val = t.val * 10240 + r.val) :
    iblk3 V c 1 t (ix2 r j) = V c (Pipeline.arrRef spec3 1) (ix2 e j) := by
  obtain ⟨-, -, e10, e11, -⟩ := idx_facts3 t
  show V c (Pipeline.arrRef spec3 1) (((cfg3.win 1).blk t).view.emb (ix2 r j)) = V c (Pipeline.arrRef spec3 1) (ix2 e j)
  refine congrArg _ (funext fun a => Fin.ext ?_)
  match a with
  | ⟨0, _⟩ => show win3_1.index t (0 : Fin 2) * 10240 + 1 * r.val = e.val; omega
  | ⟨1, _⟩ => show win3_1.index t (1 : Fin 2) * 64 + 1 * j.val = j.val; omega

/-- Row r of point t's block of window 2 is row 10240·t + r of its array. -/
theorem rows3_2 (c : Dev nD) (t : Fin cfg3.N) (r : Fin 10240) (k : Fin 16) (e : Fin 1607680) (he : e.val = t.val * 10240 + r.val) :
    iblk3 V c 2 t (ix2 r k) = V c (Pipeline.arrRef spec3 2) (ix2 e k) := by
  obtain ⟨-, -, -, -, e20, e21, -⟩ := idx_facts3 t
  show V c (Pipeline.arrRef spec3 2) (((cfg3.win 2).blk t).view.emb (ix2 r k)) = V c (Pipeline.arrRef spec3 2) (ix2 e k)
  refine congrArg _ (funext fun a => Fin.ext ?_)
  match a with
  | ⟨0, _⟩ => show win3_2.index t (0 : Fin 2) * 10240 + 1 * r.val = e.val; omega
  | ⟨1, _⟩ => show win3_2.index t (1 : Fin 2) * 16 + 1 * k.val = k.val; omega

/-- Window 3's block at every point is its whole array. -/
theorem whole3_3 (c : Dev nD) (t : Fin cfg3.N) : iblk3 V c 3 t = V c (Pipeline.arrRef spec3 3) := by
  obtain ⟨-, -, -, -, -, -, e30, e31, -⟩ := idx_facts3 t
  funext z
  show V c (Pipeline.arrRef spec3 3) (((cfg3.win 3).blk t).view.emb z) = V c (Pipeline.arrRef spec3 3) z
  refine congrArg _ (funext fun a => Fin.ext ?_)
  match a with
  | ⟨0, _⟩ => show win3_3.index t (0 : Fin 2) * 16 + 1 * (z 0).val = (z 0).val; omega
  | ⟨1, _⟩ => show win3_3.index t (1 : Fin 2) * 64 + 1 * (z 1).val = (z 1).val; omega

/-- Window 4's block at every point is its whole array. -/
theorem whole3_4 (c : Dev nD) (t : Fin cfg3.N) : iblk3 V c 4 t = V c (Pipeline.arrRef spec3 4) := by
  obtain ⟨-, -, -, -, -, -, -, -, e40, -⟩ := idx_facts3 t
  funext z
  show V c (Pipeline.arrRef spec3 4) (((cfg3.win 4).blk t).view.emb z) = V c (Pipeline.arrRef spec3 4) z
  refine congrArg _ (funext fun a => Fin.ext ?_)
  match a with
  | ⟨0, _⟩ => show win3_4.index t (0 : Fin 1) * 64 + 1 * (z 0).val = (z 0).val; omega

/-- Window 5's block at every point is its whole array. -/
theorem whole3_5 (c : Dev nD) (t : Fin cfg3.N) : iblk3 V c 5 t = V c (Pipeline.arrRef spec3 5) := by
  obtain ⟨-, -, -, -, -, -, -, -, -, e50, e51, -⟩ := idx_facts3 t
  funext z
  show V c (Pipeline.arrRef spec3 5) (((cfg3.win 5).blk t).view.emb z) = V c (Pipeline.arrRef spec3 5) z
  refine congrArg _ (funext fun a => Fin.ext ?_)
  match a with
  | ⟨0, _⟩ => show win3_5.index t (0 : Fin 2) * 64 + 1 * (z 0).val = (z 0).val; omega
  | ⟨1, _⟩ => show win3_5.index t (1 : Fin 2) * 1 + 1 * (z 1).val = (z 1).val; omega

/-- Window 6's block at every point is its whole array. -/
theorem whole3_6 (c : Dev nD) (t : Fin cfg3.N) : iblk3 V c 6 t = V c (Pipeline.arrRef spec3 6) := by
  obtain ⟨-, -, -, -, -, -, -, -, -, -, -, e60, -⟩ := idx_facts3 t
  funext z
  show V c (Pipeline.arrRef spec3 6) (((cfg3.win 6).blk t).view.emb z) = V c (Pipeline.arrRef spec3 6) z
  refine congrArg _ (funext fun a => Fin.ext ?_)
  match a with
  | ⟨0, _⟩ => show win3_6.index t (0 : Fin 1) * 1 + 1 * (z 0).val = (z 0).val; omega

/-! ## What a point writes back, the cover, the array -/

/-- The array the region ends leaving in its output window, as one function of the region-entry arrays. -/
abbrev G3 (c : Dev nD) : (⟨2, ![12560, 128]⟩ : Shape).Idx → EReal :=
  edgeOut (V c (Pipeline.arrRef spec3 0)) (V c (Pipeline.arrRef spec3 1)) (V c (Pipeline.arrRef spec3 2)) (V c (Pipeline.arrRef spec3 3))
          (V c (Pipeline.arrRef spec3 4)) (V c (Pipeline.arrRef spec3 5)) (V c (Pipeline.arrRef spec3 6))

/-- WHAT POINT t WRITES BACK is block t (rows 80·t … 80·t + 79) of the specification's array. -/
theorem flushed3_eq (c : Dev nD) (t : Fin cfg3.N) :
    (dat3 (F := Ideal) V c).flushed 7 t = ((cfg3.win 7).blk t).view.read (Elt Ideal) (G3 V c) := by
  show (cfg3.win 7).cut (grid3.coords t) ((dat3 V c).after 7 t) = _
  rw [after3_7]
  unfold out3_7
  rw [View.canon_unit_zero hz2]
  simp only [View.ld_unit_zero (S := S10240x64) hz2, View.ld_unit_zero (S := S10240x16) hz2, View.ld_unit_zero (S := S16x64) hz2,
    View.ld_unit_zero (S := S64) hz1, View.ld_unit_zero (S := S64x1) hz2, View.ld_unit_zero (S := S1) hz1]
  obtain ⟨-, -, -, -, -, -, -, -, -, -, -, -, e70, e71⟩ := idx_facts3 t
  have hT : t.val < 157 := by have h := t.isLt; have hN : cfg3.N = 157 := N_3; omega
  funext y
  show k3_pay1 (F := Ideal) (iblk3 V c 0 t) (iblk3 V c 1 t) (iblk3 V c 2 t) (iblk3 V c 3 t) (iblk3 V c 4 t) (iblk3 V c 5 t) (iblk3 V c 6 t)
      ((cfg3.win 7).xinj (grid3.coords t) y) = G3 V c (((cfg3.win 7).blk t).view.emb y)
  refine point3 _ _ _ _ _ _ _ _ _ _ _ _ _ _ t.val hT (rows3_0 V c t) (rows3_1 V c t) (rows3_2 V c t)
    (whole3_3 V c t) (whole3_4 V c t) (whole3_5 V c t) (whole3_6 V c t) _ _ ?_ ?_
  · show win3_7.index t (0 : Fin 2) * 80 + 1 * (y 0).val = t.val * 80 + (y 0).val; omega
  · show win3_7.index t (1 : Fin 2) * 128 + 1 * (y 1).val = (y 1).val; omega

/-- An index of the output array is in point t's block iff each coordinate is in the block's range on its axis. -/
theorem mem_blk3 (t : Fin cfg3.N) (i : S12560x128.Idx) :
    i ∈ ((cfg3.win 7).blk t).view.set ↔ ∀ a : Fin 2, win3_7.index t a * S80x128.size a ≤ (i a).val ∧ (i a).val < win3_7.index t a * S80x128.size a + S80x128.size a := by
  show i ∈ ((View.whole main_v57).slice (win3_7.rect t)).set ↔ _
  rw [View.set_slice_whole, Rect.mem_set_unit]
  exact Iff.rfl

/-- Every entry of the output array is in some point's block: row R is in block R / 80 (157 blocks of 80 rows are the
    12560 rows), and a block spans all 128 columns. -/
theorem cover3 (i : S12560x128.Idx) :
    ∃ t : Fin cfg3.N, (cfg3.win 7).flush t = true ∧ i ∈ ((cfg3.win 7).blk t).view.set := by
  have hi0 : (i 0).val < 12560 := (i 0).isLt
  have hi1 : (i 1).val < 128 := (i 1).isLt
  have hN : cfg3.N = 157 := N_3
  let t : Fin cfg3.N := ⟨(i 0).val / 80, by rw [hN]; omega⟩
  have htv : t.val = (i 0).val / 80 := rfl
  obtain ⟨-, -, -, -, -, -, -, -, -, -, -, -, e70, e71⟩ := idx_facts3 t
  refine ⟨t, flush3_7 t, ?_⟩
  rw [mem_blk3]
  intro a
  match a with
  | ⟨0, _⟩ => show win3_7.index t (0 : Fin 2) * 80 ≤ (i 0).val ∧ (i 0).val < win3_7.index t (0 : Fin 2) * 80 + 80; omega
  | ⟨1, _⟩ => show win3_7.index t (1 : Fin 2) * 128 ≤ (i 1).val ∧ (i 1).val < win3_7.index t (1 : Fin 2) * 128 + 128; omega

end Cert.Bridge.EdgeTile

namespace Cert.Bridge

open Cert.KernelIdeal Cert.KernelIdeal.Gen Idealize.ShloMosaic Idealize.ShloMosaic.ValueIdx Idealize.ShloMosaic.TcCoe
open Idealize.SL.Sem
open Idealize.ShloMosaic.Pipeline (Dat Cfg Window)
open Cert.Bridge.EdgeTile

/-- THE ARRAY after the region: at every entry (A, l) the score of edge 128·A + l, from the region-entry arrays. -/
theorem final3 (V : (c : Dev nD) → (b : Ref sig .tc) → Buf (Elt Ideal) ((c : Thread nD τ).loc b)) (c : Dev nD) :
    (dat3 (F := Ideal) V c).arrAt 7 cfg3.N
      = edgeOut (V c (Pipeline.arrRef spec3 0)) (V c (Pipeline.arrRef spec3 1)) (V c (Pipeline.arrRef spec3 2)) (V c (Pipeline.arrRef spec3 3))
          (V c (Pipeline.arrRef spec3 4)) (V c (Pipeline.arrRef spec3 5)) (V c (Pipeline.arrRef spec3 6)) :=
  (dat3 (F := Ideal) V c).arrAt_eq_of_cover 7 (G3 V c) (fun t _ => flushed3_eq V c t) cover3

end Cert.Bridge
end
-- ==== Proof.KernelValue.lean ====
/-
  What the kernel program's result buffer holds at the end, as one function of the argument arrays: the program's
  stretches of host operations and its four kernel regions composed — the first layer's features from the neighbour
  sums of the inputs, the second layer's from the neighbour sums of the first's, the two node-level products of the
  second layer's features with the first two blocks of the stacked edge weights, their rows taken at every edge's
  end points and padded, the edge scores tile by tile, flattened and cut back to the edge count. A buffer that a
  stretch or a region does not write keeps its contents across it.
-/
import proofs.«124681_j52029233824512_2_alg».proof.Proof.Gen.KernelIdeal.Frame
import proofs.«124681_j52029233824512_2_alg».proof.Proof.KernelSpec
import proofs.«124681_j52029233824512_2_alg».proof.Proof.Region0
import proofs.«124681_j52029233824512_2_alg».proof.Proof.Region1
import proofs.«124681_j52029233824512_2_alg».proof.Proof.Region2
import proofs.«124681_j52029233824512_2_alg».proof.Proof.Region3

set_option maxRecDepth 16384

noncomputable section

namespace Cert.Bridge

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Buffers kept across stretches and regions -/

theorem kp_main_arg0_1_0 : W1 m ρ c (Proc.devRef .tc main_arg0) = W0 m ρ c (Proc.devRef .tc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem kp_main_arg2_1_0 : W1 m ρ c (Proc.devRef .tc main_arg2) = W0 m ρ c (Proc.devRef .tc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem kp_main_arg3_1_0 : W1 m ρ c (Proc.devRef .tc main_arg3) = W0 m ρ c (Proc.devRef .tc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem kp_main_arg4_1_0 : W1 m ρ c (Proc.devRef .tc main_arg4) = W0 m ρ c (Proc.devRef .tc main_arg4) :=
  calc W1 m ρ c (Proc.devRef .tc main_arg4)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem kp_main_arg12_1_0 : W1 m ρ c (Proc.devRef .tc main_arg12) = W0 m ρ c (Proc.devRef .tc main_arg12) :=
  calc W1 m ρ c (Proc.devRef .tc main_arg12)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem kp_main_v1_2_1 : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

theorem kp_main_v3_2_1 : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem kp_main_v1_6_2 : W6 m ρ c (Proc.devRef .tc main_v1) = W2 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := StableHlo.after_of_forall_not_mem (b := Proc.devRef .tc main_v1) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem kp_main_v3_6_2 : W6 m ρ c (Proc.devRef .tc main_v3) = W2 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem kp_main_v12_3_1 : W3 m ρ c (Proc.devRef .tc main_v12) = W1 m ρ c (Proc.devRef .tc main_v12) :=
  calc W3 m ρ c (Proc.devRef .tc main_v12)
    _ = W2 m ρ c (Proc.devRef .tc main_v12) := StableHlo.after_of_forall_not_mem (b := Proc.devRef .tc main_v12) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v12) := (W2_arr m ρ c 1).trans (((dat0 (V1 m ρ) c).arrAt_in 1 rfl _).trans (A_eq0 (V1 m ρ) c 1))

theorem kp_main_v23_3_2 : W3 m ρ c (Proc.devRef .tc main_v23) = W2 m ρ c (Proc.devRef .tc main_v23) :=
  calc W3 m ρ c (Proc.devRef .tc main_v23)
    _ = W2 m ρ c (Proc.devRef .tc main_v23) := StableHlo.after_of_forall_not_mem (b := Proc.devRef .tc main_v23) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem kp_main_arg5_3_0 : W3 m ρ c (Proc.devRef .tc main_arg5) = W0 m ρ c (Proc.devRef .tc main_arg5) :=
  calc W3 m ρ c (Proc.devRef .tc main_arg5)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem kp_main_arg6_3_0 : W3 m ρ c (Proc.devRef .tc main_arg6) = W0 m ρ c (Proc.devRef .tc main_arg6) :=
  calc W3 m ρ c (Proc.devRef .tc main_arg6)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem kp_main_arg7_3_0 : W3 m ρ c (Proc.devRef .tc main_arg7) = W0 m ρ c (Proc.devRef .tc main_arg7) :=
  calc W3 m ρ c (Proc.devRef .tc main_arg7)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem kp_main_arg8_4_0 : W4 m ρ c (Proc.devRef .tc main_arg8) = W0 m ρ c (Proc.devRef .tc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem kp_main_v34_5_4 : W5 m ρ c (Proc.devRef .tc main_v34) = W4 m ρ c (Proc.devRef .tc main_v34) :=
  calc W5 m ρ c (Proc.devRef .tc main_v34)
    _ = W4 m ρ c (Proc.devRef .tc main_v34) := StableHlo.after_of_forall_not_mem (b := Proc.devRef .tc main_v34) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem kp_main_arg1_6_0 : W6 m ρ c (Proc.devRef .tc main_arg1) = W0 m ρ c (Proc.devRef .tc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem kp_main_v37_12_5 : W12 m ρ c (Proc.devRef .tc main_v37) = W5 m ρ c (Proc.devRef .tc main_v37) :=
  calc W12 m ρ c (Proc.devRef .tc main_v37)
    _ = W11 m ρ c (Proc.devRef .tc main_v37) := StableHlo.after_of_forall_not_mem (b := Proc.devRef .tc main_v37) _ _ (List.forall_iff_forall_mem.mp (by
          simp only [hostOps3_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v37) := StableHlo.after_of_forall_not_mem (b := Proc.devRef .tc main_v37) _ _ (List.forall_iff_forall_mem.mp (by
          simp only [hostOps3_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v37) := StableHlo.after_of_forall_not_mem (b := Proc.devRef .tc main_v37) _ _ (List.forall_iff_forall_mem.mp (by
          simp only [hostOps3_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v37) := StableHlo.after_of_forall_not_mem (b := Proc.devRef .tc main_v37) _ _ (List.forall_iff_forall_mem.mp (by
          simp only [hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v37) := StableHlo.after_of_forall_not_mem (b := Proc.devRef .tc main_v37) _ _ (List.forall_iff_forall_mem.mp (by
          simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v37) := StableHlo.after_of_forall_not_mem (b := Proc.devRef .tc main_v37) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v37) := W6_of_ne m ρ c main_v37 (by decide)

theorem kp_main_arg9_12_0 : W12 m ρ c (Proc.devRef .tc main_arg9) = W0 m ρ c (Proc.devRef .tc main_arg9) :=
  calc W12 m ρ c (Proc.devRef .tc main_arg9)
    _ = W11 m ρ c (Proc.devRef .tc main_arg9) := StableHlo.after_of_forall_not_mem (b := Proc.devRef .tc main_arg9) _ _ (List.forall_iff_forall_mem.mp (by
          simp only [hostOps3_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg9) := StableHlo.after_of_forall_not_mem (b := Proc.devRef .tc main_arg9) _ _ (List.forall_iff_forall_mem.mp (by
          simp only [hostOps3_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg9) := StableHlo.after_of_forall_not_mem (b := Proc.devRef .tc main_arg9) _ _ (List.forall_iff_forall_mem.mp (by
          simp only [hostOps3_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg9) := StableHlo.after_of_forall_not_mem (b := Proc.devRef .tc main_arg9) _ _ (List.forall_iff_forall_mem.mp (by
          simp only [hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg9) := StableHlo.after_of_forall_not_mem (b := Proc.devRef .tc main_arg9) _ _ (List.forall_iff_forall_mem.mp (by
          simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem kp_main_arg10_12_0 : W12 m ρ c (Proc.devRef .tc main_arg10) = W0 m ρ c (Proc.devRef .tc main_arg10) :=
  calc W12 m ρ c (Proc.devRef .tc main_arg10)
    _ = W11 m ρ c (Proc.devRef .tc main_arg10) := StableHlo.after_of_forall_not_mem (b := Proc.devRef .tc main_arg10) _ _ (List.forall_iff_forall_mem.mp (by
          simp only [hostOps3_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg10) := StableHlo.after_of_forall_not_mem (b := Proc.devRef .tc main_arg10) _ _ (List.forall_iff_forall_mem.mp (by
          simp only [hostOps3_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg10) := StableHlo.after_of_forall_not_mem (b := Proc.devRef .tc main_arg10) _ _ (List.forall_iff_forall_mem.mp (by
          simp only [hostOps3_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg10) := StableHlo.after_of_forall_not_mem (b := Proc.devRef .tc main_arg10) _ _ (List.forall_iff_forall_mem.mp (by
          simp only [hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg10) := StableHlo.after_of_forall_not_mem (b := Proc.devRef .tc main_arg10) _ _ (List.forall_iff_forall_mem.mp (by
          simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem kp_main_arg11_12_0 : W12 m ρ c (Proc.devRef .tc main_arg11) = W0 m ρ c (Proc.devRef .tc main_arg11) :=
  calc W12 m ρ c (Proc.devRef .tc main_arg11)
    _ = W11 m ρ c (Proc.devRef .tc main_arg11) := StableHlo.after_of_forall_not_mem (b := Proc.devRef .tc main_arg11) _ _ (List.forall_iff_forall_mem.mp (by
          simp only [hostOps3_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg11) := StableHlo.after_of_forall_not_mem (b := Proc.devRef .tc main_arg11) _ _ (List.forall_iff_forall_mem.mp (by
          simp only [hostOps3_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg11) := StableHlo.after_of_forall_not_mem (b := Proc.devRef .tc main_arg11) _ _ (List.forall_iff_forall_mem.mp (by
          simp only [hostOps3_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg11) := StableHlo.after_of_forall_not_mem (b := Proc.devRef .tc main_arg11) _ _ (List.forall_iff_forall_mem.mp (by
          simp only [hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg11) := StableHlo.after_of_forall_not_mem (b := Proc.devRef .tc main_arg11) _ _ (List.forall_iff_forall_mem.mp (by
          simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The launch contents of a buffer are the launch memory's. -/
theorem w0 (b : Ref sig .tc) : W0 m ρ c (Proc.devRef .tc b) = m ((c : Thread nD τ).loc b) := rfl

/-! ## The buffers at each boundary -/

theorem st_v1 : W1 m ρ c (Proc.devRef .tc main_v1) = srcV (m ((c : Thread nD τ).loc main_arg12)) := e0_v1 (W0 m ρ c)
theorem st_v3 : W1 m ρ c (Proc.devRef .tc main_v3) = dstV (m ((c : Thread nD τ).loc main_arg12)) := e0_v3 (W0 m ρ c)
theorem st_v12 : W1 m ρ c (Proc.devRef .tc main_v12) = invT (m ((c : Thread nD τ).loc main_arg12)) := e0_v12 (W0 m ρ c)
theorem st_v22 : W1 m ρ c (Proc.devRef .tc main_v22)
    = agg128 (m ((c : Thread nD τ).loc main_arg0)) (srcV (m ((c : Thread nD τ).loc main_arg12))) (dstV (m ((c : Thread nD τ).loc main_arg12))) :=
  e0_v22 (W0 m ρ c)

/-- After the first region its output array holds the first layer's features. -/
theorem st_v23 : W2 m ρ c (Proc.devRef .tc main_v23)
    = kH1 (m ((c : Thread nD τ).loc main_arg0)) (m ((c : Thread nD τ).loc main_arg2)) (m ((c : Thread nD τ).loc main_arg3))
        (m ((c : Thread nD τ).loc main_arg4)) (m ((c : Thread nD τ).loc main_arg12)) := by
  refine ((W2_arr m ρ c 6).trans (final0 (V1 m ρ) c)).trans ?_
  show layerMul (N := 50000) (K := 128) (M := 64) (W1 m ρ c (Proc.devRef .tc main_v22)) (W1 m ρ c (Proc.devRef .tc main_arg0))
    (W1 m ρ c (Proc.devRef .tc main_v12)) (W1 m ρ c (Proc.devRef .tc main_arg2)) (W1 m ρ c (Proc.devRef .tc main_arg4))
    (W1 m ρ c (Proc.devRef .tc main_arg3)) = _
  rw [st_v22, st_v12, kp_main_arg0_1_0, kp_main_arg2_1_0, kp_main_arg4_1_0, kp_main_arg3_1_0]
  rfl

/-- Entering the second region its first window's array holds the neighbour sums of the first layer's features. -/
theorem st_v33 : W3 m ρ c (Proc.devRef .tc main_v33)
    = agg64 (kH1 (m ((c : Thread nD τ).loc main_arg0)) (m ((c : Thread nD τ).loc main_arg2)) (m ((c : Thread nD τ).loc main_arg3))
        (m ((c : Thread nD τ).loc main_arg4)) (m ((c : Thread nD τ).loc main_arg12)))
      (srcV (m ((c : Thread nD τ).loc main_arg12))) (dstV (m ((c : Thread nD τ).loc main_arg12))) := by
  refine (e1_v33 (W2 m ρ c)).trans ?_
  rw [st_v23, kp_main_v1_2_1, kp_main_v3_2_1, st_v1, st_v3]

/-- After the second region its output array holds the second layer's features. -/
theorem st_v34 : W4 m ρ c (Proc.devRef .tc main_v34)
    = kH2 (kH1 (m ((c : Thread nD τ).loc main_arg0)) (m ((c : Thread nD τ).loc main_arg2)) (m ((c : Thread nD τ).loc main_arg3))
        (m ((c : Thread nD τ).loc main_arg4)) (m ((c : Thread nD τ).loc main_arg12)))
      (m ((c : Thread nD τ).loc main_arg5)) (m ((c : Thread nD τ).loc main_arg6)) (m ((c : Thread nD τ).loc main_arg7))
      (m ((c : Thread nD τ).loc main_arg12)) := by
  refine ((W4_arr m ρ c 6).trans (final1 (V3 m ρ) c)).trans ?_
  show layerMul (N := 50000) (K := 64) (M := 64) (W3 m ρ c (Proc.devRef .tc main_v33)) (W3 m ρ c (Proc.devRef .tc main_v23))
    (W3 m ρ c (Proc.devRef .tc main_v12)) (W3 m ρ c (Proc.devRef .tc main_arg5)) (W3 m ρ c (Proc.devRef .tc main_arg7))
    (W3 m ρ c (Proc.devRef .tc main_arg6)) = _
  rw [st_v33, kp_main_v23_3_2, st_v23, kp_main_v12_3_1, st_v12, kp_main_arg5_3_0, kp_main_arg7_3_0, kp_main_arg6_3_0]
  rfl

/-- The stacked edge weights as the third region finds them. -/
theorem st_arg8 : W4 m ρ c (Proc.devRef .tc main_arg8) = m ((c : Thread nD τ).loc main_arg8) :=
  (kp_main_arg8_4_0 m ρ c).trans (w0 m ρ c main_arg8)

/-- After the third region its two output arrays hold the node-level products. -/
theorem st_v38_0 (h2 : (⟨S50000x64, .f32⟩ : BufTy).Contents (Elt Ideal)) (hh : W4 m ρ c (Proc.devRef .tc main_v34) = h2) :
    W6 m ρ c (Proc.devRef .tc main_v38_0)
      = proj (N := 50000) (K := 64) (M := 64) h2
          (extractStridedSlice S64x64 ![0, 0] (m ((c : Thread nD τ).loc main_arg8)) slices_S144x64_S64x64_0_0) := by
  refine ((W6_arr m ρ c 3).trans (final2_3 (V5 m ρ) c)).trans ?_
  show proj (N := 50000) (K := 64) (M := 64) (W5 m ρ c (Proc.devRef .tc main_v34)) (W5 m ρ c (Proc.devRef .tc main_v35)) = _
  rw [kp_main_v34_5_4, hh, show W5 m ρ c (Proc.devRef .tc main_v35) = _ from e2_v35 (W4 m ρ c), st_arg8]

theorem st_v38_1 (h2 : (⟨S50000x64, .f32⟩ : BufTy).Contents (Elt Ideal)) (hh : W4 m ρ c (Proc.devRef .tc main_v34) = h2) :
    W6 m ρ c (Proc.devRef .tc main_v38_1)
      = proj (N := 50000) (K := 64) (M := 64) h2
          (extractStridedSlice S64x64 ![64, 0] (m ((c : Thread nD τ).loc main_arg8)) slices_S144x64_S64x64_64_0) := by
  refine ((W6_arr m ρ c 4).trans (final2_4 (V5 m ρ) c)).trans ?_
  show proj (N := 50000) (K := 64) (M := 64) (W5 m ρ c (Proc.devRef .tc main_v34)) (W5 m ρ c (Proc.devRef .tc main_v36)) = _
  rw [kp_main_v34_5_4, hh, show W5 m ρ c (Proc.devRef .tc main_v36) = _ from e2_v36 (W4 m ρ c), st_arg8]

/-- The third block of the stacked edge weights as the fourth region finds it. -/
theorem st_v37 : W12 m ρ c (Proc.devRef .tc main_v37)
    = extractStridedSlice S16x64 ![128, 0] (m ((c : Thread nD τ).loc main_arg8)) slices_S144x64_S16x64_128_0 := by
  rw [kp_main_v37_12_5, show W5 m ρ c (Proc.devRef .tc main_v37) = _ from e2_v37 (W4 m ρ c), st_arg8]

/-- THE RESULT BUFFER at the end of the program. -/
theorem kernel_value : W14 m ρ c (Proc.devRef .tc main_v59)
    = kOut (kH2 (kH1 (m ((c : Thread nD τ).loc main_arg0)) (m ((c : Thread nD τ).loc main_arg2)) (m ((c : Thread nD τ).loc main_arg3))
          (m ((c : Thread nD τ).loc main_arg4)) (m ((c : Thread nD τ).loc main_arg12)))
        (m ((c : Thread nD τ).loc main_arg5)) (m ((c : Thread nD τ).loc main_arg6)) (m ((c : Thread nD τ).loc main_arg7))
        (m ((c : Thread nD τ).loc main_arg12)))
      (m ((c : Thread nD τ).loc main_arg1)) (m ((c : Thread nD τ).loc main_arg8)) (m ((c : Thread nD τ).loc main_arg9))
      (m ((c : Thread nD τ).loc main_arg10)) (m ((c : Thread nD τ).loc main_arg11)) (m ((c : Thread nD τ).loc main_arg12)) := by
  refine (e4_v59 (W13 m ρ c)).trans ?_
  unfold kOut
  refine congrArg (fun o => extractStridedSlice S1600000 ![0] (shapeCast _ o shapeCasts_S12560x128_S1607680) slices_S1607680_S1600000_0) ?_
  refine ((W13_arr m ρ c 7).trans (final3 (V12 m ρ) c)).trans ?_
  show edgeOut (W12 m ρ c (Proc.devRef .tc main_v54)) (W12 m ρ c (Proc.devRef .tc main_v55)) (W12 m ρ c (Proc.devRef .tc main_v56))
    (W12 m ρ c (Proc.devRef .tc main_v37)) (W12 m ρ c (Proc.devRef .tc main_arg9)) (W12 m ρ c (Proc.devRef .tc main_arg10))
    (W12 m ρ c (Proc.devRef .tc main_arg11)) = _
  rw [show W12 m ρ c (Proc.devRef .tc main_v54) = _ from e3_v54 (W6 m ρ c),
    show W12 m ρ c (Proc.devRef .tc main_v55) = _ from e3_v55 (W6 m ρ c),
    show W12 m ρ c (Proc.devRef .tc main_v56) = _ from e3_v56 (W6 m ρ c),
    st_v37, kp_main_arg9_12_0, kp_main_arg10_12_0, kp_main_arg11_12_0,
    st_v38_0 m ρ c _ (st_v34 m ρ c), st_v38_1 m ρ c _ (st_v34 m ρ c),
    kp_main_v1_6_2, kp_main_v1_2_1, st_v1, kp_main_v3_6_2, kp_main_v3_2_1, st_v3, kp_main_arg1_6_0]
  rfl

end Cert.Bridge

end
-- ==== Proof.KernelRead.lean ====
/-
  Layout operations of the kernel program's host side, read at an entry: rows appended below an array by padding
  leave the entries of the original rows where they were; a [12560, 128] tile array flattened and cut to its first
  1600000 entries reads, at e, the tile entry (e / 128, e % 128); a block of rows cut out of a stacked weight matrix
  reads the stacked matrix at the block's offset; a vector seen as a column reads the vector; a scalar spread over a
  shape reads the scalar.
-/
import Idealize.ShloMosaic.PureOps.Ideal
import Idealize.ShloMosaic.Lib.ValueIdx
import Idealize.ShloMosaic.Lib.Pipeline.Value

noncomputable section

namespace Cert.Bridge

open Idealize.ShloMosaic Idealize.ShloMosaic.ValueIdx

variable {α : Type}

/-- Padding rows below an [R, C] array: an entry of one of the first R rows is the original entry. -/
theorem pad_rows_apply {R R' C P : Nat} (x : (⟨2, ![R, C]⟩ : Shape).Idx → α) {u : Shape} (v : u.Idx → α)
    (h : (⟨2, ![R, C]⟩ : Shape).Pads ![0, 0] ![P, 0] ![0, 0] ⟨2, ![R', C]⟩) (hu : 0 < u.numel)
    (e : Fin R) (e' : Fin R') (he : e'.val = e.val) (j : Fin C) :
    pad (⟨2, ![R', C]⟩ : Shape) ![0, 0] ![P, 0] ![0, 0] x v h hu (ix2 e' j) = x (ix2 e j) := by
  unfold pad
  have hin : ∀ a : Fin (⟨2, ![R, C]⟩ : Shape).rank, (![0, 0] : Fin 2 → Nat) a ≤ ((ix2 e' j) (a.cast h.1)).val
      ∧ (((ix2 e' j) (a.cast h.1)).val - (![0, 0] : Fin 2 → Nat) a) % ((![0, 0] : Fin 2 → Nat) a + 1) = 0
      ∧ (((ix2 e' j) (a.cast h.1)).val - (![0, 0] : Fin 2 → Nat) a) / ((![0, 0] : Fin 2 → Nat) a + 1) < (⟨2, ![R, C]⟩ : Shape).size a := by
    intro a
    match a with
    | ⟨0, _⟩ =>
      refine ⟨Nat.zero_le _, ?_, ?_⟩
      · show (e'.val - 0) % (0 + 1) = 0; omega
      · show (e'.val - 0) / (0 + 1) < R; have := e.isLt; omega
    | ⟨1, _⟩ =>
      refine ⟨Nat.zero_le _, ?_, ?_⟩
      · show (j.val - 0) % (0 + 1) = 0; omega
      · show (j.val - 0) / (0 + 1) < C; have := j.isLt; omega
  rw [dif_pos hin]
  refine congrArg x (funext fun a => Fin.ext ?_)
  match a with
  | ⟨0, _⟩ => show (e'.val - 0) / (0 + 1) = e.val; omega
  | ⟨1, _⟩ => show (j.val - 0) / (0 + 1) = j.val; omega

/-- A [A, 128] tile array flattened and cut to its first E entries reads, at e, the tile entry (e / 128, e % 128). -/
theorem flat_cut_apply {A E : Nat} (o : (⟨2, ![A, 128]⟩ : Shape).Idx → α)
    (h1 : (⟨2, ![A, 128]⟩ : Shape).ShapeCasts ⟨1, ![A * 128]⟩) (h2 : (⟨1, ![A * 128]⟩ : Shape).Slices ![0] ⟨1, ![E]⟩)
    (e : Fin E) (hE : E ≤ A * 128) :
    extractStridedSlice (⟨1, ![E]⟩ : Shape) ![0] (shapeCast (⟨1, ![A * 128]⟩ : Shape) o h1) h2 (ix1 e)
      = o (ix2 (⟨e.val / 128, by have := e.isLt; omega⟩ : Fin A) (⟨e.val % 128, Nat.mod_lt _ (by norm_num)⟩ : Fin 128)) := by
  have he : e.val < A * 128 := lt_of_lt_of_le e.isLt hE
  refine (extractStridedSlice_apply ![0] _ h2 (ix1 e) (ix1 (⟨e.val, he⟩ : Fin (A * 128))) (fun a => ?_)).trans ?_
  · match a with
    | ⟨0, _⟩ => show e.val = 0 + e.val; omega
  · refine shapeCast_apply o h1 _ _ ?_
    rw [Shape.rowMajor_val_two, Shape.rowMajor_val_one]
    show e.val / 128 * 128 + e.val % 128 = e.val
    omega

/-- A block of B rows cut out of an [S, C] matrix at row offset f reads the matrix at row f + k. -/
theorem rows_cut_apply {S B C : Nat} (f : Nat) (x : (⟨2, ![S, C]⟩ : Shape).Idx → α)
    (h : (⟨2, ![S, C]⟩ : Shape).Slices ![f, 0] ⟨2, ![B, C]⟩) (k : Fin B) (j : Fin C) (k' : Fin S) (hk : k'.val = f + k.val) :
    extractStridedSlice (⟨2, ![B, C]⟩ : Shape) ![f, 0] x h (ix2 k j) = x (ix2 k' j) := by
  refine extractStridedSlice_apply ![f, 0] x h (ix2 k j) (ix2 k' j) (fun a => ?_)
  match a with
  | ⟨0, _⟩ => exact hk
  | ⟨1, _⟩ => show j.val = 0 + j.val; omega

/-- A scalar spread over a shape reads, everywhere, the scalar. -/
theorem splat_apply {s : Shape} (h : (⟨0, ![]⟩ : Shape).BroadcastsInDim s ![]) (x : (⟨0, ![]⟩ : Shape).Idx → α) (i : s.Idx) :
    broadcastInDim s ![] h x i = x (fun a => a.elim0) :=
  broadcastInDim_apply ![] h x i (fun a => a.elim0) (fun a => a.elim0)

end Cert.Bridge

end
-- ==== Proof.RefLayers.lean ====
/-
  The reference program's two graph-convolution layers, each read whole as the specification's layer.

  In the reference one layer is: the summed messages divided, entry by entry, by the clamped in-degree (a vector laid
  as a column, the column laid along every row); that mean through the first weight matrix; plus the bias (a vector laid
  as one row, the row laid along every row); plus the node's own features through the second weight matrix; then the
  maximum with a scalar zero laid over the whole matrix. Read at node n and feature j this is
  max((Σ_k (agg[n,k] / d[n]) · Wl[k,j] + b[j]) + Σ_k x[n,k] · Wr[k,j], 0), which is `layerDiv` at (n, j) term for term:
  a laid-out vector or column reads the entry its coordinate names, a plain matrix product read at an entry is the sum
  over the contracted coordinate, and the pointwise operations read entry by entry. No algebraic law is used.

  The first layer has 128 input features and takes the raw node features; the second has 64 and takes the first layer's
  result. The summed messages and the clamped in-degrees (full-size gathers and scatters) are carried as they stand and
  never opened.
-/
import proofs.«124681_j52029233824512_2_alg».proof.Proof.Gen.ReferenceIdeal.Read
import proofs.«124681_j52029233824512_2_alg».proof.Proof.Spec
import proofs.«124681_j52029233824512_2_alg».proof.Proof.LibSageLayer

noncomputable section

open scoped BigOperators

namespace Cert.Bridge.HostLayer

open Idealize.ShloMosaic Idealize.ShloMosaic.ValueIdx Idealize.ShloMosaic.StackMember Cert.Bridge

/-- A vector laid as a column (axis 0 of an [N, 1] matrix), read at (n, 0), is the vector at n. -/
theorem broadcastInDim_vecCol_apply {α : Type} {N : Nat} (hc1 : (⟨1, ![N]⟩ : Shape).BroadcastsInDim ⟨2, ![N, 1]⟩ ![0])
    (d : (⟨1, ![N]⟩ : Shape).Idx → α) (n : Fin N) :
    broadcastInDim ⟨2, ![N, 1]⟩ ![0] hc1 d (ix2 n (0 : Fin 1)) = d (ix1 n) := by
  refine broadcastInDim_apply ![0] hc1 d (ix2 n (0 : Fin 1)) (ix1 n) ?_
  intro a
  match a with
  | ⟨0, _⟩ =>
    show n.val = if N = 1 then 0 else n.val
    split
    · have := n.isLt; omega
    · rfl

/-- A column laid along every row of an [N, K] matrix, read at (n, k), is the column at (n, 0). -/
theorem broadcastInDim_oneCol_apply {α : Type} {N K : Nat} (hc2 : (⟨2, ![N, 1]⟩ : Shape).BroadcastsInDim ⟨2, ![N, K]⟩ ![0, 1])
    (y : (⟨2, ![N, 1]⟩ : Shape).Idx → α) (n : Fin N) (k : Fin K) :
    broadcastInDim ⟨2, ![N, K]⟩ ![0, 1] hc2 y (ix2 n k) = y (ix2 n (0 : Fin 1)) := by
  refine broadcastInDim_apply ![0, 1] hc2 y (ix2 n k) (ix2 n (0 : Fin 1)) ?_
  intro a
  match a with
  | ⟨0, _⟩ =>
    show n.val = if N = 1 then 0 else n.val
    split
    · have := n.isLt; omega
    · rfl
  | ⟨1, _⟩ =>
    show (0 : ℕ) = if (1 : ℕ) = 1 then 0 else k.val
    rw [if_pos rfl]

/-- The summed messages divided by the divisor laid along every row, read at (n, k): the entry divided by the node's
    divisor. -/
theorem colDiv_apply {N K : Nat} (A : FVec Ideal ⟨2, ![N, K]⟩ .f32) (d : FVec Ideal ⟨1, ![N]⟩ .f32)
    (hc1 : (⟨1, ![N]⟩ : Shape).BroadcastsInDim ⟨2, ![N, 1]⟩ ![0])
    (hc2 : (⟨2, ![N, 1]⟩ : Shape).BroadcastsInDim ⟨2, ![N, K]⟩ ![0, 1]) (n : Fin N) (k : Fin K) :
    Host.divf A (broadcastInDim ⟨2, ![N, K]⟩ ![0, 1] hc2 (broadcastInDim ⟨2, ![N, 1]⟩ ![0] hc1 d)) (ix2 n k)
      = Ideal.div (A (ix2 n k)) (d (ix1 n)) := by
  show FloatOps.hostDivf (A (ix2 n k)) _ = _
  rw [Ideal.hostDivf_def, broadcastInDim_oneCol_apply, broadcastInDim_vecCol_apply]

/-- One layer of the host program read whole: the summed messages divided by the divisor (a vector laid as a column,
    the column laid along every row), through the first weights, plus the bias (a vector laid as one row, the row laid
    along every row), plus the node's own features through the second weights, then the maximum with a scalar zero laid
    over the whole matrix. The dimension numbers are any record equal to the plain ones. -/
theorem host_layerDiv {N K M : Nat} (D : DotDims ⟨2, ![N, K]⟩ ⟨2, ![K, M]⟩ ⟨2, ![N, M]⟩) (hD : D = DotDims.plain N K M)
    (A X : FVec Ideal ⟨2, ![N, K]⟩ .f32) (d : FVec Ideal ⟨1, ![N]⟩ .f32)
    (Wl Wr : FVec Ideal ⟨2, ![K, M]⟩ .f32) (b : FVec Ideal ⟨1, ![M]⟩ .f32)
    (hc1 : (⟨1, ![N]⟩ : Shape).BroadcastsInDim ⟨2, ![N, 1]⟩ ![0])
    (hc2 : (⟨2, ![N, 1]⟩ : Shape).BroadcastsInDim ⟨2, ![N, K]⟩ ![0, 1])
    (h1 : (⟨1, ![M]⟩ : Shape).BroadcastsInDim ⟨2, ![1, M]⟩ ![1])
    (h2 : (⟨2, ![1, M]⟩ : Shape).BroadcastsInDim ⟨2, ![N, M]⟩ ![0, 1])
    (h0 : (⟨0, ![]⟩ : Shape).BroadcastsInDim ⟨2, ![N, M]⟩ ![]) :
    maximumf (addf (addf (Host.dotGeneral D none
                            (Host.divf A (broadcastInDim ⟨2, ![N, K]⟩ ![0, 1] hc2 (broadcastInDim ⟨2, ![N, 1]⟩ ![0] hc1 d))) Wl)
                         (broadcastInDim ⟨2, ![N, M]⟩ ![0, 1] h2 (broadcastInDim ⟨2, ![1, M]⟩ ![1] h1 b)))
                   (Host.dotGeneral D none X Wr))
             (broadcastInDim ⟨2, ![N, M]⟩ ![] h0 (constant (F := Ideal) ⟨0, ![]⟩ .f32 0x00000000#32))
      = layerDiv A X d Wl Wr b := by
  subst hD
  funext i
  obtain ⟨n, j, rfl⟩ : ∃ (n : Fin N) (j : Fin M), i = ix2 n j := ⟨i 0, i 1, eq_ix2 i⟩
  rw [Cert.Sage.relu_host_apply, addf_apply, addf_apply, broadcastInDim_oneRow_apply, Cert.Sage.broadcastInDim_vecRow_apply,
    dotGeneral_plain_apply, dotGeneral_plain_apply]
  show _ = layer (fun k => Ideal.div (A (ix2 n k)) (d (ix1 n))) (fun k => X (ix2 n k)) Wl Wr b j
  unfold layer
  refine congrArg (fun t => max ((t + b (ix1 j)) + ∑ k : Fin K, X (ix2 n k) * Wr (ix2 k j)) 0) ?_
  refine Finset.sum_congr rfl fun k _ => ?_
  refine congrArg (· * Wl (ix2 k j)) ?_
  exact colDiv_apply A d hc1 hc2 n k

end Cert.Bridge.HostLayer

namespace Cert.Bridge

open Cert.ReferenceIdeal Cert.ReferenceIdeal.Read Idealize.ShloMosaic Idealize.ShloMosaic.ValueIdx

/-- The reference's first layer (128 input features, on the raw node features) is the specification's layer of the
    summed messages, the node features and the clamped in-degrees. -/
theorem ref_h1 (x0 : (⟨S50000x128, .f32⟩ : BufTy).Contents (Elt Ideal)) (x2 : (⟨S128x64, .f32⟩ : BufTy).Contents (Elt Ideal))
    (x3 : (⟨S64, .f32⟩ : BufTy).Contents (Elt Ideal)) (x4 : (⟨S128x64, .f32⟩ : BufTy).Contents (Elt Ideal))
    (x12 : (⟨S2x1600000, .i32⟩ : BufTy).Contents (Elt Ideal)) :
    val_main_v29 (F := Ideal) x0 x2 x3 x4 x12
      = layerDiv (N := 50000) (K := 128) (M := 64) (val_main_v13 (F := Ideal) x0 x12) x0 (val_main_v19 (F := Ideal) x12) x2 x4 x3 := by
  unfold val_main_v29 val_main_v28 val_main_v27 val_main_v26 val_main_v25 val_main_v24 val_main_v23 val_main_v22
    val_main_v21 val_main_v20 val_main_call0_v0 val_main_call0_cst
  generalize val_main_v13 (F := Ideal) x0 x12 = A
  generalize val_main_v19 (F := Ideal) x12 = d
  exact HostLayer.host_layerDiv dot_S50000x128_S128x64_S50000x64_1_0_0_1_n_n rfl A x0 d x2 x4 x3
    _ _ _ _ _

/-- The reference's second layer (64 input features, on the first layer's result) is the specification's layer of the
    summed messages, the first layer's result and the clamped in-degrees. -/
theorem ref_h2 (x0 : (⟨S50000x128, .f32⟩ : BufTy).Contents (Elt Ideal)) (x2 : (⟨S128x64, .f32⟩ : BufTy).Contents (Elt Ideal))
    (x3 : (⟨S64, .f32⟩ : BufTy).Contents (Elt Ideal)) (x4 : (⟨S128x64, .f32⟩ : BufTy).Contents (Elt Ideal))
    (x5 : (⟨S64x64, .f32⟩ : BufTy).Contents (Elt Ideal)) (x6 : (⟨S64, .f32⟩ : BufTy).Contents (Elt Ideal))
    (x7 : (⟨S64x64, .f32⟩ : BufTy).Contents (Elt Ideal)) (x12 : (⟨S2x1600000, .i32⟩ : BufTy).Contents (Elt Ideal)) :
    val_main_v55 (F := Ideal) x0 x2 x3 x4 x5 x6 x7 x12
      = layerDiv (N := 50000) (K := 64) (M := 64) (val_main_v39 (F := Ideal) x0 x2 x3 x4 x12)
          (val_main_v29 (F := Ideal) x0 x2 x3 x4 x12) (val_main_v45 (F := Ideal) x12) x5 x7 x6 := by
  unfold val_main_v55 val_main_v54 val_main_v53 val_main_v52 val_main_v51 val_main_v50 val_main_v49 val_main_v48
    val_main_v47 val_main_v46 val_main_call1_v0 val_main_call1_cst
  generalize val_main_v39 (F := Ideal) x0 x2 x3 x4 x12 = A
  generalize val_main_v29 (F := Ideal) x0 x2 x3 x4 x12 = X
  generalize val_main_v45 (F := Ideal) x12 = d
  exact HostLayer.host_layerDiv dot_S50000x64_S64x64_S50000x64_1_0_0_1_n_n rfl A X d x5 x7 x6
    _ _ _ _ _

end Cert.Bridge

end
-- ==== Proof.RefEdge.lean ====
/-
  The reference's edge stage, entry by entry, on the extended reals.

  The joined feature row of edge e has 144 entries: the 64 features of the edge's source node — the row of the node
  table named by the edge's first index, read as a signed integer and clamped into the table —, then the 64 features
  of its destination node (the same with the second index), then the edge's own 16 attributes. A join of three
  matrices along the columns reads, at column c, the first at c for c below 64, the second at c − 64 for c below 128,
  and the third at c − 128 otherwise; taking rows of a matrix by an index column reads the matrix at the clamped row.

  The score of edge e is the logistic function of ⟨max(⟨joined row, W⟩ + b, 0), head⟩ + head bias. The program spells
  the logistic function out as 1 / (1 + exp(−x)), with both ones the float pattern of one, and keeps the scores in a
  column that it reads back flat: entry e of the flat result is row e of the column (e / 1 = e).
-/
import proofs.«124681_j52029233824512_2_alg».proof.Proof.Gen.ReferenceIdeal.Read
import proofs.«124681_j52029233824512_2_alg».proof.Proof.Spec
import proofs.«124681_j52029233824512_2_alg».proof.Proof.LibRowGather
import Idealize.ShloMosaic.Lib.Pipeline.Value
import Idealize.ShloMosaic.Lib.IdealHost

noncomputable section

open scoped BigOperators

open Cert.ReferenceIdeal Cert.ReferenceIdeal.Gen Cert.ReferenceIdeal.Read Idealize.ShloMosaic Idealize.ShloMosaic.ValueIdx
  Cert.Lib.RowGather

namespace Cert.Bridge.EdgeRead

/-! ## A join of [E, 64], [E, 64], [E, 16] along the columns, read in each of its three pieces -/

/-- Columns 0 to 63 are the first piece's. -/
theorem cat_fst {α : Type} (h : Shape.Concatenates [S1600000x64, S1600000x64, S1600000x16] S1600000x144 1)
    (x y : S1600000x64.Idx → α) (z : S1600000x16.Idx → α) (e : Fin 1600000) (k : Fin 64) :
    concatenate S1600000x144 1 [⟨S1600000x64, x⟩, ⟨S1600000x64, y⟩, ⟨S1600000x16, z⟩] h
      (ix2 e (⟨k.val, by omega⟩ : Fin 144)) = x (ix2 e k) := by
  refine concatenate_apply_piece (1 : Fin S1600000x144.rank) [⟨S1600000x64, x⟩, ⟨S1600000x64, y⟩, ⟨S1600000x16, z⟩] h _ 0 (by show 0 < 3; omega) S1600000x64 x rfl rfl 0 rfl (ix2 e k) ?_ ?_
  · intro b hb
    match b with
    | ⟨0, _⟩ => rfl
    | ⟨1, _⟩ => exact absurd rfl hb
  · show 0 + k.val = k.val
    omega

/-- Columns 64 to 127 are the second piece's. -/
theorem cat_snd {α : Type} (h : Shape.Concatenates [S1600000x64, S1600000x64, S1600000x16] S1600000x144 1)
    (x y : S1600000x64.Idx → α) (z : S1600000x16.Idx → α) (e : Fin 1600000) (k : Fin 64) :
    concatenate S1600000x144 1 [⟨S1600000x64, x⟩, ⟨S1600000x64, y⟩, ⟨S1600000x16, z⟩] h
      (ix2 e (⟨64 + k.val, by omega⟩ : Fin 144)) = y (ix2 e k) := by
  refine concatenate_apply_piece (1 : Fin S1600000x144.rank) [⟨S1600000x64, x⟩, ⟨S1600000x64, y⟩, ⟨S1600000x16, z⟩] h _ 1 (by show 1 < 3; omega) S1600000x64 y rfl rfl 64 rfl (ix2 e k) ?_ ?_
  · intro b hb
    match b with
    | ⟨0, _⟩ => rfl
    | ⟨1, _⟩ => exact absurd rfl hb
  · show 64 + k.val = 64 + k.val
    rfl

/-- Columns 128 to 143 are the third piece's. -/
theorem cat_thd {α : Type} (h : Shape.Concatenates [S1600000x64, S1600000x64, S1600000x16] S1600000x144 1)
    (x y : S1600000x64.Idx → α) (z : S1600000x16.Idx → α) (e : Fin 1600000) (k : Fin 16) :
    concatenate S1600000x144 1 [⟨S1600000x64, x⟩, ⟨S1600000x64, y⟩, ⟨S1600000x16, z⟩] h
      (ix2 e (⟨128 + k.val, by omega⟩ : Fin 144)) = z (ix2 e k) := by
  refine concatenate_apply_piece (1 : Fin S1600000x144.rank) [⟨S1600000x64, x⟩, ⟨S1600000x64, y⟩, ⟨S1600000x16, z⟩] h _ 2 (by show 2 < 3; omega) S1600000x16 z rfl rfl 128 rfl (ix2 e k) ?_ ?_
  · intro b hb
    match b with
    | ⟨0, _⟩ => rfl
    | ⟨1, _⟩ => exact absurd rfl hb
  · show 128 + k.val = 128 + k.val
    rfl

/-- Taking rows of the [50000, 64] node table by an index column, read at (e, k): the table at the clamped row. -/
theorem rows_apply (H : (⟨S50000x64, .f32⟩ : BufTy).Contents (Elt Ideal)) (ids : (⟨S1600000x1, .i32⟩ : BufTy).Contents (Elt Ideal))
    (e : Fin 1600000) (k : Fin 64) :
    Host.gather gather_S50000x64_S1600000x1_S1600000x64_1_0_n_n_0_1_164 H ids (ix2 e k)
      = H (ix2 (⟨clampRow 50000 ids e, clampRow_lt (by norm_num) ids e⟩ : Fin 50000) k) :=
  gather_rows_apply (N := 50000) (C := 64) (R := 1600000) (by norm_num) gather_S50000x64_S1600000x1_S1600000x64_1_0_n_n_0_1_164_wf H ids e k

end Cert.Bridge.EdgeRead

namespace Cert.Bridge

open Cert.Bridge.EdgeRead

/-! ## The joined feature row at an entry -/

/-- Columns 0 to 63 of edge e's joined row: the node table at the edge's clamped source row. -/
theorem ef_src (H : (⟨S50000x64, .f32⟩ : BufTy).Contents (Elt Ideal)) (isrc idst : (⟨S1600000x1, .i32⟩ : BufTy).Contents (Elt Ideal)) (x1 : (⟨S1600000x16, .f32⟩ : BufTy).Contents (Elt Ideal)) (e : Fin 1600000) (k : Fin 64) :
    concatenate S1600000x144 1 [⟨S1600000x64, Host.gather gather_S50000x64_S1600000x1_S1600000x64_1_0_n_n_0_1_164 H isrc⟩, ⟨S1600000x64, Host.gather gather_S50000x64_S1600000x1_S1600000x64_1_0_n_n_0_1_164 H idst⟩, ⟨S1600000x16, x1⟩] concatenates_S1600000x64_S1600000x64_S1600000x16_S1600000x144_d1
      (ix2 e (⟨k.val, by omega⟩ : Fin 144))
      = H (ix2 (⟨clampRow 50000 isrc e, clampRow_lt (by norm_num) isrc e⟩ : Fin 50000) k) :=
  (cat_fst _ _ _ _ e k).trans (rows_apply H isrc e k)

/-- Columns 64 to 127 of edge e's joined row: the node table at the edge's clamped destination row. -/
theorem ef_dst (H : (⟨S50000x64, .f32⟩ : BufTy).Contents (Elt Ideal)) (isrc idst : (⟨S1600000x1, .i32⟩ : BufTy).Contents (Elt Ideal)) (x1 : (⟨S1600000x16, .f32⟩ : BufTy).Contents (Elt Ideal)) (e : Fin 1600000) (k : Fin 64) :
    concatenate S1600000x144 1 [⟨S1600000x64, Host.gather gather_S50000x64_S1600000x1_S1600000x64_1_0_n_n_0_1_164 H isrc⟩, ⟨S1600000x64, Host.gather gather_S50000x64_S1600000x1_S1600000x64_1_0_n_n_0_1_164 H idst⟩, ⟨S1600000x16, x1⟩] concatenates_S1600000x64_S1600000x64_S1600000x16_S1600000x144_d1
      (ix2 e (⟨64 + k.val, by omega⟩ : Fin 144))
      = H (ix2 (⟨clampRow 50000 idst e, clampRow_lt (by norm_num) idst e⟩ : Fin 50000) k) :=
  (cat_snd _ _ _ _ e k).trans (rows_apply H idst e k)

/-- Columns 128 to 143 of edge e's joined row: the edge's attributes. -/
theorem ef_attr (H : (⟨S50000x64, .f32⟩ : BufTy).Contents (Elt Ideal)) (isrc idst : (⟨S1600000x1, .i32⟩ : BufTy).Contents (Elt Ideal)) (x1 : (⟨S1600000x16, .f32⟩ : BufTy).Contents (Elt Ideal)) (e : Fin 1600000) (k : Fin 16) :
    concatenate S1600000x144 1 [⟨S1600000x64, Host.gather gather_S50000x64_S1600000x1_S1600000x64_1_0_n_n_0_1_164 H isrc⟩, ⟨S1600000x64, Host.gather gather_S50000x64_S1600000x1_S1600000x64_1_0_n_n_0_1_164 H idst⟩, ⟨S1600000x16, x1⟩] concatenates_S1600000x64_S1600000x64_S1600000x16_S1600000x144_d1
      (ix2 e (⟨128 + k.val, by omega⟩ : Fin 144))
      = x1 (ix2 e k) :=
  cat_thd _ _ _ _ e k

/-! ## The same three readings on the program's own joined rows (the node table and the two index columns are the
    program's values before the join) -/

/-- Columns 0 to 63 of the program's joined row e: the node table at the clamped row named by the source column. -/
theorem v70_src (x0 : (⟨S50000x128, .f32⟩ : BufTy).Contents (Elt Ideal)) (x1 : (⟨S1600000x16, .f32⟩ : BufTy).Contents (Elt Ideal)) (x2 : (⟨S128x64, .f32⟩ : BufTy).Contents (Elt Ideal)) (x3 : (⟨S64, .f32⟩ : BufTy).Contents (Elt Ideal)) (x4 : (⟨S128x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x12 : (⟨S2x1600000, .i32⟩ : BufTy).Contents (Elt Ideal)) (e : Fin 1600000) (k : Fin 64) :
    val_main_v70 (F := Ideal) x0 x1 x2 x3 x4 x5 x6 x7 x12 (ix2 e (⟨k.val, by omega⟩ : Fin 144))
      = val_main_v55 (F := Ideal) x0 x2 x3 x4 x5 x6 x7 x12
          (ix2 (⟨clampRow 50000 (val_main_v61 (F := Ideal) x12) e, clampRow_lt (by norm_num) (val_main_v61 (F := Ideal) x12) e⟩ : Fin 50000) k) := by
  unfold val_main_v70 val_main_v62 val_main_v69
  exact ef_src _ _ _ _ e k

/-- Columns 64 to 127 of the program's joined row e: the node table at the clamped row named by the destination column. -/
theorem v70_dst (x0 : (⟨S50000x128, .f32⟩ : BufTy).Contents (Elt Ideal)) (x1 : (⟨S1600000x16, .f32⟩ : BufTy).Contents (Elt Ideal)) (x2 : (⟨S128x64, .f32⟩ : BufTy).Contents (Elt Ideal)) (x3 : (⟨S64, .f32⟩ : BufTy).Contents (Elt Ideal)) (x4 : (⟨S128x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x12 : (⟨S2x1600000, .i32⟩ : BufTy).Contents (Elt Ideal)) (e : Fin 1600000) (k : Fin 64) :
    val_main_v70 (F := Ideal) x0 x1 x2 x3 x4 x5 x6 x7 x12 (ix2 e (⟨64 + k.val, by omega⟩ : Fin 144))
      = val_main_v55 (F := Ideal) x0 x2 x3 x4 x5 x6 x7 x12
          (ix2 (⟨clampRow 50000 (val_main_v68 (F := Ideal) x12) e, clampRow_lt (by norm_num) (val_main_v68 (F := Ideal) x12) e⟩ : Fin 50000) k) := by
  unfold val_main_v70 val_main_v62 val_main_v69
  exact ef_dst _ _ _ _ e k

/-- Columns 128 to 143 of the program's joined row e: the edge's attributes. -/
theorem v70_attr (x0 : (⟨S50000x128, .f32⟩ : BufTy).Contents (Elt Ideal)) (x1 : (⟨S1600000x16, .f32⟩ : BufTy).Contents (Elt Ideal)) (x2 : (⟨S128x64, .f32⟩ : BufTy).Contents (Elt Ideal)) (x3 : (⟨S64, .f32⟩ : BufTy).Contents (Elt Ideal)) (x4 : (⟨S128x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x12 : (⟨S2x1600000, .i32⟩ : BufTy).Contents (Elt Ideal)) (e : Fin 1600000) (k : Fin 16) :
    val_main_v70 (F := Ideal) x0 x1 x2 x3 x4 x5 x6 x7 x12 (ix2 e (⟨128 + k.val, by omega⟩ : Fin 144)) = x1 (ix2 e k) := by
  unfold val_main_v70 val_main_v62 val_main_v69
  exact ef_attr _ _ _ _ e k

end Cert.Bridge

namespace Cert.Bridge.EdgeRead

/-! ## From the joined rows to the scores -/

/-- Entry e of the flat result is row e of the score column. -/
theorem idx86 (e : Fin 1600000) : idx_main_v86 (ix1 e) = ix2 e (0 : Fin 1) := by
  funext a
  match a with
  | ⟨0, _⟩ =>
    refine Fin.ext ?_
    show e.val / 1 = e.val
    exact Nat.div_one _
  | ⟨1, _⟩ => rfl

/-- The hidden row after the activation at (e, j): the maximum with zero of ⟨joined row e, column j of W⟩ + b j. -/
theorem hidden_apply (x0 : (⟨S50000x128, .f32⟩ : BufTy).Contents (Elt Ideal)) (x1 : (⟨S1600000x16, .f32⟩ : BufTy).Contents (Elt Ideal)) (x2 : (⟨S128x64, .f32⟩ : BufTy).Contents (Elt Ideal)) (x3 : (⟨S64, .f32⟩ : BufTy).Contents (Elt Ideal)) (x4 : (⟨S128x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S144x64, .f32⟩ : BufTy).Contents (Elt Ideal)) (x9 : (⟨S64, .f32⟩ : BufTy).Contents (Elt Ideal)) (x12 : (⟨S2x1600000, .i32⟩ : BufTy).Contents (Elt Ideal)) (e : Fin 1600000) (j : Fin 64) :
    val_main_v75 (F := Ideal) x0 x1 x2 x3 x4 x5 x6 x7 x8 x9 x12 (ix2 e j)
      = max (Cert.Bridge.preJoined (E := 1600000) (C := 144) (H := 64) (val_main_v70 (F := Ideal) x0 x1 x2 x3 x4 x5 x6 x7 x12) x8 x9 e j) 0 := by
  rw [val_main_v75_apply, val_main_v74_apply, val_main_v71_apply, val_main_v73_apply, val_main_v72_apply,
    val_main_call2_v0_apply, val_main_call2_cst_apply]
  generalize val_main_v70 (F := Ideal) x0 x1 x2 x3 x4 x5 x6 x7 x12 = EF
  have hl : ∀ k : Fin 144, lidx_main_v71 (ix2 e j) k = ix2 e k := fun k => funext fun a =>
    match a with
    | ⟨0, _⟩ => rfl
    | ⟨1, _⟩ => rfl
  have hr : ∀ k : Fin 144, ridx_main_v71 (ix2 e j) k = ix2 k j := fun k => funext fun a =>
    match a with
    | ⟨0, _⟩ => rfl
    | ⟨1, _⟩ => rfl
  have hb : idx_main_v72 (idx_main_v73 (ix2 e j)) = ix1 j := funext fun a =>
    match a with
    | ⟨0, _⟩ => rfl
  simp only [hl, hr, hb]
  show max ((∑ k : Fin 144, EF (ix2 e k) * x8 (ix2 k j)) + x9 (ix1 j)) (Ideal.ofBits .f32 0x00000000#32) = _
  rw [Ideal.ofBits_zero_f32]
  rfl

/-- The program's 1 / (1 + exp(−x)), both ones the float pattern of one, is the logistic function. -/
theorem logistic_spelt (x : EReal) :
    Ideal.div (Ideal.ofBits .f32 0x3F800000#32) (Ideal.ofBits .f32 0x3F800000#32 + Ideal.exp (-x)) = Ideal.logistic x := by
  rw [Ideal.ofBits_one_f32]
  rfl

/-- The score of edge e, read at entry e of the flat result. -/
theorem out_apply (x0 : (⟨S50000x128, .f32⟩ : BufTy).Contents (Elt Ideal)) (x1 : (⟨S1600000x16, .f32⟩ : BufTy).Contents (Elt Ideal)) (x2 : (⟨S128x64, .f32⟩ : BufTy).Contents (Elt Ideal)) (x3 : (⟨S64, .f32⟩ : BufTy).Contents (Elt Ideal)) (x4 : (⟨S128x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S144x64, .f32⟩ : BufTy).Contents (Elt Ideal)) (x9 : (⟨S64, .f32⟩ : BufTy).Contents (Elt Ideal)) (x10 : (⟨S64x1, .f32⟩ : BufTy).Contents (Elt Ideal)) (x11 : (⟨S1, .f32⟩ : BufTy).Contents (Elt Ideal)) (x12 : (⟨S2x1600000, .i32⟩ : BufTy).Contents (Elt Ideal)) (e : Fin 1600000) :
    val_main_v86 (F := Ideal) x0 x1 x2 x3 x4 x5 x6 x7 x8 x9 x10 x11 x12 (ix1 e)
      = Cert.Bridge.score (Cert.Bridge.preJoined (E := 1600000) (C := 144) (H := 64) (val_main_v70 (F := Ideal) x0 x1 x2 x3 x4 x5 x6 x7 x12) x8 x9 e) x10 x11 := by
  rw [val_main_v86_apply, idx86, val_main_v85_apply, val_main_v84_apply, val_main_cst_15_apply, val_main_v83_apply,
    val_main_v82_apply, val_main_cst_14_apply, val_main_v81_apply, val_main_v80_apply, val_main_v79_apply,
    val_main_v76_apply, val_main_v78_apply, val_main_v77_apply]
  have hl : ∀ k : Fin 64, lidx_main_v76 (ix2 e (0 : Fin 1)) k = ix2 e k := fun k => funext fun a =>
    match a with
    | ⟨0, _⟩ => rfl
    | ⟨1, _⟩ => rfl
  have hr : ∀ k : Fin 64, ridx_main_v76 (ix2 e (0 : Fin 1)) k = ix2 k (0 : Fin 1) := fun k => funext fun a =>
    match a with
    | ⟨0, _⟩ => rfl
    | ⟨1, _⟩ => rfl
  have hb : idx_main_v77 (idx_main_v78 (ix2 e (0 : Fin 1))) = ix1 (0 : Fin 1) := funext fun a =>
    match a with
    | ⟨0, _⟩ => rfl
  simp only [hl, hr, hb, hidden_apply]
  generalize Cert.Bridge.preJoined (E := 1600000) (C := 144) (H := 64) (val_main_v70 (F := Ideal) x0 x1 x2 x3 x4 x5 x6 x7 x12) x8 x9 e = pre
  exact logistic_spelt _

end Cert.Bridge.EdgeRead

namespace Cert.Bridge

open Cert.Bridge.EdgeRead

/-- THE REFERENCE'S RESULT: entry e is the score of edge e from its joined feature row. -/
theorem ref_out (x0 : (⟨S50000x128, .f32⟩ : BufTy).Contents (Elt Ideal)) (x1 : (⟨S1600000x16, .f32⟩ : BufTy).Contents (Elt Ideal)) (x2 : (⟨S128x64, .f32⟩ : BufTy).Contents (Elt Ideal)) (x3 : (⟨S64, .f32⟩ : BufTy).Contents (Elt Ideal)) (x4 : (⟨S128x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S144x64, .f32⟩ : BufTy).Contents (Elt Ideal)) (x9 : (⟨S64, .f32⟩ : BufTy).Contents (Elt Ideal)) (x10 : (⟨S64x1, .f32⟩ : BufTy).Contents (Elt Ideal)) (x11 : (⟨S1, .f32⟩ : BufTy).Contents (Elt Ideal)) (x12 : (⟨S2x1600000, .i32⟩ : BufTy).Contents (Elt Ideal)) :
    val_main_v86 (F := Ideal) x0 x1 x2 x3 x4 x5 x6 x7 x8 x9 x10 x11 x12
      = fun i => score (preJoined (E := 1600000) (C := 144) (H := 64) (val_main_v70 (F := Ideal) x0 x1 x2 x3 x4 x5 x6 x7 x12) x8 x9
          (⟨(i 0).val, (i 0).isLt⟩ : Fin 1600000)) x10 x11 := by
  funext i
  obtain ⟨e, rfl⟩ : ∃ e : Fin 1600000, i = ix1 e := ⟨i 0, eq_ix1 i⟩
  exact out_apply x0 x1 x2 x3 x4 x5 x6 x7 x8 x9 x10 x11 x12 e

end Cert.Bridge

end
-- ==== Proof.PreBridge.lean ====
/-
  The two forms of an edge's hidden row before the activation agree.

  The joined form is ⟨joined row, W⟩ + b, the joined row being the source node's 64 features, the destination node's
  64 features and the edge's 16 attributes, and W the three weight blocks stacked in that order (rows 0–63, 64–127,
  128–143). The split form is ((p + q) + ⟨attributes, third block⟩) + b, where p is the source node's features through
  the first block and q the destination node's through the second. A sum over 144 terms is the sum of its first 64,
  its next 64 and its last 16, so the two forms are the same three partial sums, grouped the same way, plus b.
-/
import proofs.«124681_j52029233824512_2_alg».proof.Proof.Spec

noncomputable section

open scoped BigOperators

namespace Cert.Bridge

open Idealize.ShloMosaic Idealize.ShloMosaic.ValueIdx

/-- THE SPLIT FORM IS THE JOINED FORM, for an edge whose two gathered products are its end points' feature rows through
    the first two weight blocks, whose attribute row is the edge's, whose small weight matrix is the third block, and
    whose joined row is those two feature rows followed by the attributes. -/
theorem pre_bridge (H2 : (⟨2, ![50000, 64]⟩ : Shape).Idx → EReal) (a8 : (⟨2, ![144, 64]⟩ : Shape).Idx → EReal) (a9 : (⟨1, ![64]⟩ : Shape).Idx → EReal)
    (ps qd : (⟨2, ![1607680, 64]⟩ : Shape).Idx → EReal) (ea : (⟨2, ![1607680, 16]⟩ : Shape).Idx → EReal) (Wc : (⟨2, ![16, 64]⟩ : Shape).Idx → EReal)
    (ef : (⟨2, ![1600000, 144]⟩ : Shape).Idx → EReal) (a1 : (⟨2, ![1600000, 16]⟩ : Shape).Idx → EReal)
    (e : Fin 1600000) (e' : Fin 1607680) (rs rd : Fin 50000)
    (hps : ∀ j : Fin 64, ps (ix2 e' j) = ∑ k : Fin 64, H2 (ix2 rs k) * a8 (ix2 (⟨k.val, by omega⟩ : Fin 144) j))
    (hqd : ∀ j : Fin 64, qd (ix2 e' j) = ∑ k : Fin 64, H2 (ix2 rd k) * a8 (ix2 (⟨64 + k.val, by omega⟩ : Fin 144) j))
    (hea : ∀ k : Fin 16, ea (ix2 e' k) = a1 (ix2 e k))
    (hwc : ∀ (k : Fin 16) (j : Fin 64), Wc (ix2 k j) = a8 (ix2 (⟨128 + k.val, by omega⟩ : Fin 144) j))
    (hs : ∀ k : Fin 64, ef (ix2 e (⟨k.val, by omega⟩ : Fin 144)) = H2 (ix2 rs k))
    (hd : ∀ k : Fin 64, ef (ix2 e (⟨64 + k.val, by omega⟩ : Fin 144)) = H2 (ix2 rd k))
    (hat : ∀ k : Fin 16, ef (ix2 e (⟨128 + k.val, by omega⟩ : Fin 144)) = a1 (ix2 e k)) :
    preSplit ps qd ea Wc a9 e' = preJoined ef a8 a9 e := by
  funext j
  unfold preSplit preJoined
  rw [sum_144_split (fun k : Fin 144 => ef (ix2 e k) * a8 (ix2 k j)), hps j, hqd j]
  refine congrArg (fun t => t + a9 (ix1 j)) ?_
  refine congrArg₂ (fun s t => s + t) (congrArg₂ (fun s t => s + t) ?_ ?_) ?_
  · exact Finset.sum_congr rfl fun k _ => by rw [hs k]
  · exact Finset.sum_congr rfl fun k _ => by rw [hd k]
  · exact Finset.sum_congr rfl fun k _ => by rw [hea k, hwc k j, hat k]

end Cert.Bridge

end
-- ==== Proof.CrossTerms.lean ====
/-
  The two programs spell the same host terms over shapes and dimension records that carry different names for the same
  literals: the edge list's two rows as index vectors, an index vector as a column with its negative entries wrapped
  by the node count, the neighbour sums (rows taken at the sources, summed at the destinations into a zero array), and
  the in-degree clamped below by one. Each pair is one tree of the same operations on the same operands, so the two
  terms are equal by definition.

  The reciprocal column at (n, 0) is one divided by the clamped in-degree of node n, and the clamped in-degree is at
  least one, being a maximum with the float pattern of one.
-/
import proofs.«124681_j52029233824512_2_alg».proof.Proof.Gen.ReferenceIdeal.Read
import proofs.«124681_j52029233824512_2_alg».proof.Proof.KernelHost
import proofs.«124681_j52029233824512_2_alg».proof.Proof.LibColumnLayout
import Idealize.ShloMosaic.Lib.IdealHost

noncomputable section

namespace Cert.Bridge

open Cert.ReferenceIdeal.Read Idealize.ShloMosaic Idealize.ShloMosaic.ValueIdx

/-! ## The reference's terms are the kernel program's -/

set_option maxHeartbeats 400000 in
/-- The source column with negative entries wrapped. -/
theorem x_src (x12 : (⟨Cert.ReferenceIdeal.S2x1600000, .i32⟩ : BufTy).Contents (Elt Ideal)) : val_main_v61 (F := Ideal) x12 = normCol (srcV x12) := by
  unfold val_main_v61 val_main_v60 val_main_v57 val_main_v59 val_main_v56 val_main_v58 val_main_c_10 val_main_c_11
    val_main_v1 val_main_v0 normCol srcV
  rfl

set_option maxHeartbeats 400000 in
/-- The destination column with negative entries wrapped. -/
theorem x_dst (x12 : (⟨Cert.ReferenceIdeal.S2x1600000, .i32⟩ : BufTy).Contents (Elt Ideal)) : val_main_v68 (F := Ideal) x12 = normCol (dstV x12) := by
  unfold val_main_v68 val_main_v67 val_main_v64 val_main_v66 val_main_v63 val_main_v65 val_main_c_12 val_main_c_13
    val_main_v3 val_main_v2 normCol dstV
  rfl

set_option maxHeartbeats 400000 in
/-- The clamped in-degree, as the first layer spells it. -/
theorem x_dmax19 (x12 : (⟨Cert.ReferenceIdeal.S2x1600000, .i32⟩ : BufTy).Contents (Elt Ideal)) : val_main_v19 (F := Ideal) x12 = dmaxT x12 := by
  unfold val_main_v19 val_main_v18 val_main_v17 val_main_v16 val_main_v15 val_main_v14 val_main_cst_1 val_main_cst_2
    val_main_cst_3 val_main_v3 val_main_v2 dmaxT rawCol dstV
  rfl

set_option maxHeartbeats 400000 in
/-- The clamped in-degree, as the second layer spells it. -/
theorem x_dmax45 (x12 : (⟨Cert.ReferenceIdeal.S2x1600000, .i32⟩ : BufTy).Contents (Elt Ideal)) : val_main_v45 (F := Ideal) x12 = dmaxT x12 := by
  unfold val_main_v45 val_main_v44 val_main_v43 val_main_v42 val_main_v41 val_main_v40 val_main_cst_7 val_main_cst_8
    val_main_cst_9 val_main_v3 val_main_v2 dmaxT rawCol dstV
  rfl

set_option maxHeartbeats 400000 in
/-- The neighbour sum of the 128 input features. -/
theorem x_agg128 (x0 : (⟨Cert.ReferenceIdeal.S50000x128, .f32⟩ : BufTy).Contents (Elt Ideal)) (x12 : (⟨Cert.ReferenceIdeal.S2x1600000, .i32⟩ : BufTy).Contents (Elt Ideal)) :
    val_main_v13 (F := Ideal) x0 x12 = agg128 x0 (srcV x12) (dstV x12) := by
  unfold val_main_v13 val_main_v12 val_main_v11 val_main_v10 val_main_v9 val_main_v8 val_main_v7 val_main_v6 val_main_v5
    val_main_v4 val_main_c val_main_c_0 val_main_cst val_main_v3 val_main_v2 val_main_v1 val_main_v0 agg128 normCol rawCol
    srcV dstV
  rfl

set_option maxHeartbeats 400000 in
/-- The neighbour sum of the 64 features of the first layer's result, that result kept as one operand. -/
theorem x_agg64 (x0 : (⟨Cert.ReferenceIdeal.S50000x128, .f32⟩ : BufTy).Contents (Elt Ideal)) (x2 : (⟨Cert.ReferenceIdeal.S128x64, .f32⟩ : BufTy).Contents (Elt Ideal)) (x3 : (⟨Cert.ReferenceIdeal.S64, .f32⟩ : BufTy).Contents (Elt Ideal)) (x4 : (⟨Cert.ReferenceIdeal.S128x64, .f32⟩ : BufTy).Contents (Elt Ideal)) (x12 : (⟨Cert.ReferenceIdeal.S2x1600000, .i32⟩ : BufTy).Contents (Elt Ideal)) :
    val_main_v39 (F := Ideal) x0 x2 x3 x4 x12
      = agg64 (val_main_v29 (F := Ideal) x0 x2 x3 x4 x12) (srcV x12) (dstV x12) := by
  unfold val_main_v39 val_main_v36
  generalize val_main_v29 (F := Ideal) x0 x2 x3 x4 x12 = h29
  unfold val_main_v38 val_main_v37 val_main_v35 val_main_v34 val_main_v33 val_main_v32 val_main_v31 val_main_v30
    val_main_c_4 val_main_c_5 val_main_cst_6 val_main_v3 val_main_v2 val_main_v1 val_main_v0 agg64 normCol rawCol srcV dstV
  rfl

/-! ## The reciprocal column and the clamp -/

/-- The reciprocal column at (n, 0): one divided by the clamped in-degree of node n. -/
theorem inv_apply (x12 : (⟨Cert.ReferenceIdeal.S2x1600000, .i32⟩ : BufTy).Contents (Elt Ideal)) (n : Fin 50000) :
    invT x12 (ix2 n (0 : Fin 1)) = Ideal.div 1 (dmaxT x12 (ix1 n)) := by
  unfold invT
  refine (PhysLoss.shapeCast_a_a1_apply _ _ n (0 : Fin 1)).trans ?_
  generalize dmaxT x12 = d
  rw [hostDivf_apply, broadcastInDim_scalar_apply, constant_apply, Ideal.ofBits_one_f32]

/-- The clamped in-degree is at least one. -/
theorem one_le_dmax (x12 : (⟨Cert.ReferenceIdeal.S2x1600000, .i32⟩ : BufTy).Contents (Elt Ideal)) (n : Fin 50000) : (1 : EReal) ≤ dmaxT x12 (ix1 n) := by
  unfold dmaxT
  rw [maximumf_apply, broadcastInDim_scalar_apply, constant_apply, Ideal.ofBits_one_f32]
  exact le_max_right _ _

end Cert.Bridge

end
-- ==== Proof.Bridge.lean ====
/-
  The two programs compute one function of the arguments. The first layer's features agree (the neighbour sums and
  the clamped in-degree are the same terms in both programs; scaling by the reciprocal of a divisor that is at
  least one is dividing by it), so the second layer's do; and for every edge the hidden row before the
  activation agrees: the row of a node-level product taken at an end point is the product of that end point's
  feature row with the weight block, a padded array keeps the entries of its original rows, and the product of the
  joined feature row with the stacked weights is the sum of the three partial products. The score is the same
  function of the hidden row on both sides.
-/
import proofs.«124681_j52029233824512_2_alg».proof.Proof.KernelSpec
import proofs.«124681_j52029233824512_2_alg».proof.Proof.KernelRead
import proofs.«124681_j52029233824512_2_alg».proof.Proof.RefLayers
import proofs.«124681_j52029233824512_2_alg».proof.Proof.RefEdge
import proofs.«124681_j52029233824512_2_alg».proof.Proof.PreBridge
import proofs.«124681_j52029233824512_2_alg».proof.Proof.CrossTerms
import proofs.«124681_j52029233824512_2_alg».proof.Proof.LibRowGather

noncomputable section

namespace Cert.Bridge

open Idealize.ShloMosaic Idealize.ShloMosaic.ValueIdx Cert.Lib.RowGather
open Cert.ReferenceIdeal.Read (val_main_v29 val_main_v55 val_main_v61 val_main_v68 val_main_v70 val_main_v86)

/-- Rows of a [50000, 64] table taken by an index column, in the kernel program's spelling of the gather. -/
theorem krows_apply {α : Type} (H : (⟨2, ![50000, 64]⟩ : Shape).Idx → α) (ids : IVec ⟨2, ![1600000, 1]⟩ 32)
    (e : Fin 1600000) (k : Fin 64) :
    Host.gather Cert.KernelIdeal.gather_S50000x64_S1600000x1_S1600000x64_1_0_n_n_0_1_164 H ids (ix2 e k)
      = H (ix2 (⟨clampRow 50000 ids e, clampRow_lt (by norm_num) ids e⟩ : Fin 50000) k) :=
  gather_rows_apply (N := 50000) (C := 64) (R := 1600000) (by norm_num)
    Cert.KernelIdeal.Gen.gather_S50000x64_S1600000x1_S1600000x64_1_0_n_n_0_1_164_wf H ids e k

/-- The tile entry (e / 128, e % 128) of the edge stage is edge e's score. -/
theorem edge_entry (ps qd : (⟨2, ![1607680, 64]⟩ : Shape).Idx → EReal) (ea : (⟨2, ![1607680, 16]⟩ : Shape).Idx → EReal)
    (Wc : (⟨2, ![16, 64]⟩ : Shape).Idx → EReal) (b1 : (⟨1, ![64]⟩ : Shape).Idx → EReal)
    (W2 : (⟨2, ![64, 1]⟩ : Shape).Idx → EReal) (b2 : (⟨1, ![1]⟩ : Shape).Idx → EReal) (e : Fin 1600000) :
    edgeOut ps qd ea Wc b1 W2 b2 (ix2 (⟨e.val / 128, by have := e.isLt; omega⟩ : Fin 12560) (⟨e.val % 128, Nat.mod_lt _ (by norm_num)⟩ : Fin 128))
      = score (preSplit ps qd ea Wc b1 (⟨e.val, by have := e.isLt; omega⟩ : Fin 1607680)) W2 b2 := by
  unfold edgeOut
  exact congrArg (fun q : Fin 1607680 => score (preSplit ps qd ea Wc b1 q) W2 b2)
    (Fin.ext (by show e.val / 128 * 128 + e.val % 128 = e.val; omega))

section

variable (x0 : (⟨Cert.ReferenceIdeal.S50000x128, .f32⟩ : BufTy).Contents (Elt Ideal)) (x1 : (⟨Cert.ReferenceIdeal.S1600000x16, .f32⟩ : BufTy).Contents (Elt Ideal))
  (x2 : (⟨Cert.ReferenceIdeal.S128x64, .f32⟩ : BufTy).Contents (Elt Ideal)) (x3 : (⟨Cert.ReferenceIdeal.S64, .f32⟩ : BufTy).Contents (Elt Ideal))
  (x4 : (⟨Cert.ReferenceIdeal.S128x64, .f32⟩ : BufTy).Contents (Elt Ideal)) (x5 : (⟨Cert.ReferenceIdeal.S64x64, .f32⟩ : BufTy).Contents (Elt Ideal))
  (x6 : (⟨Cert.ReferenceIdeal.S64, .f32⟩ : BufTy).Contents (Elt Ideal)) (x7 : (⟨Cert.ReferenceIdeal.S64x64, .f32⟩ : BufTy).Contents (Elt Ideal))
  (x8 : (⟨Cert.ReferenceIdeal.S144x64, .f32⟩ : BufTy).Contents (Elt Ideal)) (x9 : (⟨Cert.ReferenceIdeal.S64, .f32⟩ : BufTy).Contents (Elt Ideal))
  (x10 : (⟨Cert.ReferenceIdeal.S64x1, .f32⟩ : BufTy).Contents (Elt Ideal)) (x11 : (⟨Cert.ReferenceIdeal.S1, .f32⟩ : BufTy).Contents (Elt Ideal))
  (x12 : (⟨Cert.ReferenceIdeal.S2x1600000, .i32⟩ : BufTy).Contents (Elt Ideal))

/-- The first layer's features agree. -/
theorem h1_eq : val_main_v29 (F := Ideal) x0 x2 x3 x4 x12 = kH1 x0 x2 x3 x4 x12 := by
  rw [ref_h1, x_agg128, x_dmax19]
  unfold kH1
  exact (layerMul_eq_layerDiv _ _ _ _ _ _ _ (inv_apply x12) (one_le_dmax x12)).symm

/-- The second layer's features agree. -/
theorem h2_eq : val_main_v55 (F := Ideal) x0 x2 x3 x4 x5 x6 x7 x12 = kH2 (kH1 x0 x2 x3 x4 x12) x5 x6 x7 x12 := by
  rw [ref_h2, x_agg64, x_dmax45, h1_eq]
  unfold kH2
  exact (layerMul_eq_layerDiv _ _ _ _ _ _ _ (inv_apply x12) (one_le_dmax x12)).symm

/-- THE RESULTS AGREE: the kernel program's result as a function of the arguments is the reference's. -/
theorem bridge : kOut (kH2 (kH1 x0 x2 x3 x4 x12) x5 x6 x7 x12) x1 x8 x9 x10 x11 x12
    = val_main_v86 (F := Ideal) x0 x1 x2 x3 x4 x5 x6 x7 x8 x9 x10 x11 x12 := by
  rw [ref_out]
  funext i
  obtain ⟨e, rfl⟩ : ∃ e : Fin 1600000, i = ix1 e := ⟨i 0, eq_ix1 i⟩
  unfold kOut
  refine (flat_cut_apply (A := 12560) (E := 1600000) _ _ _ e (by norm_num)).trans ?_
  refine (edge_entry _ _ _ _ _ _ _ e).trans ?_
  refine congrArg (fun p => score p x10 x11) ?_
  refine pre_bridge (kH2 (kH1 x0 x2 x3 x4 x12) x5 x6 x7 x12) x8 x9 _ _ _ _ _ x1 e _
    (⟨clampRow 50000 (normCol (srcV x12)) e, clampRow_lt (by norm_num) _ e⟩ : Fin 50000)
    (⟨clampRow 50000 (normCol (dstV x12)) e, clampRow_lt (by norm_num) _ e⟩ : Fin 50000) ?_ ?_ ?_ ?_ ?_ ?_ ?_
  · intro j
    unfold kPs
    refine (pad_rows_apply (R := 1600000) (R' := 1607680) (C := 64) (P := 7680) _ _ _ _ e _ rfl j).trans ?_
    refine (krows_apply _ _ e j).trans ?_
    unfold proj
    refine Finset.sum_congr rfl fun k _ => ?_
    exact congrArg _ (rows_cut_apply 0 x8 _ k j (⟨k.val, by omega⟩ : Fin 144) (by show k.val = 0 + k.val; omega))
  · intro j
    unfold kQd
    refine (pad_rows_apply (R := 1600000) (R' := 1607680) (C := 64) (P := 7680) _ _ _ _ e _ rfl j).trans ?_
    refine (krows_apply _ _ e j).trans ?_
    unfold proj
    refine Finset.sum_congr rfl fun k _ => ?_
    exact congrArg _ (rows_cut_apply 64 x8 _ k j (⟨64 + k.val, by omega⟩ : Fin 144) rfl)
  · intro k
    unfold kEa
    exact pad_rows_apply (R := 1600000) (R' := 1607680) (C := 16) (P := 7680) _ _ _ _ e _ rfl k
  · intro k j
    exact rows_cut_apply 128 x8 _ k j (⟨128 + k.val, by omega⟩ : Fin 144) rfl
  · intro k
    rw [v70_src, h2_eq, x_src]
  · intro k
    rw [v70_dst, h2_eq, x_dst]
  · intro k
    exact v70_attr x0 x1 x2 x3 x4 x5 x6 x7 x12 e k

end

end Cert.Bridge

end
-- ==== Proof.lean ====
/- The proof of `Cert.Claim`: a two-layer graph convolution with mean aggregation followed by an edge scorer, as a kernel
   program of four kernel regions among host gathers and scatters, against its plain reference, over the extended reals.

   The kernel program forms each layer as max((mean·Wl + b) + x·Wr, 0) with the mean taken as the neighbour sum TIMES
   the reciprocal of the clamped in-degree, where the reference DIVIDES by the clamped in-degree: the clamped degree is
   at least one, so not zero, and the two are one number. For the edge scorer the kernel program multiplies the node
   features by the first two blocks of the stacked weights once per node and takes the products' rows at the edge's two
   end points, where the reference takes the feature rows first, joins them with the edge attributes and multiplies by
   the stacked weights: a row taken from a product is the product of the taken row, and the product with the stacked
   weights is the sum of the three partial products (associativity of the extended reals' sum only). The rows padded
   below the edge list are cut away again, and the logistic function is one function on both sides.

   Proof/Spec.lean states the layer and the edge score entry by entry; Proof/Region0 … Region3 read each kernel region's
   output array as that function of the region's input arrays; Proof/KernelHost, KernelSpec, KernelValue compose the
   regions and the host stretches into the kernel program's result as one function of the arguments (Proof/KernelRun:
   the run with every buffer named); Proof/RefLayers, RefEdge read the reference; Proof/PreBridge, CrossTerms and Bridge
   join the two. The frames are the generated ones; the idealization rewrote nothing. -/
import proofs.«124681_j52029233824512_2_alg».proof.Defs
import proofs.«124681_j52029233824512_2_alg».proof.Proof.Gen.Kernel
import proofs.«124681_j52029233824512_2_alg».proof.Proof.Gen.Kernel.Skeleton
import proofs.«124681_j52029233824512_2_alg».proof.Proof.Gen.Kernel.Launch
import proofs.«124681_j52029233824512_2_alg».proof.Proof.Gen.Kernel.Points
import proofs.«124681_j52029233824512_2_alg».proof.Proof.Gen.Kernel.Frame
import proofs.«124681_j52029233824512_2_alg».proof.Proof.Gen.KernelIdeal
import proofs.«124681_j52029233824512_2_alg».proof.Proof.Gen.KernelIdeal.Skeleton
import proofs.«124681_j52029233824512_2_alg».proof.Proof.Gen.KernelIdeal.Launch
import proofs.«124681_j52029233824512_2_alg».proof.Proof.Gen.KernelIdeal.Points
import proofs.«124681_j52029233824512_2_alg».proof.Proof.Gen.KernelIdeal.Frame
import proofs.«124681_j52029233824512_2_alg».proof.Proof.Gen.ReferenceIdeal
import proofs.«124681_j52029233824512_2_alg».proof.Proof.Gen.Pre_finite_inputs
import proofs.«124681_j52029233824512_2_alg».proof.Proof.Gen.ReferenceIdeal.Run
import proofs.«124681_j52029233824512_2_alg».proof.Proof.Gen.ReferenceIdeal.Read
import proofs.«124681_j52029233824512_2_alg».proof.Proof.KernelRun
import proofs.«124681_j52029233824512_2_alg».proof.Proof.KernelValue
import proofs.«124681_j52029233824512_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the result at one function of the arguments: the kernel program's composed regions and
    host stretches, which is the reference's composed term of arguments that agree. -/
theorem algebraic : Cert.algebraic_KernelIdeal_ReferenceIdeal := by
  intro m ρ m' ρ' _ hagree
  refine ⟨fun c => Cert.Bridge.kOut (Cert.Bridge.kH2 (Cert.Bridge.kH1 (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg12)))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg12))) (m ((c.tc : Thread Cert.KernelIdeal.nD Cert.KernelIdeal.τ).loc Cert.KernelIdeal.main_arg1)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono (fun r h c =>
      ⟨(h c _ (Cert.KernelIdeal.Gen.mem_uc Cert.KernelIdeal.main_v59 (by decide))).trans (Cert.Bridge.kernel_value m ρ c),
       (h c _ (Cert.KernelIdeal.Gen.mem_uc Cert.KernelIdeal.main_arg0 (by decide))).trans (Cert.KernelIdeal.Gen.W14_main_arg0 m ρ c),
       (h c _ (Cert.KernelIdeal.Gen.mem_uc Cert.KernelIdeal.main_arg1 (by decide))).trans (Cert.KernelIdeal.Gen.W14_main_arg1 m ρ c),
       (h c _ (Cert.KernelIdeal.Gen.mem_uc Cert.KernelIdeal.main_arg2 (by decide))).trans (Cert.KernelIdeal.Gen.W14_main_arg2 m ρ c),
       (h c _ (Cert.KernelIdeal.Gen.mem_uc Cert.KernelIdeal.main_arg3 (by decide))).trans (Cert.KernelIdeal.Gen.W14_main_arg3 m ρ c),
       (h c _ (Cert.KernelIdeal.Gen.mem_uc Cert.KernelIdeal.main_arg4 (by decide))).trans (Cert.KernelIdeal.Gen.W14_main_arg4 m ρ c),
       (h c _ (Cert.KernelIdeal.Gen.mem_uc Cert.KernelIdeal.main_arg5 (by decide))).trans (Cert.KernelIdeal.Gen.W14_main_arg5 m ρ c),
       (h c _ (Cert.KernelIdeal.Gen.mem_uc Cert.KernelIdeal.main_arg6 (by decide))).trans (Cert.KernelIdeal.Gen.W14_main_arg6 m ρ c),
       (h c _ (Cert.KernelIdeal.Gen.mem_uc Cert.KernelIdeal.main_arg7 (by decide))).trans (Cert.KernelIdeal.Gen.W14_main_arg7 m ρ c),
       (h c _ (Cert.KernelIdeal.Gen.mem_uc Cert.KernelIdeal.main_arg8 (by decide))).trans (Cert.KernelIdeal.Gen.W14_main_arg8 m ρ c),
       (h c _ (Cert.KernelIdeal.Gen.mem_uc Cert.KernelIdeal.main_arg9 (by decide))).trans (Cert.KernelIdeal.Gen.W14_main_arg9 m ρ c),
       (h c _ (Cert.KernelIdeal.Gen.mem_uc Cert.KernelIdeal.main_arg10 (by decide))).trans (Cert.KernelIdeal.Gen.W14_main_arg10 m ρ c),
       (h c _ (Cert.KernelIdeal.Gen.mem_uc Cert.KernelIdeal.main_arg11 (by decide))).trans (Cert.KernelIdeal.Gen.W14_main_arg11 m ρ c),
       (h c _ (Cert.KernelIdeal.Gen.mem_uc Cert.KernelIdeal.main_arg12 (by decide))).trans (Cert.KernelIdeal.Gen.W14_main_arg12 m ρ c)⟩) (Cert.Bridge.run_all m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v86_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
    exact (Cert.Bridge.bridge _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
